-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1250000 : Shape := ⟨2, ![2, 1250000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S64x32 .f32) (main_arg10 : FVec F S32 .f32) (main_arg11 : FVec F S32x1 .f32) (main_arg12 : FVec F S1 .f32) (main_v33 : IVec S_ 1) : IVec S_ 1 :=
  let main_v34 : FVec F S64x32 .f32 := Host.absf main_arg9
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x1 .f32 := Host.absf main_arg11
  let main_cst_16 : FVec F S_ .f32 := constant S_ .f32 0x7F800000#32
  let main_v45 : FVec F S32x1 .f32 := broadcastInDim S32x1 ![] bcast_S_S32x1 main_cst_16
  let main_v46 : IVec S32x1 1 := cmpf .olt main_v44 main_v45
  let main_c_17 : IVec S_ 1 := constantI S_ 1 1#1
  let main_v47 : IVec S_ 1 := (fun x v => Host.reduce IntOp.andi x v reducesTo_S32x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S64 .f32) (main_arg7 : FVec F S64x64 .f32) (main_arg8 : FVec F S64 .f32) (main_arg9 : FVec F S64x32 .f32) (main_arg10 : FVec F S32 .f32) (main_arg11 : FVec F S32x1 .f32) (main_arg12 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S2x1250000 32) (main_arg2 : IVec S100000 32) (main_arg3 : FVec F S128x64 .f32) (main_arg4 : FVec F S64 .f32) (main_arg5 : FVec F S64x64 .f32) (main_arg6 : FVec F S64 .f32) (main_arg7 : FVec F S64x64 .f32) (main_arg8 : FVec F S64 .f32) (main_arg9 : FVec F S64x32 .f32) (main_arg10 : FVec F S32 .f32) (main_arg11 : FVec F S32x1 .f32) (main_arg12 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S2x1250000 : Shape := ⟨2, ![2, 1250000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1250000 : Shape := ⟨2, ![1, 1250000]⟩
abbrev S1250000 : Shape := ⟨1, ![1250000]⟩
abbrev S1350000 : Shape := ⟨1, ![1350000]⟩
abbrev S_ : Shape := ⟨0, ![]⟩
abbrev S1350000x1 : Shape := ⟨2, ![1350000, 1]⟩
abbrev S100000x1 : Shape := ⟨2, ![100000, 1]⟩
abbrev S100000x64 : Shape := ⟨2, ![100000, 64]⟩
abbrev S10000x128 : Shape := ⟨2, ![10000, 128]⟩
abbrev S10000x1 : Shape := ⟨2, ![10000, 1]⟩
abbrev S10000x64 : Shape := ⟨2, ![10000, 64]⟩
abbrev S1350000x64 : Shape := ⟨2, ![1350000, 64]⟩
abbrev S1x64 : Shape := ⟨2, ![1, 64]⟩
abbrev S4096x64 : Shape := ⟨2, ![4096, 64]⟩
abbrev S4096 : Shape := ⟨1, ![4096]⟩
abbrev S4096x1 : Shape := ⟨2, ![4096, 1]⟩
abbrev S1x32 : Shape := ⟨2, ![1, 32]⟩
abbrev S1x1 : Shape := ⟨2, ![1, 1]⟩
abbrev S4096x32 : Shape := ⟨2, ![4096, 32]⟩

abbrev nBuf : Space → Nat
  | .hbm => 102
  | .vmem => 48
  | .smem => 0
  | _ => 0

abbrev bufTy : (tb : Table) → Fin (tcTables nBuf tb) → BufTy
  | .hbm, ⟨0, _⟩ => ⟨S100000x128, .f32⟩
  | .hbm, ⟨1, _⟩ => ⟨S2x1250000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x32, .f32⟩
  | .hbm, ⟨10, _⟩ => ⟨S32, .f32⟩
  | .hbm, ⟨11, _⟩ => ⟨S32x1, .f32⟩
  | .hbm, ⟨12, _⟩ => ⟨S1, .f32⟩
  | .hbm, ⟨13, _⟩ => ⟨S100000, .i32⟩
  | .hbm, ⟨14, _⟩ => ⟨S1x1250000, .i32⟩
  | .hbm, ⟨15, _⟩ => ⟨S1250000, .i32⟩
  | .hbm, ⟨16, _⟩ => ⟨S1350000, .i32⟩
  | .hbm, ⟨17, _⟩ => ⟨S1x1250000, .i32⟩
  | .hbm, ⟨18, _⟩ => ⟨S1250000, .i32⟩
  | .hbm, ⟨19, _⟩ => ⟨S1350000, .i32⟩
  | .hbm, ⟨20, _⟩ => ⟨S_, .f32⟩
  | .hbm, ⟨21, _⟩ => ⟨S1350000, .f32⟩
  | .hbm, ⟨22, _⟩ => ⟨S_, .f32⟩
  | .hbm, ⟨23, _⟩ => ⟨S100000, .f32⟩
  | .hbm, ⟨24, _⟩ => ⟨S1350000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S_, .i32⟩
  | .hbm, ⟨37, _⟩ => ⟨S1350000, .i32⟩
  | .hbm, ⟨38, _⟩ => ⟨S1350000, .i1⟩
  | .hbm, ⟨39, _⟩ => ⟨S_, .i32⟩
  | .hbm, ⟨40, _⟩ => ⟨S1350000, .i32⟩
  | .hbm, ⟨41, _⟩ => ⟨S1350000, .i32⟩
  | .hbm, ⟨42, _⟩ => ⟨S1350000, .i32⟩
  | .hbm, ⟨43, _⟩ => ⟨S1350000x1, .i32⟩
  | .hbm, ⟨44, _⟩ => ⟨S1350000x64, .f32⟩
  | .hbm, ⟨45, _⟩ => ⟨S_, .f32⟩
  | .hbm, ⟨46, _⟩ => ⟨S100000x64, .f32⟩
  | .hbm, ⟨47, _⟩ => ⟨S1350000x1, .i32⟩
  | .hbm, ⟨48, _⟩ => ⟨S100000x64, .f32⟩
  | .hbm, ⟨49, _⟩ => ⟨S1x64, .f32⟩
  | .hbm, ⟨50, _⟩ => ⟨S100000x64, .f32⟩
  | .hbm, ⟨51, _⟩ => ⟨S100000x64, .f32⟩
  | .hbm, ⟨52, _⟩ => ⟨S_, .i32⟩
  | .hbm, ⟨53, _⟩ => ⟨S1350000, .i32⟩
  | .hbm, ⟨54, _⟩ => ⟨S1350000, .i1⟩
  | .hbm, ⟨55, _⟩ => ⟨S_, .i32⟩
  | .hbm, ⟨56, _⟩ => ⟨S1350000, .i32⟩
  | .hbm, ⟨57, _⟩ => ⟨S1350000, .i32⟩
  | .hbm, ⟨58, _⟩ => ⟨S1350000, .i32⟩
  | .hbm, ⟨59, _⟩ => ⟨S1350000x1, .i32⟩
  | .hbm, ⟨60, _⟩ => ⟨S1350000x64, .f32⟩
  | .hbm, ⟨61, _⟩ => ⟨S_, .f32⟩
  | .hbm, ⟨62, _⟩ => ⟨S100000x64, .f32⟩
  | .hbm, ⟨63, _⟩ => ⟨S1350000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .i32⟩
  | .hbm, ⟨69, _⟩ => ⟨S1350000, .i32⟩
  | .hbm, ⟨70, _⟩ => ⟨S1350000, .i1⟩
  | .hbm, ⟨71, _⟩ => ⟨S_, .i32⟩
  | .hbm, ⟨72, _⟩ => ⟨S1350000, .i32⟩
  | .hbm, ⟨73, _⟩ => ⟨S1350000, .i32⟩
  | .hbm, ⟨74, _⟩ => ⟨S1350000, .i32⟩
  | .hbm, ⟨75, _⟩ => ⟨S1350000x1, .i32⟩
  | .hbm, ⟨76, _⟩ => ⟨S1350000x64, .f32⟩
  | .hbm, ⟨77, _⟩ => ⟨S_, .f32⟩
  | .hbm, ⟨78, _⟩ => ⟨S100000x64, .f32⟩
  | .hbm, ⟨79, _⟩ => ⟨S1350000x1, .i32⟩
  | .hbm, ⟨80, _⟩ => ⟨S100000x64, .f32⟩
  | .hbm, ⟨81, _⟩ => ⟨S1x64, .f32⟩
  | .hbm, ⟨82, _⟩ => ⟨S100000x64, .f32⟩
  | .hbm, ⟨83, _⟩ => ⟨S_, .f32⟩
  | .hbm, ⟨84, _⟩ => ⟨S4096x64, .f32⟩
  | .hbm, ⟨85, _⟩ => ⟨S100000x1, .i32⟩
  | .hbm, ⟨86, _⟩ => ⟨S4096x64, .f32⟩
  | .hbm, ⟨87, _⟩ => ⟨S_, .f32⟩
  | .hbm, ⟨88, _⟩ => ⟨S100000, .f32⟩
  | .hbm, ⟨89, _⟩ => ⟨S_, .f32⟩
  | .hbm, ⟨90, _⟩ => ⟨S4096, .f32⟩
  | .hbm, ⟨91, _⟩ => ⟨S100000x1, .i32⟩
  | .hbm, ⟨92, _⟩ => ⟨S4096, .f32⟩
  | .hbm, ⟨93, _⟩ => ⟨S_, .f32⟩
  | .hbm, ⟨94, _⟩ => ⟨S4096, .f32⟩
  | .hbm, ⟨95, _⟩ => ⟨S4096, .f32⟩
  | .hbm, ⟨96, _⟩ => ⟨S4096x1, .f32⟩
  | .hbm, ⟨97, _⟩ => ⟨S4096x64, .f32⟩
  | .hbm, ⟨98, _⟩ => ⟨S4096x64, .f32⟩
  | .hbm, ⟨99, _⟩ => ⟨S1x32, .f32⟩
  | .hbm, ⟨100, _⟩ => ⟨S1x1, .f32⟩
  | .hbm, ⟨101, _⟩ => ⟨S4096x1, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x1, .f32⟩
  | .local _ .vmem, ⟨4, _⟩ => ⟨S10000x1, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S64x64, .f32⟩
  | .local _ .vmem, ⟨17, _⟩ => ⟨S10000x1, .f32⟩
  | .local _ .vmem, ⟨18, _⟩ => ⟨S10000x1, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x1, .f32⟩
  | .local _ .vmem, ⟨24, _⟩ => ⟨S10000x1, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S64x64, .f32⟩
  | .local _ .vmem, ⟨31, _⟩ => ⟨S10000x1, .f32⟩
  | .local _ .vmem, ⟨32, _⟩ => ⟨S10000x1, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x1, .f32⟩
  | .local _ .vmem, ⟨38, _⟩ => ⟨S10000x1, .f32⟩
  | .local _ .vmem, ⟨39, _⟩ => ⟨S1x64, .f32⟩
  | .local _ .vmem, ⟨40, _⟩ => ⟨S10000x64, .f32⟩
  | .local _ .vmem, ⟨41, _⟩ => ⟨S10000x64, .f32⟩
  | .local _ .vmem, ⟨42, _⟩ => ⟨S4096x64, .f32⟩
  | .local _ .vmem, ⟨43, _⟩ => ⟨S64x32, .f32⟩
  | .local _ .vmem, ⟨44, _⟩ => ⟨S1x32, .f32⟩
  | .local _ .vmem, ⟨45, _⟩ => ⟨S32x1, .f32⟩
  | .local _ .vmem, ⟨46, _⟩ => ⟨S1x1, .f32⟩
  | .local _ .vmem, ⟨47, _⟩ => ⟨S4096x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_3 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_4 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_5 : Ref sig .tc := ⟨.hbm, 52, rfl⟩
abbrev main_v30 : Ref sig .tc := ⟨.hbm, 53, rfl⟩
abbrev main_v31 : Ref sig .tc := ⟨.hbm, 54, rfl⟩
abbrev main_c_6 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_7 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_8 : Ref sig .tc := ⟨.hbm, 68, rfl⟩
abbrev main_v43 : Ref sig .tc := ⟨.hbm, 69, rfl⟩
abbrev main_v44 : Ref sig .tc := ⟨.hbm, 70, rfl⟩
abbrev main_c_9 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_10 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_11 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_12 : Ref sig .tc := ⟨.hbm, 87, rfl⟩
abbrev main_v58 : Ref sig .tc := ⟨.hbm, 88, rfl⟩
abbrev main_cst_13 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_14 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc6_stg0_0 : Ref sig .tc := ⟨.vmem, 42, rfl⟩
abbrev cc6_stg1_0 : Ref sig .tc := ⟨.vmem, 43, rfl⟩
abbrev cc6_stg2_0 : Ref sig .tc := ⟨.vmem, 44, rfl⟩
abbrev cc6_stg3_0 : Ref sig .tc := ⟨.vmem, 45, rfl⟩
abbrev cc6_stg4_0 : Ref sig .tc := ⟨.vmem, 46, rfl⟩
abbrev cc6_stg5_0 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem3_1 : DmaSem sig := 41
abbrev cc6_sem0_0 : DmaSem sig := 42
abbrev cc6_sem1_0 : DmaSem sig := 43
abbrev cc6_sem2_0 : DmaSem sig := 44
abbrev cc6_sem3_0 : DmaSem sig := 45
abbrev cc6_sem4_0 : DmaSem sig := 46
abbrev cc6_sem5_0 : DmaSem sig := 47

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S10000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S4096x64 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S64x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x32 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S32x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S4096x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  slices_S2x1250000_S1x1250000_0_0 : S2x1250000.Slices ![0, 0] S1x1250000
  shapeCasts_S1x1250000_S1250000 : S1x1250000.ShapeCasts S1250000
  concatenates_S1250000_S100000_S1350000_d0 : Shape.Concatenates [S1250000, S100000] S1350000 0
  slices_S2x1250000_S1x1250000_1_0 : S2x1250000.Slices ![1, 0] S1x1250000
  bcast_S_S1350000 : S_.BroadcastsInDim S1350000 (![] : Fin 0 → Fin S1350000.rank)
  bcast_S_S100000 : S_.BroadcastsInDim S100000 (![] : Fin 0 → Fin S100000.rank)
  bcast_S1350000_S1350000x1_0 : S1350000.BroadcastsInDim S1350000x1 (![0] : Fin 1 → Fin S1350000x1.rank)
  shapeCasts_S100000_S100000x1 : S100000.ShapeCasts S100000x1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  bcast_S_S4096x64 : S_.BroadcastsInDim S4096x64 (![] : Fin 0 → Fin S4096x64.rank)
  bcast_S100000_S100000x1_0 : S100000.BroadcastsInDim S100000x1 (![0] : Fin 1 → Fin S100000x1.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x64_0_1 : S4096x1.BroadcastsInDim S4096x64 (![0, 1] : Fin 2 → Fin S4096x64.rank)
  shapeCasts_S32_S1x32 : S32.ShapeCasts S1x32
  shapeCasts_S1_S1x1 : S1.ShapeCasts S1x1
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4096x32 : S1x32.Broadcasts S4096x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  scatter_S100000_S1350000x1_S1350000_n_0_0_1_wf : ScatterDims.WF S100000 S1350000x1 S1350000 [] [0] [0] 1
  dot_S10000x128_S128x64_S10000x64_1_0_0_1_n_n_wf : DotDims.WF S10000x128 S128x64 S10000x64 [1] [0] [0] [1] [] []
  gather_S100000x64_S1350000x1_S1350000x64_1_0_n_n_0_1_164_wf : GatherDims.WF S100000x64 S1350000x1 S1350000x64 [1] [0] [] [0] [] 1 ![1, 64]
  scatter_S100000x64_S1350000x1_S1350000x64_1_0_0_1_wf : ScatterDims.WF S100000x64 S1350000x1 S1350000x64 [1] [0] [0] 1
  dot_S10000x64_S64x64_S10000x64_1_0_0_1_n_n_wf : DotDims.WF S10000x64 S64x64 S10000x64 [1] [0] [0] [1] [] []
  scatter_S4096x64_S100000x1_S100000x64_1_0_0_1_wf : ScatterDims.WF S4096x64 S100000x1 S100000x64 [1] [0] [0] 1
  scatter_S4096_S100000x1_S100000_n_0_0_1_wf : ScatterDims.WF S4096 S100000x1 S100000 [] [0] [0] 1
  dot_S4096x64_S64x32_S4096x32_1_0_0_1_n_n_wf : DotDims.WF S4096x64 S64x32 S4096x32 [1] [0] [0] [1] [] []
  dot_S4096x32_S32x1_S4096x1_1_0_0_1_n_n_wf : DotDims.WF S4096x32 S32x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S100000x1.size a
  hwx3_1 : ∀ i : grid3.Coords, EltTy.bits .f32 = 32 ∨ (Rect.block (s := S100000x1) S10000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S100000x64.size a
  hwx3_3 : ∀ i : grid3.Coords, EltTy.bits .f32 = 32 ∨ (Rect.block (s := S100000x64) S10000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x1.size a ≤ S100000x1.size a
  hwx4_2 : ∀ i : grid4.Coords, EltTy.bits .f32 = 32 ∨ (Rect.block (s := S100000x1) S10000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x64.size a ≤ S100000x64.size a
  hwx4_3 : ∀ i : grid4.Coords, EltTy.bits .f32 = 32 ∨ (Rect.block (s := S100000x64) S10000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x1.size a ≤ S100000x1.size a
  hwx5_1 : ∀ i : grid5.Coords, EltTy.bits .f32 = 32 ∨ (Rect.block (s := S100000x1) S10000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x64.size a ≤ S100000x64.size a
  hwx5_3 : ∀ i : grid5.Coords, EltTy.bits .f32 = 32 ∨ (Rect.block (s := S100000x64) S10000x64.size (cc5_transform_3 i) (hinb5_3 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S4096x64.size a ≤ S4096x64.size a
  hwx6_0 : ∀ i : grid6.Coords, EltTy.bits .f32 = 32 ∨ (Rect.block (s := S4096x64) S4096x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x32.size a ≤ S64x32.size a
  hwx6_1 : ∀ i : grid6.Coords, EltTy.bits .f32 = 32 ∨ (Rect.block (s := S64x32) S64x32.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x32.size a ≤ S1x32.size a
  hwx6_2 : ∀ i : grid6.Coords, EltTy.bits .f32 = 32 ∨ (Rect.block (s := S1x32) S1x32.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S32x1.size a ≤ S32x1.size a
  hwx6_3 : ∀ i : grid6.Coords, EltTy.bits .f32 = 32 ∨ (Rect.block (s := S32x1) S32x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x1.size a ≤ S1x1.size a
  hwx6_4 : ∀ i : grid6.Coords, EltTy.bits .f32 = 32 ∨ (Rect.block (s := S1x1) S1x1.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S4096x1.size a ≤ S4096x1.size a
  hwx6_5 : ∀ i : grid6.Coords, EltTy.bits .f32 = 32 ∨ (Rect.block (s := S4096x1) S4096x1.size (cc6_transform_5 i) (hinb6_5 i)).WholeWords (EltTy.packing .f32)

variable [Facts₀]

def scatter_S100000_S1350000x1_S1350000_n_0_0_1 : ScatterDims S100000 S1350000x1 S1350000 where
  updateWindowDims := []
  insertedWindowDims := [0]
  scatterDimsToOperandDims := [0]
  indexVectorDim := 1
  wf := scatter_S100000_S1350000x1_S1350000_n_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1350000x1_S1350000x64_1_0_n_n_0_1_164 : GatherDims S100000x64 S1350000x1 S1350000x64 where
  offsetDims := [1]
  collapsedSliceDims := [0]
  operandBatchingDims := []
  startIndicesBatchingDims := []
  startIndexMap := [0]
  indexVectorDim := 1
  sliceSizes := ![1, 64]
  wf := gather_S100000x64_S1350000x1_S1350000x64_1_0_n_n_0_1_164_wf
def scatter_S100000x64_S1350000x1_S1350000x64_1_0_0_1 : ScatterDims S100000x64 S1350000x1 S1350000x64 where
  updateWindowDims := [1]
  insertedWindowDims := [0]
  scatterDimsToOperandDims := [0]
  indexVectorDim := 1
  wf := scatter_S100000x64_S1350000x1_S1350000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S4096x64_S100000x1_S100000x64_1_0_0_1 : ScatterDims S4096x64 S100000x1 S100000x64 where
  updateWindowDims := [1]
  insertedWindowDims := [0]
  scatterDimsToOperandDims := [0]
  indexVectorDim := 1
  wf := scatter_S4096x64_S100000x1_S100000x64_1_0_0_1_wf
def scatter_S4096_S100000x1_S100000_n_0_0_1 : ScatterDims S4096 S100000x1 S100000 where
  updateWindowDims := []
  insertedWindowDims := [0]
  scatterDimsToOperandDims := [0]
  indexVectorDim := 1
  wf := scatter_S4096_S100000x1_S100000_n_0_0_1_wf
def dot_S4096x64_S64x32_S4096x32_1_0_0_1_n_n : DotDims S4096x64 S64x32 S4096x32 where
  lhsContracting := [1]
  rhsContracting := [0]
  lhsNonContracting := [0]
  rhsNonContracting := [1]
  lhsBatch := []
  rhsBatch := []
  wf := dot_S4096x64_S64x32_S4096x32_1_0_0_1_n_n_wf
def dot_S4096x32_S32x1_S4096x1_1_0_0_1_n_n : DotDims S4096x32 S32x1 S4096x1 where
  lhsContracting := [1]
  rhsContracting := [0]
  lhsNonContracting := [0]
  rhsNonContracting := [1]
  lhsBatch := []
  rhsBatch := []
  wf := dot_S4096x32_S32x1_S4096x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v28) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v29) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v39) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v40) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v41) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v41) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v15) S10000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v42) S10000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v52) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v15) S10000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v53) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v54) S10000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v66) S4096x64.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S64x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v67) S1x32.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg11) S32x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v68) S1x1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v69) S4096x1.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1250000 : Shape := ⟨2, ![2, 1250000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1250000 : Shape := ⟨2, ![1, 1250000]⟩
abbrev S1250000 : Shape := ⟨1, ![1250000]⟩
abbrev S1350000 : Shape := ⟨1, ![1350000]⟩
abbrev S_ : Shape := ⟨0, ![]⟩
abbrev S1350000x1 : Shape := ⟨2, ![1350000, 1]⟩
abbrev S100000x64 : Shape := ⟨2, ![100000, 64]⟩
abbrev S1350000x64 : Shape := ⟨2, ![1350000, 64]⟩
abbrev S1x64 : Shape := ⟨2, ![1, 64]⟩
abbrev S4096x64 : Shape := ⟨2, ![4096, 64]⟩
abbrev S100000x1 : Shape := ⟨2, ![100000, 1]⟩
abbrev S4096 : Shape := ⟨1, ![4096]⟩
abbrev S4096x1 : Shape := ⟨2, ![4096, 1]⟩
abbrev S4096x32 : Shape := ⟨2, ![4096, 32]⟩
abbrev S1x32 : Shape := ⟨2, ![1, 32]⟩
abbrev S1x1 : Shape := ⟨2, ![1, 1]⟩

abbrev nBuf : Space → Nat
  | .hbm => 149
  | .vmem => 0
  | .smem => 0
  | _ => 0

abbrev hbmTy0_0 (i : Nat) : BufTy := match i % 128 with
  | 0 => ⟨S100000x128, .f32⟩
  | 1 => ⟨S2x1250000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x32, .f32⟩
  | 10 => ⟨S32, .f32⟩
  | 11 => ⟨S32x1, .f32⟩
  | 12 => ⟨S1, .f32⟩
  | 13 => ⟨S100000, .i32⟩
  | 14 => ⟨S1x1250000, .i32⟩
  | 15 => ⟨S1250000, .i32⟩
  | 16 => ⟨S1350000, .i32⟩
  | 17 => ⟨S1x1250000, .i32⟩
  | 18 => ⟨S1250000, .i32⟩
  | 19 => ⟨S1350000, .i32⟩
  | 20 => ⟨S_, .f32⟩
  | 21 => ⟨S1350000, .f32⟩
  | 22 => ⟨S_, .f32⟩
  | 23 => ⟨S100000, .f32⟩
  | 24 => ⟨S1350000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1350000, .i32⟩
  | 36 => ⟨S1350000, .i1⟩
  | 37 => ⟨S_, .i32⟩
  | 38 => ⟨S1350000, .i32⟩
  | 39 => ⟨S1350000, .i32⟩
  | 40 => ⟨S1350000, .i32⟩
  | 41 => ⟨S1350000x1, .i32⟩
  | 42 => ⟨S1350000, .f32⟩
  | 43 => ⟨S_, .i32⟩
  | 44 => ⟨S1350000, .i32⟩
  | 45 => ⟨S1350000, .i1⟩
  | 46 => ⟨S_, .i32⟩
  | 47 => ⟨S1350000, .i32⟩
  | 48 => ⟨S1350000, .i32⟩
  | 49 => ⟨S1350000, .i32⟩
  | 50 => ⟨S1350000x1, .i32⟩
  | 51 => ⟨S1350000, .f32⟩
  | 52 => ⟨S1350000, .f32⟩
  | 53 => ⟨S100000x64, .f32⟩
  | 54 => ⟨S_, .i32⟩
  | 55 => ⟨S1350000, .i32⟩
  | 56 => ⟨S1350000, .i1⟩
  | 57 => ⟨S_, .i32⟩
  | 58 => ⟨S1350000, .i32⟩
  | 59 => ⟨S1350000, .i32⟩
  | 60 => ⟨S1350000, .i32⟩
  | 61 => ⟨S1350000x1, .i32⟩
  | 62 => ⟨S1350000x64, .f32⟩
  | 63 => ⟨S1350000x1, .f32⟩
  | 64 => ⟨S1350000x64, .f32⟩
  | 65 => ⟨S1350000x64, .f32⟩
  | 66 => ⟨S_, .f32⟩
  | 67 => ⟨S100000x64, .f32⟩
  | 68 => ⟨S1350000x1, .i32⟩
  | 69 => ⟨S100000x64, .f32⟩
  | 70 => ⟨S1x64, .f32⟩
  | 71 => ⟨S100000x64, .f32⟩
  | 72 => ⟨S100000x64, .f32⟩
  | 73 => ⟨S_, .f32⟩
  | 74 => ⟨S100000x64, .f32⟩
  | 75 => ⟨S100000x64, .f32⟩
  | 76 => ⟨S100000x64, .f32⟩
  | 77 => ⟨S_, .i32⟩
  | 78 => ⟨S1350000, .i32⟩
  | 79 => ⟨S1350000, .i1⟩
  | 80 => ⟨S_, .i32⟩
  | 81 => ⟨S1350000, .i32⟩
  | 82 => ⟨S1350000, .i32⟩
  | 83 => ⟨S1350000, .i32⟩
  | 84 => ⟨S1350000x1, .i32⟩
  | 85 => ⟨S1350000x64, .f32⟩
  | 86 => ⟨S1350000x1, .f32⟩
  | 87 => ⟨S1350000x64, .f32⟩
  | 88 => ⟨S1350000x64, .f32⟩
  | 89 => ⟨S_, .f32⟩
  | 90 => ⟨S100000x64, .f32⟩
  | 91 => ⟨S1350000x1, .i32⟩
  | 92 => ⟨S100000x64, .f32⟩
  | 93 => ⟨S1x64, .f32⟩
  | 94 => ⟨S100000x64, .f32⟩
  | 95 => ⟨S100000x64, .f32⟩
  | 96 => ⟨S_, .f32⟩
  | 97 => ⟨S100000x64, .f32⟩
  | 98 => ⟨S100000x64, .f32⟩
  | 99 => ⟨S100000x64, .f32⟩
  | 100 => ⟨S_, .i32⟩
  | 101 => ⟨S1350000, .i32⟩
  | 102 => ⟨S1350000, .i1⟩
  | 103 => ⟨S_, .i32⟩
  | 104 => ⟨S1350000, .i32⟩
  | 105 => ⟨S1350000, .i32⟩
  | 106 => ⟨S1350000, .i32⟩
  | 107 => ⟨S1350000x1, .i32⟩
  | 108 => ⟨S1350000x64, .f32⟩
  | 109 => ⟨S1350000x1, .f32⟩
  | 110 => ⟨S1350000x64, .f32⟩
  | 111 => ⟨S1350000x64, .f32⟩
  | 112 => ⟨S_, .f32⟩
  | 113 => ⟨S100000x64, .f32⟩
  | 114 => ⟨S1350000x1, .i32⟩
  | 115 => ⟨S100000x64, .f32⟩
  | 116 => ⟨S1x64, .f32⟩
  | 117 => ⟨S100000x64, .f32⟩
  | 118 => ⟨S100000x64, .f32⟩
  | 119 => ⟨S_, .f32⟩
  | 120 => ⟨S100000x64, .f32⟩
  | 121 => ⟨S100000x64, .f32⟩
  | 122 => ⟨S_, .f32⟩
  | 123 => ⟨S4096x64, .f32⟩
  | 124 => ⟨S100000x1, .i32⟩
  | 125 => ⟨S4096x64, .f32⟩
  | 126 => ⟨S_, .f32⟩
  | 127 => ⟨S100000, .f32⟩
  | _ => ⟨S100000x128, .f32⟩

abbrev hbmTy0_1 (i : Nat) : BufTy := match i % 128 with
  | 0 => ⟨S_, .f32⟩
  | 1 => ⟨S4096, .f32⟩
  | 2 => ⟨S100000x1, .i32⟩
  | 3 => ⟨S4096, .f32⟩
  | 4 => ⟨S_, .f32⟩
  | 5 => ⟨S4096, .f32⟩
  | 6 => ⟨S4096, .f32⟩
  | 7 => ⟨S4096x1, .f32⟩
  | 8 => ⟨S4096x64, .f32⟩
  | 9 => ⟨S4096x64, .f32⟩
  | 10 => ⟨S4096x32, .f32⟩
  | 11 => ⟨S1x32, .f32⟩
  | 12 => ⟨S4096x32, .f32⟩
  | 13 => ⟨S4096x32, .f32⟩
  | 14 => ⟨S_, .f32⟩
  | 15 => ⟨S4096x32, .f32⟩
  | 16 => ⟨S4096x32, .f32⟩
  | 17 => ⟨S4096x1, .f32⟩
  | 18 => ⟨S1x1, .f32⟩
  | 19 => ⟨S4096x1, .f32⟩
  | 20 => ⟨S4096x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call1_cst : Ref sig .tc := ⟨.hbm, 73, rfl⟩
abbrev main_call1_v0 : Ref sig .tc := ⟨.hbm, 74, rfl⟩
abbrev main_v47 : Ref sig .tc := ⟨.hbm, 75, rfl⟩
abbrev main_v48 : Ref sig .tc := ⟨.hbm, 76, rfl⟩
abbrev main_c_9 : Ref sig .tc := ⟨.hbm, 77, rfl⟩
abbrev main_v49 : Ref sig .tc := ⟨.hbm, 78, rfl⟩
abbrev main_v50 : Ref sig .tc := ⟨.hbm, 79, rfl⟩
abbrev main_c_10 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_11 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_call2_cst : Ref sig .tc := ⟨.hbm, 96, rfl⟩
abbrev main_call2_v0 : Ref sig .tc := ⟨.hbm, 97, rfl⟩
abbrev main_v65 : Ref sig .tc := ⟨.hbm, 98, rfl⟩
abbrev main_v66 : Ref sig .tc := ⟨.hbm, 99, rfl⟩
abbrev main_c_12 : Ref sig .tc := ⟨.hbm, 100, rfl⟩
abbrev main_v67 : Ref sig .tc := ⟨.hbm, 101, rfl⟩
abbrev main_v68 : Ref sig .tc := ⟨.hbm, 102, rfl⟩
abbrev main_c_13 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_14 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_call3_cst : Ref sig .tc := ⟨.hbm, 119, rfl⟩
abbrev main_call3_v0 : Ref sig .tc := ⟨.hbm, 120, rfl⟩
abbrev main_v83 : Ref sig .tc := ⟨.hbm, 121, rfl⟩
abbrev main_cst_15 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_16 : Ref sig .tc := ⟨.hbm, 126, rfl⟩
abbrev main_v87 : Ref sig .tc := ⟨.hbm, 127, rfl⟩
abbrev main_cst_17 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst_18 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_call4_cst : Ref sig .tc := ⟨.hbm, 142, rfl⟩
abbrev main_call4_v0 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  concatenates_S1250000_S100000_S1350000_d0 : Shape.Concatenates [S1250000, S100000] S1350000 0
  slices_S2x1250000_S1x1250000_1_0 : S2x1250000.Slices ![1, 0] S1x1250000
  bcast_S_S1350000 : S_.BroadcastsInDim S1350000 (![] : Fin 0 → Fin S1350000.rank)
  bcast_S_S100000 : S_.BroadcastsInDim S100000 (![] : Fin 0 → Fin S100000.rank)
  bcast_S1350000_S1350000x1_0 : S1350000.BroadcastsInDim S1350000x1 (![0] : Fin 1 → Fin S1350000x1.rank)
  bcast_S1350000x1_S1350000x64_0_1 : S1350000x1.BroadcastsInDim S1350000x64 (![0, 1] : Fin 2 → Fin S1350000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S4096x64 : S_.BroadcastsInDim S4096x64 (![] : Fin 0 → Fin S4096x64.rank)
  bcast_S100000_S100000x1_0 : S100000.BroadcastsInDim S100000x1 (![0] : Fin 1 → Fin S100000x1.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x64_0_1 : S4096x1.BroadcastsInDim S4096x64 (![0, 1] : Fin 2 → Fin S4096x64.rank)
  bcast_S32_S1x32_1 : S32.BroadcastsInDim S1x32 (![1] : Fin 1 → Fin S1x32.rank)
  bcast_S1x32_S4096x32_0_1 : S1x32.BroadcastsInDim S4096x32 (![0, 1] : Fin 2 → Fin S4096x32.rank)
  bcast_S_S4096x32 : S_.BroadcastsInDim S4096x32 (![] : Fin 0 → Fin S4096x32.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  scatter_S100000_S1350000x1_S1350000_n_0_0_1_wf : ScatterDims.WF S100000 S1350000x1 S1350000 [] [0] [0] 1
  gather_S100000_S1350000x1_S1350000_n_0_n_n_0_1_1_wf : GatherDims.WF S100000 S1350000x1 S1350000 [] [0] [] [0] [] 1 ![1]
  dot_S100000x128_S128x64_S100000x64_1_0_0_1_n_n_wf : DotDims.WF S100000x128 S128x64 S100000x64 [1] [0] [0] [1] [] []
  gather_S100000x64_S1350000x1_S1350000x64_1_0_n_n_0_1_164_wf : GatherDims.WF S100000x64 S1350000x1 S1350000x64 [1] [0] [] [0] [] 1 ![1, 64]
  scatter_S100000x64_S1350000x1_S1350000x64_1_0_0_1_wf : ScatterDims.WF S100000x64 S1350000x1 S1350000x64 [1] [0] [0] 1
  dot_S100000x64_S64x64_S100000x64_1_0_0_1_n_n_wf : DotDims.WF S100000x64 S64x64 S100000x64 [1] [0] [0] [1] [] []
  scatter_S4096x64_S100000x1_S100000x64_1_0_0_1_wf : ScatterDims.WF S4096x64 S100000x1 S100000x64 [1] [0] [0] 1
  scatter_S4096_S100000x1_S100000_n_0_0_1_wf : ScatterDims.WF S4096 S100000x1 S100000 [] [0] [0] 1
  dot_S4096x64_S64x32_S4096x32_1_0_0_1_n_n_wf : DotDims.WF S4096x64 S64x32 S4096x32 [1] [0] [0] [1] [] []
  dot_S4096x32_S32x1_S4096x1_1_0_0_1_n_n_wf : DotDims.WF S4096x32 S32x1 S4096x1 [1] [0] [0] [1] [] []

variable [Facts₀]

def scatter_S100000_S1350000x1_S1350000_n_0_0_1 : ScatterDims S100000 S1350000x1 S1350000 where
  updateWindowDims := []
  insertedWindowDims := [0]
  scatterDimsToOperandDims := [0]
  indexVectorDim := 1
  wf := scatter_S100000_S1350000x1_S1350000_n_0_0_1_wf
def gather_S100000_S1350000x1_S1350000_n_0_n_n_0_1_1 : GatherDims S100000 S1350000x1 S1350000 where
  offsetDims := []
  collapsedSliceDims := [0]
  operandBatchingDims := []
  startIndicesBatchingDims := []
  startIndexMap := [0]
  indexVectorDim := 1
  sliceSizes := ![1]
  wf := gather_S100000_S1350000x1_S1350000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1350000x1_S1350000x64_1_0_n_n_0_1_164 : GatherDims S100000x64 S1350000x1 S1350000x64 where
  offsetDims := [1]
  collapsedSliceDims := [0]
  operandBatchingDims := []
  startIndicesBatchingDims := []
  startIndexMap := [0]
  indexVectorDim := 1
  sliceSizes := ![1, 64]
  wf := gather_S100000x64_S1350000x1_S1350000x64_1_0_n_n_0_1_164_wf
def scatter_S100000x64_S1350000x1_S1350000x64_1_0_0_1 : ScatterDims S100000x64 S1350000x1 S1350000x64 where
  updateWindowDims := [1]
  insertedWindowDims := [0]
  scatterDimsToOperandDims := [0]
  indexVectorDim := 1
  wf := scatter_S100000x64_S1350000x1_S1350000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S4096x64_S100000x1_S100000x64_1_0_0_1 : ScatterDims S4096x64 S100000x1 S100000x64 where
  updateWindowDims := [1]
  insertedWindowDims := [0]
  scatterDimsToOperandDims := [0]
  indexVectorDim := 1
  wf := scatter_S4096x64_S100000x1_S100000x64_1_0_0_1_wf
def scatter_S4096_S100000x1_S100000_n_0_0_1 : ScatterDims S4096 S100000x1 S100000 where
  updateWindowDims := []
  insertedWindowDims := [0]
  scatterDimsToOperandDims := [0]
  indexVectorDim := 1
  wf := scatter_S4096_S100000x1_S100000_n_0_0_1_wf
def dot_S4096x64_S64x32_S4096x32_1_0_0_1_n_n : DotDims S4096x64 S64x32 S4096x32 where
  lhsContracting := [1]
  rhsContracting := [0]
  lhsNonContracting := [0]
  rhsNonContracting := [1]
  lhsBatch := []
  rhsBatch := []
  wf := dot_S4096x64_S64x32_S4096x32_1_0_0_1_n_n_wf
def dot_S4096x32_S32x1_S4096x1_1_0_0_1_n_n : DotDims S4096x32 S32x1 S4096x1 where
  lhsContracting := [1]
  rhsContracting := [0]
  lhsNonContracting := [0]
  rhsNonContracting := [1]
  lhsBatch := []
  rhsBatch := []
  wf := dot_S4096x32_S32x1_S4096x1_1_0_0_1_n_n_wf

class Facts : Prop extends Facts₀ where

variable [Facts]
-- ==== Proof.KRun.lean ====
/-
  The kernel program's run with its result named. Its @main is seven dense stages among stretches of host operations;
  run from any memory with zero counters, every weakly fair execution terminates without a fault, the result buffer
  ends at the last boundary's contents of it — the contents folded through every stretch and every stage from the launch
  memory — and every argument array ends as launched.
-/
import proofs.«108338_j35966056137051_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer holds the last boundary's
    contents and the argument arrays are as launched. -/
theorem run_main : θ_run defs (onTc (τ := τ) (main (F := F))) ⟨m, fun _ => 0, ρ⟩ (fun r => ∀ c : Dev nD,
      r.2.mem ((c.tc : Thread nD τ).loc main_v69) = W14 m ρ c (Proc.devRef .tc main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v69 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c)⟩)

end Cert.KernelIdeal.KRun

end
-- ==== Proof.Spec.lean ====
/-
  The three dense stages of the graph network as whole-array functions over the extended reals, entry by entry.

  * `scaledProduct X W d`: the matrix product `X · W`, row `p` then multiplied by the entry `d p` of a column.
  * `scaleBiasRelu A d b`: entry `(p, q)` of `A` multiplied by `d p`, plus the bias `b q`, clamped below at zero.
  * `mlpHead P W1 b1 W2 b2`: for each row `g` of `P`, the hidden vector `max (P g · W1 + b1) 0` contracted with the
    single column `W2`, plus the scalar `b2`.

  Every sum is a finite sum of extended reals and every product the extended reals' product; nothing is assumed finite.
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals with `a` rows and `b` columns, as a function of its two-coordinate index. -/
abbrev Mat (a b : Nat) := (⟨2, ![a, b]⟩ : Shape).Idx → EReal

/-- The matrix whose entry `(p, q)` is `f p q`. -/
def ofEntries {a b : Nat} (f : Fin a → Fin b → EReal) : Mat a b :=
  fun i => f ⟨(i 0).val, idx2_lt0 i⟩ ⟨(i 1).val, idx2_lt1 i⟩

theorem ofEntries_ix2 {a b : Nat} (f : Fin a → Fin b → EReal) (p : Fin a) (q : Fin b) :
    ofEntries f (ix2 p q) = f p q := rfl

/-- `(X · W)` with row `p` multiplied by `d p`. -/
def scaledProduct {n k c : Nat} (X : Mat n k) (W : Mat k c) (d : Mat n 1) : Mat n c :=
  ofEntries fun p q => (∑ j : Fin k, X (ix2 p j) * W (ix2 j q)) * d (ix2 p (0 : Fin 1))

/-- `max (A p q · d p + b q) 0`. -/
def scaleBiasRelu {n c : Nat} (A : Mat n c) (d : Mat n 1) (b : Mat 1 c) : Mat n c :=
  ofEntries fun p q => max (A (ix2 p q) * d (ix2 p (0 : Fin 1)) + b (ix2 (0 : Fin 1) q)) 0

/-- `(∑ j, max ((∑ k, P g k · W1 k j) + b1 j) 0 · W2 j) + b2`, one number per row `g`. -/
def mlpHead {g h1 h2 : Nat} (P : Mat g h1) (W1 : Mat h1 h2) (b1 : Mat 1 h2) (W2 : Mat h2 1) (b2 : Mat 1 1) : Mat g 1 :=
  ofEntries fun r _ => (∑ j : Fin h2, max ((∑ k : Fin h1, P (ix2 r k) * W1 (ix2 k j)) + b1 (ix2 (0 : Fin 1) j)) 0
    * W2 (ix2 j (0 : Fin 1))) + b2 (ix2 (0 : Fin 1) (0 : Fin 1))

end Cert.Spec

end
-- ==== Proof.KDefs.lean ====
/-
  The values the kernel program's host operations compute around its seven dense stages, as functions of the
  argument arrays at the exact instance (floats are extended reals).

  From the edge list: the source and destination node of every edge with one self loop per node appended (`srcRaw`,
  `dstRaw`), the source wrapped into range for a row lookup (`srcIdx`), the in-degree of every node counted by a
  scatter of ones (`deg`), and `dinv`, its reciprocal square root where the degree is positive and zero elsewhere,
  also as a one-column matrix (`dinvCol`). One graph-convolution layer (`layer`): the scaled product of the input
  with the weights, its rows gathered at the edges' sources and summed into the edges' destinations (`aggregate`),
  then scaled again, shifted by the bias and clamped at zero. The per-graph mean of the last layer's rows
  (`pooled`), and the two-layer head on it (`value`).
-/
import proofs.«108338_j35966056137051_1_alg».proof.KernelIdeal
import proofs.«108338_j35966056137051_1_alg».proof.Proof.Gen.KernelIdeal
import proofs.«108338_j35966056137051_1_alg».proof.Proof.Spec

noncomputable section

namespace Cert.KernelIdeal.KDefs

open Idealize.ShloMosaic Cert.KernelIdeal Cert.KernelIdeal.Facts₀

/-- Sources of the edges, then one self loop per node. -/
def srcRaw (ei : IVec S2x1250000 32) : IVec S1350000 32 :=
  concatenate S1350000 0 [⟨S1250000, shapeCast _ (extractStridedSlice S1x1250000 ![0, 0] ei slices_S2x1250000_S1x1250000_0_0) shapeCasts_S1x1250000_S1250000⟩, ⟨S100000, iotaInDim S100000 32 0⟩] concatenates_S1250000_S100000_S1350000_d0

/-- Destinations of the edges, then one self loop per node. -/
def dstRaw (ei : IVec S2x1250000 32) : IVec S1350000 32 :=
  concatenate S1350000 0 [⟨S1250000, shapeCast _ (extractStridedSlice S1x1250000 ![1, 0] ei slices_S2x1250000_S1x1250000_1_0) shapeCasts_S1x1250000_S1250000⟩, ⟨S100000, iotaInDim S100000 32 0⟩] concatenates_S1250000_S100000_S1350000_d0

/-- The source of each edge as a row number for a lookup: a negative number has the node count added. -/
def srcIdx (ei : IVec S2x1250000 32) : IVec S1350000x1 32 :=
  broadcastInDim S1350000x1 ![0] bcast_S1350000_S1350000x1_0
    (select (cmpi .slt (srcRaw ei) (broadcastInDim S1350000 ![] bcast_S_S1350000 (constantI S_ 32 0#32)))
      (addi (srcRaw ei) (broadcastInDim S1350000 ![] bcast_S_S1350000 (constantI S_ 32 100000#32))) (srcRaw ei))

/-- The destination of each edge as the bucket of a segment sum. -/
def dstIdx (ei : IVec S2x1250000 32) : IVec S1350000x1 32 :=
  broadcastInDim S1350000x1 ![0] bcast_S1350000_S1350000x1_0 (dstRaw ei)

/-- The number of edges into each node. -/
def deg (ei : IVec S2x1250000 32) : FVec Ideal S100000 .f32 :=
  Host.scatterAdd scatter_S100000_S1350000x1_S1350000_n_0_0_1
    (broadcastInDim S100000 ![] bcast_S_S100000 (constant S_ .f32 0x00000000#32)) (dstIdx ei)
    (broadcastInDim S1350000 ![] bcast_S_S1350000 (constant S_ .f32 0x3F800000#32))

/-- `1 / sqrt deg` where the degree is positive, zero elsewhere. -/
def dinv (ei : IVec S2x1250000 32) : FVec Ideal S100000 .f32 :=
  select (cmpf .ogt (deg ei) (broadcastInDim S100000 ![] bcast_S_S100000 (constant S_ .f32 0x00000000#32)))
    (Host.rsqrt (deg ei)) (broadcastInDim S100000 ![] bcast_S_S100000 (id (constant S_ .f32 0x00000000#32)))

/-- `dinv` as a one-column matrix. -/
def dinvCol (ei : IVec S2x1250000 32) : FVec Ideal S100000x1 .f32 :=
  shapeCast _ (dinv ei) shapeCasts_S100000_S100000x1

/-- Row `n` of the result is the sum of the rows `A[src e]` over the edges `e` into `n`. -/
def aggregate (A : FVec Ideal S100000x64 .f32) (ei : IVec S2x1250000 32) : FVec Ideal S100000x64 .f32 :=
  Host.scatterAdd scatter_S100000x64_S1350000x1_S1350000x64_1_0_0_1
    (broadcastInDim S100000x64 ![] bcast_S_S100000x64 (constant S_ .f32 0x00000000#32)) (dstIdx ei)
    (Host.gather gather_S100000x64_S1350000x1_S1350000x64_1_0_n_n_0_1_164 A (srcIdx ei))

/-- One graph-convolution layer on an input with `k` features. -/
def layer {k : Nat} (X : Spec.Mat 100000 k) (W : Spec.Mat k 64) (b : FVec Ideal S64 .f32) (ei : IVec S2x1250000 32) :
    FVec Ideal S100000x64 .f32 :=
  Spec.scaleBiasRelu (aggregate (Spec.scaledProduct X W (dinvCol ei)) ei) (dinvCol ei) (shapeCast _ b shapeCasts_S64_S1x64)

/-- The mean of the rows of `H` over each graph: the rows summed per graph number, divided by the graph's node count
    or by one if the graph is empty. -/
def pooled (H : FVec Ideal S100000x64 .f32) (batch : IVec S100000 32) : FVec Ideal S4096x64 .f32 :=
  Host.divf
    (Host.scatterAdd scatter_S4096x64_S100000x1_S100000x64_1_0_0_1
      (broadcastInDim S4096x64 ![] bcast_S_S4096x64 (constant S_ .f32 0x00000000#32))
      (broadcastInDim S100000x1 ![0] bcast_S100000_S100000x1_0 batch) H)
    (broadcastInDim S4096x64 ![0, 1] bcast_S4096x1_S4096x64_0_1
      (broadcastInDim S4096x1 ![0] bcast_S4096_S4096x1_0
        (maximumf
          (Host.scatterAdd scatter_S4096_S100000x1_S100000_n_0_0_1
            (broadcastInDim S4096 ![] bcast_S_S4096 (constant S_ .f32 0x00000000#32))
            (broadcastInDim S100000x1 ![0] bcast_S100000_S100000x1_0 batch)
            (broadcastInDim S100000 ![] bcast_S_S100000 (constant S_ .f32 0x3F800000#32)))
          (broadcastInDim S4096 ![] bcast_S_S4096 (constant S_ .f32 0x3F800000#32)))))

/-- The program's result: three layers, the per-graph mean, the head. -/
def value (x : FVec Ideal S100000x128 .f32) (ei : IVec S2x1250000 32) (batch : IVec S100000 32)
    (W1 : FVec Ideal S128x64 .f32) (b1 : FVec Ideal S64 .f32) (W2 : FVec Ideal S64x64 .f32) (b2 : FVec Ideal S64 .f32)
    (W3 : FVec Ideal S64x64 .f32) (b3 : FVec Ideal S64 .f32) (Wl1 : FVec Ideal S64x32 .f32) (bl1 : FVec Ideal S32 .f32)
    (Wl2 : FVec Ideal S32x1 .f32) (bl2 : FVec Ideal S1 .f32) : FVec Ideal S4096x1 .f32 :=
  Spec.mlpHead (pooled (layer (layer (layer x W1 b1 ei) W2 b2 ei) W3 b3 ei) batch) Wl1
    (shapeCast _ bl1 shapeCasts_S32_S1x32) Wl2 (shapeCast _ bl2 shapeCasts_S1_S1x1)

end Cert.KernelIdeal.KDefs

end
-- ==== Proof.KKeep.lean ====
/-
  What the kernel program's buffers hold at the boundaries between its segments (a stretch of host operations or a
  dense stage): a buffer that a segment neither writes nor, as a stage's output, replaces holds after the segment what
  it held before it. Each lemma walks one buffer back over the segments between two boundaries: over a stretch because
  none of its operations writes the buffer, over a stage because the buffer is none of its arrays or is one of its
  inputs, which a stage leaves as it found them.
-/
import proofs.«108338_j35966056137051_1_alg».proof.Proof.Gen.KernelIdeal.Frame

set_option maxRecDepth 16384

noncomputable section

namespace Cert.KernelIdeal.KKeep

open Idealize.ShloMosaic Idealize.ShloMosaic.TcCoe Idealize.ShloMosaic.Tactic Idealize.SL.Sem
open Cert.KernelIdeal Cert.KernelIdeal.Gen

variable {F : FTy → Type} [FloatOps F]
variable (m : (ℓ : Loc nD τ sig) → Buf (Elt F) ℓ) (ρ : Dev nD → PrngReg) (c : Dev nD)

theorem keep_main_v3_4_1 : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := StableHlo.after_of_forall_not_mem (b := Proc.devRef .tc main_v3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v3_7_4 : W7 m ρ c (Proc.devRef .tc main_v3) = W4 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v3_10_7 : W10 m ρ c (Proc.devRef .tc main_v3) = W7 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := W9_of_ne m ρ c main_v3 (by decide)
    _ = W7 m ρ c (Proc.devRef .tc main_v3) := StableHlo.after_of_forall_not_mem (b := Proc.devRef .tc main_v3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v6_4_1 : W4 m ρ c (Proc.devRef .tc main_v6) = W1 m ρ c (Proc.devRef .tc main_v6) :=
  calc W4 m ρ c (Proc.devRef .tc main_v6)
    _ = W3 m ρ c (Proc.devRef .tc main_v6) := W4_of_ne m ρ c main_v6 (by decide)
    _ = W2 m ρ c (Proc.devRef .tc main_v6) := StableHlo.after_of_forall_not_mem (b := Proc.devRef .tc main_v6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v6) := StableHlo.after_of_forall_not_mem (b := Proc.devRef .tc main_v6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v6_7_4 : W7 m ρ c (Proc.devRef .tc main_v6) = W4 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v6_10_7 : W10 m ρ c (Proc.devRef .tc main_v6) = W7 m ρ c (Proc.devRef .tc main_v6) :=
  calc W10 m ρ c (Proc.devRef .tc main_v6)
    _ = W9 m ρ c (Proc.devRef .tc main_v6) := W10_of_ne m ρ c main_v6 (by decide)
    _ = W8 m ρ c (Proc.devRef .tc main_v6) := W9_of_ne m ρ c main_v6 (by decide)
    _ = W7 m ρ c (Proc.devRef .tc main_v6) := StableHlo.after_of_forall_not_mem (b := Proc.devRef .tc main_v6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v15_5_3 : W5 m ρ c (Proc.devRef .tc main_v15) = W3 m ρ c (Proc.devRef .tc main_v15) :=
  calc W5 m ρ c (Proc.devRef .tc main_v15)
    _ = W4 m ρ c (Proc.devRef .tc main_v15) := StableHlo.after_of_forall_not_mem (b := Proc.devRef .tc main_v15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v15) := (W4_arr m ρ c 2).trans (((dat0 (V3 m ρ) c).arrAt_in 2 rfl _).trans (A_eq0 (V3 m ρ) c 2))

theorem keep_main_v15_6_5 : W6 m ρ c (Proc.devRef .tc main_v15) = W5 m ρ c (Proc.devRef .tc main_v15) :=
  calc W6 m ρ c (Proc.devRef .tc main_v15)
    _ = W5 m ρ c (Proc.devRef .tc main_v15) := (W6_arr m ρ c 1).trans (((dat1 (V5 m ρ) c).arrAt_in 1 rfl _).trans (A_eq1 (V5 m ρ) c 1))

theorem keep_main_v15_8_6 : W8 m ρ c (Proc.devRef .tc main_v15) = W6 m ρ c (Proc.devRef .tc main_v15) :=
  calc W8 m ρ c (Proc.devRef .tc main_v15)
    _ = W7 m ρ c (Proc.devRef .tc main_v15) := StableHlo.after_of_forall_not_mem (b := Proc.devRef .tc main_v15) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v15) := (W7_arr m ρ c 2).trans (((dat2 (V6 m ρ) c).arrAt_in 2 rfl _).trans (A_eq2 (V6 m ρ) c 2))

theorem keep_main_v15_9_8 : W9 m ρ c (Proc.devRef .tc main_v15) = W8 m ρ c (Proc.devRef .tc main_v15) :=
  calc W9 m ρ c (Proc.devRef .tc main_v15)
    _ = W8 m ρ c (Proc.devRef .tc main_v15) := (W9_arr m ρ c 1).trans (((dat3 (V8 m ρ) c).arrAt_in 1 rfl _).trans (A_eq3 (V8 m ρ) c 1))

theorem keep_main_v15_11_9 : W11 m ρ c (Proc.devRef .tc main_v15) = W9 m ρ c (Proc.devRef .tc main_v15) :=
  calc W11 m ρ c (Proc.devRef .tc main_v15)
    _ = W10 m ρ c (Proc.devRef .tc main_v15) := StableHlo.after_of_forall_not_mem (b := Proc.devRef .tc main_v15) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v15) := (W10_arr m ρ c 2).trans (((dat4 (V9 m ρ) c).arrAt_in 2 rfl _).trans (A_eq4 (V9 m ρ) c 2))

theorem keep_main_arg0_3_0 : W3 m ρ c (Proc.devRef .tc main_arg0) = W0 m ρ c (Proc.devRef .tc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg3_3_0 : W3 m ρ c (Proc.devRef .tc main_arg3) = W0 m ρ c (Proc.devRef .tc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg4_4_0 : W4 m ρ c (Proc.devRef .tc main_arg4) = W0 m ρ c (Proc.devRef .tc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg5_6_0 : W6 m ρ c (Proc.devRef .tc main_arg5) = W0 m ρ c (Proc.devRef .tc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg6_7_0 : W7 m ρ c (Proc.devRef .tc main_arg6) = W0 m ρ c (Proc.devRef .tc main_arg6) :=
  calc W7 m ρ c (Proc.devRef .tc main_arg6)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg7_9_0 : W9 m ρ c (Proc.devRef .tc main_arg7) = W0 m ρ c (Proc.devRef .tc main_arg7) :=
  calc W9 m ρ c (Proc.devRef .tc main_arg7)
    _ = W8 m ρ c (Proc.devRef .tc main_arg7) := W9_of_ne m ρ c main_arg7 (by decide)
    _ = W7 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg8_10_0 : W10 m ρ c (Proc.devRef .tc main_arg8) = W0 m ρ c (Proc.devRef .tc main_arg8) :=
  calc W10 m ρ c (Proc.devRef .tc main_arg8)
    _ = W9 m ρ c (Proc.devRef .tc main_arg8) := W10_of_ne m ρ c main_arg8 (by decide)
    _ = W8 m ρ c (Proc.devRef .tc main_arg8) := W9_of_ne m ρ c main_arg8 (by decide)
    _ = W7 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := StableHlo.after_of_forall_not_mem (b := Proc.devRef .tc main_arg8) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg2_12_0 : W12 m ρ c (Proc.devRef .tc main_arg2) = W0 m ρ c (Proc.devRef .tc main_arg2) :=
  calc W12 m ρ c (Proc.devRef .tc main_arg2)
    _ = W11 m ρ c (Proc.devRef .tc main_arg2) := W12_of_ne m ρ c main_arg2 (by decide)
    _ = W10 m ρ c (Proc.devRef .tc main_arg2) := StableHlo.after_of_forall_not_mem (b := Proc.devRef .tc main_arg2) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg2) := W10_of_ne m ρ c main_arg2 (by decide)
    _ = W8 m ρ c (Proc.devRef .tc main_arg2) := W9_of_ne m ρ c main_arg2 (by decide)
    _ = W7 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg10_12_0 : W12 m ρ c (Proc.devRef .tc main_arg10) = W0 m ρ c (Proc.devRef .tc main_arg10) :=
  calc W12 m ρ c (Proc.devRef .tc main_arg10)
    _ = W11 m ρ c (Proc.devRef .tc main_arg10) := W12_of_ne m ρ c main_arg10 (by decide)
    _ = W10 m ρ c (Proc.devRef .tc main_arg10) := StableHlo.after_of_forall_not_mem (b := Proc.devRef .tc main_arg10) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg10) := W10_of_ne m ρ c main_arg10 (by decide)
    _ = W8 m ρ c (Proc.devRef .tc main_arg10) := W9_of_ne m ρ c main_arg10 (by decide)
    _ = W7 m ρ c (Proc.devRef .tc main_arg10) := StableHlo.after_of_forall_not_mem (b := Proc.devRef .tc main_arg10) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg10) := W7_of_ne m ρ c main_arg10 (by decide)
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := StableHlo.after_of_forall_not_mem (b := Proc.devRef .tc main_arg10) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg12_12_0 : W12 m ρ c (Proc.devRef .tc main_arg12) = W0 m ρ c (Proc.devRef .tc main_arg12) :=
  calc W12 m ρ c (Proc.devRef .tc main_arg12)
    _ = W11 m ρ c (Proc.devRef .tc main_arg12) := W12_of_ne m ρ c main_arg12 (by decide)
    _ = W10 m ρ c (Proc.devRef .tc main_arg12) := StableHlo.after_of_forall_not_mem (b := Proc.devRef .tc main_arg12) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg12) := W10_of_ne m ρ c main_arg12 (by decide)
    _ = W8 m ρ c (Proc.devRef .tc main_arg12) := W9_of_ne m ρ c main_arg12 (by decide)
    _ = W7 m ρ c (Proc.devRef .tc main_arg12) := StableHlo.after_of_forall_not_mem (b := Proc.devRef .tc main_arg12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg12) := W7_of_ne m ρ c main_arg12 (by decide)
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := StableHlo.after_of_forall_not_mem (b := Proc.devRef .tc main_arg12) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg9_13_0 : W13 m ρ c (Proc.devRef .tc main_arg9) = W0 m ρ c (Proc.devRef .tc main_arg9) :=
  calc W13 m ρ c (Proc.devRef .tc main_arg9)
    _ = W12 m ρ c (Proc.devRef .tc main_arg9) := StableHlo.after_of_forall_not_mem (b := Proc.devRef .tc main_arg9) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg9) := W12_of_ne m ρ c main_arg9 (by decide)
    _ = W10 m ρ c (Proc.devRef .tc main_arg9) := StableHlo.after_of_forall_not_mem (b := Proc.devRef .tc main_arg9) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg9) := W10_of_ne m ρ c main_arg9 (by decide)
    _ = W8 m ρ c (Proc.devRef .tc main_arg9) := W9_of_ne m ρ c main_arg9 (by decide)
    _ = W7 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := StableHlo.after_of_forall_not_mem (b := Proc.devRef .tc main_arg9) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg11_13_0 : W13 m ρ c (Proc.devRef .tc main_arg11) = W0 m ρ c (Proc.devRef .tc main_arg11) :=
  calc W13 m ρ c (Proc.devRef .tc main_arg11)
    _ = W12 m ρ c (Proc.devRef .tc main_arg11) := StableHlo.after_of_forall_not_mem (b := Proc.devRef .tc main_arg11) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg11) := W12_of_ne m ρ c main_arg11 (by decide)
    _ = W10 m ρ c (Proc.devRef .tc main_arg11) := StableHlo.after_of_forall_not_mem (b := Proc.devRef .tc main_arg11) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg11) := W10_of_ne m ρ c main_arg11 (by decide)
    _ = W8 m ρ c (Proc.devRef .tc main_arg11) := W9_of_ne m ρ c main_arg11 (by decide)
    _ = W7 m ρ c (Proc.devRef .tc main_arg11) := StableHlo.after_of_forall_not_mem (b := Proc.devRef .tc main_arg11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg11) := W7_of_ne m ρ c main_arg11 (by decide)
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := StableHlo.after_of_forall_not_mem (b := Proc.devRef .tc main_arg11) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.KKeep

end
-- ==== Proof.LibDot.lean ====
/-
  A matrix product with no batch axis, rows × contraction times contraction × columns, read at an entry: the sum over
  the contracted axis of the left operand's row entry times the right operand's column entry. Stated for any extents
  and for any two operand arrays over a commutative semiring's carrier, so that it serves a device's matrix unit and a
  host's dot product alike once each is written as a sum over the contraction index.
-/
import Idealize.ShloMosaic.PureOps.Ideal.Laws
import Idealize.ShloMosaic.Lib.ValueIdx

open scoped BigOperators

namespace Cert.LibDot

open Idealize.ShloMosaic Idealize.ShloMosaic.ValueIdx

/-- The left operand's index at output entry `j` and contraction position `k` is `(j 0, k)`. -/
theorem plain_lhsIdx {M K N : Nat} (j : (⟨2, ![M, N]⟩ : Shape).Idx) (k : Fin K) :
    (DotDims.plain M K N).lhsIdx j ((contrEquiv1 (DotDims.plain M K N) K rfl rfl).symm k) = ix2 (j 0) k := by
  funext a
  apply Fin.ext
  match a with
  | ⟨0, _⟩ => rfl
  | ⟨1, _⟩ =>
    show ((DotDims.plain M K N).lhsIdx j _ (1 : Fin 2)).val = k.val
    rw [DotDims.lhsIdx_val_of_single (DotDims.plain M K N) (cl := (1 : Fin 2)) rfl]
    exact contrEquiv1_symm_val (DotDims.plain M K N) K rfl rfl k

/-- The right operand's index at output entry `j` and contraction position `k` is `(k, j 1)`. -/
theorem plain_rhsIdx {M K N : Nat} (j : (⟨2, ![M, N]⟩ : Shape).Idx) (k : Fin K) :
    (DotDims.plain M K N).rhsIdx j ((contrEquiv1 (DotDims.plain M K N) K rfl rfl).symm k) = ix2 k (j 1) := by
  funext a
  apply Fin.ext
  match a with
  | ⟨0, _⟩ =>
    show ((DotDims.plain M K N).rhsIdx j _ (0 : Fin 2)).val = k.val
    rw [DotDims.rhsIdx_val_of_single (DotDims.plain M K N) (cr := (0 : Fin 2)) rfl]
    exact contrEquiv1_symm_val (DotDims.plain M K N) K rfl rfl k
  | ⟨1, _⟩ => rfl

/-- THE PLAIN PRODUCT'S SUM over the contraction shape is the sum over `Fin K` of row entry times column entry. -/
theorem plain_sum {R : Type*} [AddCommMonoid R] [Mul R] {M K N : Nat}
    (L : (⟨2, ![M, K]⟩ : Shape).Idx → R) (Rt : (⟨2, ![K, N]⟩ : Shape).Idx → R) (j : (⟨2, ![M, N]⟩ : Shape).Idx) :
    ∑ k : (DotDims.plain M K N).contr.Idx, L ((DotDims.plain M K N).lhsIdx j k) * Rt ((DotDims.plain M K N).rhsIdx j k)
      = ∑ k : Fin K, L (ix2 (j 0) k) * Rt (ix2 k (j 1)) := by
  rw [← Equiv.sum_comp (contrEquiv1 (DotDims.plain M K N) K rfl rfl).symm]
  refine Finset.sum_congr rfl fun k _ => ?_
  exact congr (congrArg _ (congrArg L (plain_lhsIdx j k))) (congrArg Rt (plain_rhsIdx j k))

/-- A matrix unit's product into the zero accumulator, at the exact instance and at entry `(p, q)`. -/
theorem matmul_zero_plain {M K N : Nat} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply]
  exact plain_sum (R := EReal) lhs rhs (ix2 p q)

/-- A host's dot product with no batch axis, at the exact instance and at entry `(p, q)`. -/
theorem dotGeneral_plain {M K N : Nat} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact plain_sum (R := EReal) lhs rhs (ix2 p q)

end Cert.LibDot
-- ==== Proof.RegionsA.lean ====
/-
  The first graph-convolution layer's dense stage on the device: `(X · W)` with row `p` scaled by `d p`, computed tile by
  tile over ten tiles of 10000 rows, is the whole arrays' scaled product. Three facts carry it: the body's arithmetic on
  a tile is the tile's own scaled product; the scaled product is row-local, so a tile's scaled product is the matching
  rows of the whole arrays' one; and the ten tiles cover every row of the result. The first two are stated once for any
  sizes and serve the two later layers as well.
-/
import proofs.«108338_j35966056137051_1_alg».proof.Proof.Gen.KernelIdeal.Frame
import proofs.«108338_j35966056137051_1_alg».proof.Proof.Spec
import proofs.«108338_j35966056137051_1_alg».proof.Proof.LibDot
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Regions

open Idealize.ShloMosaic Idealize.ShloMosaic.ValueIdx Idealize.ShloMosaic.TcCoe Idealize.SL.Sem
open Idealize.ShloMosaic.Pipeline (Dat)
open Cert.KernelIdeal Cert.KernelIdeal.Gen

namespace Product

/-- The zero offsets of a whole-block access, as a constant function. -/
theorem zeroOffsets : (![0, 0] : Fin 2 → Nat) = fun _ => 0 := funext fun a => by fin_cases a <;> rfl

/-- A column of 10000 scales repeated along 64 columns, at entry `(p, q)`, is the scale of row `p`. -/
theorem colBroadcast_apply (x : Vec Ideal S10000x1 .f32) (h : S10000x1.Broadcasts S10000x64) (p : Fin 10000) (q : Fin 64) :
    broadcastTo S10000x64 x h (ix2 p q) = x (ix2 p (0 : Fin 1)) :=
  broadcastTo_apply x h (ix2 p q) (ix2 p (0 : Fin 1)) (fun a => by
    match a with
    | ⟨0, _⟩ => rfl
    | ⟨1, _⟩ => rfl)

/-- THE SCALED PRODUCT IS ROW-LOCAL. Entry `(p, q)` of `(X · W)` scaled by `d` depends only on row `p` of `X`, on `W`
    and on `d p`. So if `x`, `dd` are the rows `off, off + 1, …` of `X`, `d` and `w` is `W`, the scaled product of the small
    arrays at `j` is the scaled product of the large ones at the entry `off` rows further down. -/
theorem scaledProduct_tile {n N k cc : Nat} (X : Spec.Mat N k) (W : Spec.Mat k cc) (d : Spec.Mat N 1)
    (x : Spec.Mat n k) (w : Spec.Mat k cc) (dd : Spec.Mat n 1) (off : Nat)
    (j : (⟨2, ![n, cc]⟩ : Shape).Idx) (i : (⟨2, ![N, cc]⟩ : Shape).Idx)
    (hi0 : (i 0).val = off + (j 0).val) (hi1 : (i 1).val = (j 1).val)
    (hx : ∀ (p : Fin n) (r : Fin N) (κ : Fin k), r.val = off + p.val → x (ix2 p κ) = X (ix2 r κ))
    (hw : ∀ (κ : Fin k) (q : Fin cc), w (ix2 κ q) = W (ix2 κ q))
    (hd : ∀ (p : Fin n) (r : Fin N), r.val = off + p.val → dd (ix2 p (0 : Fin 1)) = d (ix2 r (0 : Fin 1))) :
    Spec.scaledProduct x w dd j = Spec.scaledProduct X W d i := by
  have e1 : (⟨(j 1).val, idx2_lt1 j⟩ : Fin cc) = ⟨(i 1).val, idx2_lt1 i⟩ := Fin.ext hi1.symm
  show (∑ κ : Fin k, x (ix2 ⟨(j 0).val, idx2_lt0 j⟩ κ) * w (ix2 κ ⟨(j 1).val, idx2_lt1 j⟩)) * dd (ix2 ⟨(j 0).val, idx2_lt0 j⟩ (0 : Fin 1))
     = (∑ κ : Fin k, X (ix2 ⟨(i 0).val, idx2_lt0 i⟩ κ) * W (ix2 κ ⟨(i 1).val, idx2_lt1 i⟩)) * d (ix2 ⟨(i 0).val, idx2_lt0 i⟩ (0 : Fin 1))
  rw [e1, hd ⟨(j 0).val, idx2_lt0 j⟩ ⟨(i 0).val, idx2_lt0 i⟩ hi0]
  congr 1
  exact Finset.sum_congr rfl fun κ _ => by rw [hx ⟨(j 0).val, idx2_lt0 j⟩ ⟨(i 0).val, idx2_lt0 i⟩ κ hi0, hw]

variable (V : (c : Dev nD) → (b : Ref sig .tc) → Buf (Elt Ideal) ((c : Thread nD τ).loc b))

/-! ## Region 0: the product of a [100000, 128] array with a [128, 64] weight, rows scaled, over ten tiles of 10000 rows -/

/-- The matrix unit's product of a row tile with the weight, into zero, at entry `(p, q)`: the sum over the 128 contracted
    positions of row entry times column entry. -/
theorem product0_entry (a : FVec Ideal S10000x128 .bf16) (b : FVec Ideal S128x64 .bf16) (p : Fin 10000) (q : Fin 64) :
    matmul dot_S10000x128_S128x64_S10000x64_1_0_0_1_n_n none a b (constant S10000x64 .f32 0x00000000#32) (ix2 p q)
      = ∑ k : Fin 128, a (ix2 p k) * b (ix2 k q) :=
  Cert.LibDot.matmul_zero_plain dot_S10000x128_S128x64_S10000x64_1_0_0_1_n_n rfl none a b p q

/-- What the body computes from one tile: the tile's own scaled product — the change of float format is the identity on
    the extended reals, the casts to the same shape are the identity, and the column of scales is repeated along the row. -/
theorem product0_payload (x0 : Vec Ideal S10000x128 .f32) (x1 : Vec Ideal S128x64 .f32) (x2 : Vec Ideal S10000x1 .f32) :
    k0_pay1 x0 x1 x2 = Spec.scaledProduct (n := 10000) (k := 128) (c := 64) x0 x1 x2 := by
  funext y
  obtain ⟨p, q, rfl⟩ : ∃ (p : Fin 10000) (q : Fin 64), y = ix2 p q := ⟨y 0, y 1, eq_ix2 y⟩
  unfold k0_pay1 Spec.scaledProduct
  rw [Spec.ofEntries_ix2]
  rw [mulf_apply, product0_entry, shapeCast_self, colBroadcast_apply]
  simp only [truncf_apply]

/-- Where the tiles sit: at grid point `t` the row operand, the column of scales and the result are at row tile `t`
    (column tile 0), the weight at its one block. Decided over the ten points. -/
theorem tiles0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What grid point `t` writes back is row tile `t` of the whole arrays' scaled product: row `p` of a tile is row
    `10000 t + p` of its array, and the weight's one block is the weight. -/
theorem rowTile0 (c : Dev nD) (t : Fin cfg0.N) :
    (dat0 (F := Ideal) V c).flushed 3 t
      = ((cfg0.win 3).blk t).view.read (Elt Ideal) (Spec.scaledProduct (V c main_arg0) (V c main_arg3) (V c main_v15)) := by
  show (cfg0.win 3).cut (grid0.coords t) ((dat0 V c).after 3 t) = _
  rw [after0_3]
  unfold out0_3
  rw [View.canon_unit_zero zeroOffsets]
  simp only [View.ld_unit_zero (S := S10000x128) zeroOffsets, View.ld_unit_zero (S := S128x64) zeroOffsets, View.ld_unit_zero (S := S10000x1) zeroOffsets]
  rw [product0_payload]
  obtain ⟨a0, a1, b0, b1, d0, d1, o0, o1⟩ := tiles0 t
  funext j
  show Spec.scaledProduct (n := 10000) (k := 128) (c := 64) (iblk0 V c 0 t) (iblk0 V c 1 t) (iblk0 V c 2 t) j
    = Spec.scaledProduct (V c main_arg0) (V c main_arg3) (V c main_v15) (((cfg0.win 3).blk t).view.emb j)
  refine scaledProduct_tile (n := 10000) (N := 100000) (k := 128) (cc := 64) (V c main_arg0) (V c main_arg3) (V c main_v15)
    (iblk0 V c 0 t) (iblk0 V c 1 t) (iblk0 V c 2 t) (t.val * 10000) j (((cfg0.win 3).blk t).view.emb j) ?_ ?_ ?_ ?_ ?_
  · show win0_3.index t (0 : Fin 2) * 10000 + 1 * (j 0).val = t.val * 10000 + (j 0).val
    omega
  · show win0_3.index t (1 : Fin 2) * 64 + 1 * (j 1).val = (j 1).val
    omega
  · intro p r κ h
    show V c main_arg0 (((cfg0.win 0).blk t).view.emb (ix2 p κ)) = V c main_arg0 (ix2 r κ)
    refine congrArg _ (funext fun a => Fin.ext ?_)
    match a with
    | ⟨0, _⟩ => show win0_0.index t (0 : Fin 2) * 10000 + 1 * p.val = r.val; omega
    | ⟨1, _⟩ => show win0_0.index t (1 : Fin 2) * 128 + 1 * κ.val = κ.val; omega
  · intro κ q
    show V c main_arg3 (((cfg0.win 1).blk t).view.emb (ix2 κ q)) = V c main_arg3 (ix2 κ q)
    refine congrArg _ (funext fun a => Fin.ext ?_)
    match a with
    | ⟨0, _⟩ => show win0_1.index t (0 : Fin 2) * 128 + 1 * κ.val = κ.val; omega
    | ⟨1, _⟩ => show win0_1.index t (1 : Fin 2) * 64 + 1 * q.val = q.val; omega
  · intro p r h
    show V c main_v15 (((cfg0.win 2).blk t).view.emb (ix2 p (0 : Fin 1))) = V c main_v15 (ix2 r (0 : Fin 1))
    refine congrArg _ (funext fun a => Fin.ext ?_)
    match a with
    | ⟨0, _⟩ => show win0_2.index t (0 : Fin 2) * 10000 + 1 * p.val = r.val; omega
    | ⟨1, _⟩ => show win0_2.index t (1 : Fin 2) * 1 + 1 * 0 = 0; omega

/-- An entry of the result array lies in the tile of point `t` exactly when each coordinate is in the tile's range. -/
theorem mem_rowTile0 (t : Fin cfg0.N) (i : S100000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v16).slice (win0_3.rect t)).set ↔ _
  rw [View.set_slice_whole, Rect.mem_set_unit]
  exact Iff.rfl

/-- Every entry of the result array is written by some point: row `r` by the point `r / 10000`. -/
theorem rowTiles_cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ : ∃ t : Fin cfg0.N, t.val = (i 0).val / 10000 :=
    ⟨⟨(i 0).val / 10000, by rw [show cfg0.N = 10 from N_0]; omega⟩, rfl⟩
  obtain ⟨-, -, -, -, -, -, o0, o1⟩ := tiles0 t
  refine ⟨t, flush0_3 t, ?_⟩
  rw [mem_rowTile0]
  intro a
  match a with
  | ⟨0, _⟩ =>
    show win0_3.index t (0 : Fin 2) * 10000 ≤ (i 0).val ∧ (i 0).val < win0_3.index t (0 : Fin 2) * 10000 + 10000
    omega
  | ⟨1, _⟩ =>
    show win0_3.index t (1 : Fin 2) * 64 ≤ (i 1).val ∧ (i 1).val < win0_3.index t (1 : Fin 2) * 64 + 64
    omega

end Product

variable (V : (c : Dev nD) → (b : Ref sig .tc) → Buf (Elt Ideal) ((c : Thread nD τ).loc b))

/-- After region 0 its result array is the scaled product of the arrays the region found. -/
theorem final0 (c : Dev nD) : (dat0 (F := Ideal) V c).arrAt 3 cfg0.N
    = Spec.scaledProduct (V c main_arg0) (V c main_arg3) (V c main_v15) :=
  (dat0 V c).arrAt_eq_of_cover 3 (Spec.scaledProduct (V c main_arg0) (V c main_arg3) (V c main_v15))
    (fun t _ => Product.rowTile0 V c t) Product.rowTiles_cover0

end Cert.KernelIdeal.Regions

end
-- ==== Proof.RegionsA2.lean ====
/-
  The second graph-convolution layer's dense stage on the device: the previous layer's [100000, 64] activations times a
  [64, 64] weight, row `p` scaled by `d p`, computed over ten tiles of 10000 rows, is the whole arrays' scaled product.
  The tile's arithmetic, the row-locality of the scaled product and the cover of the rows by the tiles, as for the first layer.
-/
import proofs.«108338_j35966056137051_1_alg».proof.Proof.RegionsA

set_option maxRecDepth 16384

noncomputable section

open scoped BigOperators

namespace Cert.KernelIdeal.Regions

open Idealize.ShloMosaic Idealize.ShloMosaic.ValueIdx Idealize.ShloMosaic.TcCoe Idealize.SL.Sem
open Idealize.ShloMosaic.Pipeline (Dat)
open Cert.KernelIdeal Cert.KernelIdeal.Gen

namespace Product

variable (V : (c : Dev nD) → (b : Ref sig .tc) → Buf (Elt Ideal) ((c : Thread nD τ).loc b))

/-! ## Region 2: the product of a [100000, 64] array with a [64, 64] weight, rows scaled, over ten tiles of 10000 rows -/

/-- The matrix unit's product of a row tile with the weight, into zero, at entry `(p, q)`: the sum over the 64 contracted
    positions of row entry times column entry. -/
theorem product2_entry (a : FVec Ideal S10000x64 .bf16) (b : FVec Ideal S64x64 .bf16) (p : Fin 10000) (q : Fin 64) :
    matmul dot_S10000x64_S64x64_S10000x64_1_0_0_1_n_n none a b (constant S10000x64 .f32 0x00000000#32) (ix2 p q)
      = ∑ k : Fin 64, a (ix2 p k) * b (ix2 k q) :=
  Cert.LibDot.matmul_zero_plain dot_S10000x64_S64x64_S10000x64_1_0_0_1_n_n rfl none a b p q

/-- What the body computes from one tile: the tile's own scaled product — the change of float format is the identity on
    the extended reals, the casts to the same shape are the identity, and the column of scales is repeated along the row. -/
theorem product2_payload (x0 : Vec Ideal S10000x64 .f32) (x1 : Vec Ideal S64x64 .f32) (x2 : Vec Ideal S10000x1 .f32) :
    k2_pay1 x0 x1 x2 = Spec.scaledProduct (n := 10000) (k := 64) (c := 64) x0 x1 x2 := by
  funext y
  obtain ⟨p, q, rfl⟩ : ∃ (p : Fin 10000) (q : Fin 64), y = ix2 p q := ⟨y 0, y 1, eq_ix2 y⟩
  unfold k2_pay1 Spec.scaledProduct
  rw [Spec.ofEntries_ix2]
  rw [mulf_apply, product2_entry, colBroadcast_apply]
  simp only [shapeCast_self, truncf_apply]

/-- Where the tiles sit: at grid point `t` the row operand, the column of scales and the result are at row tile `t`
    (column tile 0), the weight at its one block. Decided over the ten points. -/
theorem tiles2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- What grid point `t` writes back is row tile `t` of the whole arrays' scaled product: row `p` of a tile is row
    `10000 t + p` of its array, and the weight's one block is the weight. -/
theorem rowTile2 (c : Dev nD) (t : Fin cfg2.N) :
    (dat2 (F := Ideal) V c).flushed 3 t
      = ((cfg2.win 3).blk t).view.read (Elt Ideal) (Spec.scaledProduct (V c main_v28) (V c main_arg5) (V c main_v15)) := by
  show (cfg2.win 3).cut (grid2.coords t) ((dat2 V c).after 3 t) = _
  rw [after2_3]
  unfold out2_3
  rw [View.canon_unit_zero zeroOffsets]
  simp only [View.ld_unit_zero (S := S10000x64) zeroOffsets, View.ld_unit_zero (S := S64x64) zeroOffsets, View.ld_unit_zero (S := S10000x1) zeroOffsets]
  rw [product2_payload]
  obtain ⟨a0, a1, b0, b1, d0, d1, o0, o1⟩ := tiles2 t
  funext j
  show Spec.scaledProduct (n := 10000) (k := 64) (c := 64) (iblk2 V c 0 t) (iblk2 V c 1 t) (iblk2 V c 2 t) j
    = Spec.scaledProduct (V c main_v28) (V c main_arg5) (V c main_v15) (((cfg2.win 3).blk t).view.emb j)
  refine scaledProduct_tile (n := 10000) (N := 100000) (k := 64) (cc := 64) (V c main_v28) (V c main_arg5) (V c main_v15)
    (iblk2 V c 0 t) (iblk2 V c 1 t) (iblk2 V c 2 t) (t.val * 10000) j (((cfg2.win 3).blk t).view.emb j) ?_ ?_ ?_ ?_ ?_
  · show win2_3.index t (0 : Fin 2) * 10000 + 1 * (j 0).val = t.val * 10000 + (j 0).val
    omega
  · show win2_3.index t (1 : Fin 2) * 64 + 1 * (j 1).val = (j 1).val
    omega
  · intro p r κ h
    show V c main_v28 (((cfg2.win 0).blk t).view.emb (ix2 p κ)) = V c main_v28 (ix2 r κ)
    refine congrArg _ (funext fun a => Fin.ext ?_)
    match a with
    | ⟨0, _⟩ => show win2_0.index t (0 : Fin 2) * 10000 + 1 * p.val = r.val; omega
    | ⟨1, _⟩ => show win2_0.index t (1 : Fin 2) * 64 + 1 * κ.val = κ.val; omega
  · intro κ q
    show V c main_arg5 (((cfg2.win 1).blk t).view.emb (ix2 κ q)) = V c main_arg5 (ix2 κ q)
    refine congrArg _ (funext fun a => Fin.ext ?_)
    match a with
    | ⟨0, _⟩ => show win2_1.index t (0 : Fin 2) * 64 + 1 * κ.val = κ.val; omega
    | ⟨1, _⟩ => show win2_1.index t (1 : Fin 2) * 64 + 1 * q.val = q.val; omega
  · intro p r h
    show V c main_v15 (((cfg2.win 2).blk t).view.emb (ix2 p (0 : Fin 1))) = V c main_v15 (ix2 r (0 : Fin 1))
    refine congrArg _ (funext fun a => Fin.ext ?_)
    match a with
    | ⟨0, _⟩ => show win2_2.index t (0 : Fin 2) * 10000 + 1 * p.val = r.val; omega
    | ⟨1, _⟩ => show win2_2.index t (1 : Fin 2) * 1 + 1 * 0 = 0; omega

/-- An entry of the result array lies in the tile of point `t` exactly when each coordinate is in the tile's range. -/
theorem mem_rowTile2 (t : Fin cfg2.N) (i : S100000x64.Idx) :
    i ∈ ((cfg2.win 3).blk t).view.set ↔ ∀ a : Fin 2, win2_3.index t a * S10000x64.size a ≤ (i a).val
      ∧ (i a).val < win2_3.index t a * S10000x64.size a + S10000x64.size a := by
  show i ∈ ((View.whole main_v29).slice (win2_3.rect t)).set ↔ _
  rw [View.set_slice_whole, Rect.mem_set_unit]
  exact Iff.rfl

/-- Every entry of the result array is written by some point: row `r` by the point `r / 10000`. -/
theorem rowTiles_cover2 (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ : ∃ t : Fin cfg2.N, t.val = (i 0).val / 10000 :=
    ⟨⟨(i 0).val / 10000, by rw [show cfg2.N = 10 from N_2]; omega⟩, rfl⟩
  obtain ⟨-, -, -, -, -, -, o0, o1⟩ := tiles2 t
  refine ⟨t, flush2_3 t, ?_⟩
  rw [mem_rowTile2]
  intro a
  match a with
  | ⟨0, _⟩ =>
    show win2_3.index t (0 : Fin 2) * 10000 ≤ (i 0).val ∧ (i 0).val < win2_3.index t (0 : Fin 2) * 10000 + 10000
    omega
  | ⟨1, _⟩ =>
    show win2_3.index t (1 : Fin 2) * 64 ≤ (i 1).val ∧ (i 1).val < win2_3.index t (1 : Fin 2) * 64 + 64
    omega

end Product

variable (V : (c : Dev nD) → (b : Ref sig .tc) → Buf (Elt Ideal) ((c : Thread nD τ).loc b))

/-- After region 2 its result array is the scaled product of the arrays the region found. -/
theorem final2 (c : Dev nD) : (dat2 (F := Ideal) V c).arrAt 3 cfg2.N
    = Spec.scaledProduct (V c main_v28) (V c main_arg5) (V c main_v15) :=
  (dat2 V c).arrAt_eq_of_cover 3 (Spec.scaledProduct (V c main_v28) (V c main_arg5) (V c main_v15))
    (fun t _ => Product.rowTile2 V c t) Product.rowTiles_cover2

end Cert.KernelIdeal.Regions

end
-- ==== Proof.RegionsA4.lean ====
/-
  The third graph-convolution layer's dense stage on the device: the previous layer's [100000, 64] activations times a
  [64, 64] weight, row `p` scaled by `d p`, computed over ten tiles of 10000 rows, is the whole arrays' scaled product.
  The tile's arithmetic, the row-locality of the scaled product and the cover of the rows by the tiles, as for the first layer.
-/
import proofs.«108338_j35966056137051_1_alg».proof.Proof.RegionsA

set_option maxRecDepth 16384

noncomputable section

open scoped BigOperators

namespace Cert.KernelIdeal.Regions

open Idealize.ShloMosaic Idealize.ShloMosaic.ValueIdx Idealize.ShloMosaic.TcCoe Idealize.SL.Sem
open Idealize.ShloMosaic.Pipeline (Dat)
open Cert.KernelIdeal Cert.KernelIdeal.Gen

namespace Product

variable (V : (c : Dev nD) → (b : Ref sig .tc) → Buf (Elt Ideal) ((c : Thread nD τ).loc b))

/-! ## Region 4: the product of a [100000, 64] array with a [64, 64] weight, rows scaled, over ten tiles of 10000 rows -/

/-- The matrix unit's product of a row tile with the weight, into zero, at entry `(p, q)`: the sum over the 64 contracted
    positions of row entry times column entry. -/
theorem product4_entry (a : FVec Ideal S10000x64 .bf16) (b : FVec Ideal S64x64 .bf16) (p : Fin 10000) (q : Fin 64) :
    matmul dot_S10000x64_S64x64_S10000x64_1_0_0_1_n_n none a b (constant S10000x64 .f32 0x00000000#32) (ix2 p q)
      = ∑ k : Fin 64, a (ix2 p k) * b (ix2 k q) :=
  Cert.LibDot.matmul_zero_plain dot_S10000x64_S64x64_S10000x64_1_0_0_1_n_n rfl none a b p q

/-- What the body computes from one tile: the tile's own scaled product — the change of float format is the identity on
    the extended reals, the casts to the same shape are the identity, and the column of scales is repeated along the row. -/
theorem product4_payload (x0 : Vec Ideal S10000x64 .f32) (x1 : Vec Ideal S64x64 .f32) (x2 : Vec Ideal S10000x1 .f32) :
    k4_pay1 x0 x1 x2 = Spec.scaledProduct (n := 10000) (k := 64) (c := 64) x0 x1 x2 := by
  funext y
  obtain ⟨p, q, rfl⟩ : ∃ (p : Fin 10000) (q : Fin 64), y = ix2 p q := ⟨y 0, y 1, eq_ix2 y⟩
  unfold k4_pay1 Spec.scaledProduct
  rw [Spec.ofEntries_ix2]
  rw [mulf_apply, product4_entry, colBroadcast_apply]
  simp only [shapeCast_self, truncf_apply]

/-- Where the tiles sit: at grid point `t` the row operand, the column of scales and the result are at row tile `t`
    (column tile 0), the weight at its one block. Decided over the ten points. -/
theorem tiles4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-- What grid point `t` writes back is row tile `t` of the whole arrays' scaled product: row `p` of a tile is row
    `10000 t + p` of its array, and the weight's one block is the weight. -/
theorem rowTile4 (c : Dev nD) (t : Fin cfg4.N) :
    (dat4 (F := Ideal) V c).flushed 3 t
      = ((cfg4.win 3).blk t).view.read (Elt Ideal) (Spec.scaledProduct (V c main_v41) (V c main_arg7) (V c main_v15)) := by
  show (cfg4.win 3).cut (grid4.coords t) ((dat4 V c).after 3 t) = _
  rw [after4_3]
  unfold out4_3
  rw [View.canon_unit_zero zeroOffsets]
  simp only [View.ld_unit_zero (S := S10000x64) zeroOffsets, View.ld_unit_zero (S := S64x64) zeroOffsets, View.ld_unit_zero (S := S10000x1) zeroOffsets]
  rw [product4_payload]
  obtain ⟨a0, a1, b0, b1, d0, d1, o0, o1⟩ := tiles4 t
  funext j
  show Spec.scaledProduct (n := 10000) (k := 64) (c := 64) (iblk4 V c 0 t) (iblk4 V c 1 t) (iblk4 V c 2 t) j
    = Spec.scaledProduct (V c main_v41) (V c main_arg7) (V c main_v15) (((cfg4.win 3).blk t).view.emb j)
  refine scaledProduct_tile (n := 10000) (N := 100000) (k := 64) (cc := 64) (V c main_v41) (V c main_arg7) (V c main_v15)
    (iblk4 V c 0 t) (iblk4 V c 1 t) (iblk4 V c 2 t) (t.val * 10000) j (((cfg4.win 3).blk t).view.emb j) ?_ ?_ ?_ ?_ ?_
  · show win4_3.index t (0 : Fin 2) * 10000 + 1 * (j 0).val = t.val * 10000 + (j 0).val
    omega
  · show win4_3.index t (1 : Fin 2) * 64 + 1 * (j 1).val = (j 1).val
    omega
  · intro p r κ h
    show V c main_v41 (((cfg4.win 0).blk t).view.emb (ix2 p κ)) = V c main_v41 (ix2 r κ)
    refine congrArg _ (funext fun a => Fin.ext ?_)
    match a with
    | ⟨0, _⟩ => show win4_0.index t (0 : Fin 2) * 10000 + 1 * p.val = r.val; omega
    | ⟨1, _⟩ => show win4_0.index t (1 : Fin 2) * 64 + 1 * κ.val = κ.val; omega
  · intro κ q
    show V c main_arg7 (((cfg4.win 1).blk t).view.emb (ix2 κ q)) = V c main_arg7 (ix2 κ q)
    refine congrArg _ (funext fun a => Fin.ext ?_)
    match a with
    | ⟨0, _⟩ => show win4_1.index t (0 : Fin 2) * 64 + 1 * κ.val = κ.val; omega
    | ⟨1, _⟩ => show win4_1.index t (1 : Fin 2) * 64 + 1 * q.val = q.val; omega
  · intro p r h
    show V c main_v15 (((cfg4.win 2).blk t).view.emb (ix2 p (0 : Fin 1))) = V c main_v15 (ix2 r (0 : Fin 1))
    refine congrArg _ (funext fun a => Fin.ext ?_)
    match a with
    | ⟨0, _⟩ => show win4_2.index t (0 : Fin 2) * 10000 + 1 * p.val = r.val; omega
    | ⟨1, _⟩ => show win4_2.index t (1 : Fin 2) * 1 + 1 * 0 = 0; omega

/-- An entry of the result array lies in the tile of point `t` exactly when each coordinate is in the tile's range. -/
theorem mem_rowTile4 (t : Fin cfg4.N) (i : S100000x64.Idx) :
    i ∈ ((cfg4.win 3).blk t).view.set ↔ ∀ a : Fin 2, win4_3.index t a * S10000x64.size a ≤ (i a).val
      ∧ (i a).val < win4_3.index t a * S10000x64.size a + S10000x64.size a := by
  show i ∈ ((View.whole main_v42).slice (win4_3.rect t)).set ↔ _
  rw [View.set_slice_whole, Rect.mem_set_unit]
  exact Iff.rfl

/-- Every entry of the result array is written by some point: row `r` by the point `r / 10000`. -/
theorem rowTiles_cover4 (i : S100000x64.Idx) :
    ∃ t : Fin cfg4.N, (cfg4.win 3).flush t = true ∧ i ∈ ((cfg4.win 3).blk t).view.set := by
  have hi0 : (i 0).val < 100000 := (i 0).isLt
  have hi1 : (i 1).val < 64 := (i 1).isLt
  obtain ⟨t, ht⟩ : ∃ t : Fin cfg4.N, t.val = (i 0).val / 10000 :=
    ⟨⟨(i 0).val / 10000, by rw [show cfg4.N = 10 from N_4]; omega⟩, rfl⟩
  obtain ⟨-, -, -, -, -, -, o0, o1⟩ := tiles4 t
  refine ⟨t, flush4_3 t, ?_⟩
  rw [mem_rowTile4]
  intro a
  match a with
  | ⟨0, _⟩ =>
    show win4_3.index t (0 : Fin 2) * 10000 ≤ (i 0).val ∧ (i 0).val < win4_3.index t (0 : Fin 2) * 10000 + 10000
    omega
  | ⟨1, _⟩ =>
    show win4_3.index t (1 : Fin 2) * 64 ≤ (i 1).val ∧ (i 1).val < win4_3.index t (1 : Fin 2) * 64 + 64
    omega

end Product

variable (V : (c : Dev nD) → (b : Ref sig .tc) → Buf (Elt Ideal) ((c : Thread nD τ).loc b))

/-- After region 4 its result array is the scaled product of the arrays the region found. -/
theorem final4 (c : Dev nD) : (dat4 (F := Ideal) V c).arrAt 3 cfg4.N
    = Spec.scaledProduct (V c main_v41) (V c main_arg7) (V c main_v15) :=
  (dat4 V c).arrAt_eq_of_cover 3 (Spec.scaledProduct (V c main_v41) (V c main_arg7) (V c main_v15))
    (fun t _ => Product.rowTile4 V c t) Product.rowTiles_cover4

end Cert.KernelIdeal.Regions

end
-- ==== Proof.RegionsB.lean ====
/-
  The values the second, fourth and sixth device regions leave: each computes `max (A p q · d p + b q) 0` on a
  100000 × 64 matrix `A`, a column `d` and a bias row `b`, ten tiles of 10000 rows one after the other.

  Per region: the body's arithmetic on a tile at an entry; the relations between the four windows' block numbers over
  the grid, decided by evaluation; what a point writes back, as that point's tile of the whole-array function (an
  element of tile `t` at `(p, q)` is the array's element at `(10000 t + p, q)`); the ten tiles cover the array; so
  the array ends holding the whole-array function.
-/
import proofs.«108338_j35966056137051_1_alg».proof.Proof.Gen.KernelIdeal.Frame
import proofs.«108338_j35966056137051_1_alg».proof.Proof.Spec
import proofs.«108338_j35966056137051_1_alg».proof.Proof.LibDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Regions

open Idealize.ShloMosaic Idealize.ShloMosaic.TcCoe Idealize.SL.Sem Cert.KernelIdeal Cert.KernelIdeal.Gen
open Idealize.ShloMosaic.ValueIdx

theorem zero2 : (![0, 0] : Fin 2 → Nat) = fun _ => 0 := funext fun a => by fin_cases a <;> rfl

/-- A column of 10000 numbers repeated across 64 columns reads, at `(p, q)`, the number of row `p`. -/
theorem colBroadcast_apply (v : FVec Ideal S10000x1 .f32) (h : S10000x1.Broadcasts S10000x64) (p : Fin 10000) (q : Fin 64) :
    broadcastTo S10000x64 v h (ix2 p q) = v (ix2 p (0 : Fin 1)) :=
  broadcastTo_apply v h (ix2 p q) (ix2 p (0 : Fin 1)) fun a => match a with
    | ⟨0, _⟩ => by show p.val = if (10000 : Nat) = 1 then 0 else p.val; rw [if_neg (by decide)]
    | ⟨1, _⟩ => by show 0 = if (1 : Nat) = 1 then 0 else q.val; rw [if_pos rfl]

/-- The stage at one entry, from the three operands read at any indices that name row `r` and column `q`. -/
theorem tile_entry (A : S100000x64.Idx → EReal) (d : S100000x1.Idx → EReal) (b : S1x64.Idx → EReal)
    (a0 a3 : S100000x64.Idx) (a1 : S100000x1.Idx) (a2 : S1x64.Idx) (r : Fin 100000) (q : Fin 64)
    (h0 : a0 = ix2 r q) (h1 : a1 = ix2 r (0 : Fin 1)) (h2 : a2 = ix2 (0 : Fin 1) q) (h3 : a3 = ix2 r q) :
    max (A a0 * d a1 + b a2) 0 = Spec.scaleBiasRelu A d b a3 := by
  subst h0 h1 h2 h3
  unfold Spec.scaleBiasRelu
  rw [Spec.ofEntries_ix2]

variable (V : (c : Dev nD) → (b : Ref sig .tc) → Buf (Elt Ideal) ((c : Thread nD τ).loc b)) (c : Dev nD)

/-! ## Region 1: `max (A · d + b) 0` over ten tiles of 10000 rows -/

/-- The body's arithmetic on one tile, at entry `(p, q)`: the tile's entry times the row's scale, plus the column's
    bias, clamped below at zero. -/
theorem scaleBiasRelu_block1 (x0 : Vec Ideal S10000x64 .f32) (x1 : Vec Ideal S10000x1 .f32) (x2 : Vec Ideal S1x64 .f32)
    (p : Fin 10000) (q : Fin 64) :
    k1_pay1 x0 x1 x2 (ix2 p q) = max (x0 (ix2 p q) * x1 (ix2 p (0 : Fin 1)) + x2 (ix2 (0 : Fin 1) q)) 0 := by
  unfold k1_pay1
  rw [maximumf_apply, addf_apply, mulf_apply, broadcast_apply, colBroadcast_apply, broadcastTo_1b_ab_apply]
  simp only [shapeCast_self]
  rw [Ideal.ofBits_def, Ideal.ofBits_zero_f32]

/-- The four windows' block numbers at a point of the ten-tile grid: the matrix and the scale column move with the
    output's row tile, whose number is the point's own; the bias row stays. -/
theorem rowTiles1 : ∀ t : Fin cfg1.N, win1_0.index t (0 : Fin 2) = win1_3.index t (0 : Fin 2) ∧ win1_0.index t (1 : Fin 2) = 0
    ∧ win1_1.index t (0 : Fin 2) = win1_3.index t (0 : Fin 2) ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is tile `t` of the whole-array function: entry `(p, q)` of the tile is entry
    `(10000 t + p, q)` of each operand. -/
theorem writeback1 (t : Fin cfg1.N) :
    (dat1 (F := Ideal) V c).flushed 3 t = ((cfg1.win 3).blk t).view.read (Elt Ideal)
      (Spec.scaleBiasRelu (V c main_v26) (V c main_v15) (V c main_v27)) := by
  show (cfg1.win 3).cut (grid1.coords t) ((dat1 V c).after 3 t) = _
  rw [after1_3]
  unfold out1_3
  rw [View.canon_unit_zero zero2]
  simp only [View.ld_unit_zero (S := S10000x64) zero2, View.ld_unit_zero (S := S10000x1) zero2,
    View.ld_unit_zero (S := S1x64) zero2]
  funext j
  obtain ⟨p, q, rfl⟩ : ∃ (p : Fin 10000) (q : Fin 64), j = ix2 p q := ⟨j 0, j 1, eq_ix2 j⟩
  show k1_pay1 (iblk1 V c 0 t) (iblk1 V c 1 t) (iblk1 V c 2 t) (ix2 p q)
      = Spec.scaleBiasRelu (V c main_v26) (V c main_v15) (V c main_v27) (((cfg1.win 3).blk t).view.emb (ix2 p q))
  rw [scaleBiasRelu_block1]
  obtain ⟨e00, e01, e10, e11, e20, e21, e30, e31⟩ := rowTiles1 t
  have ht : t.val < 10 := by have h := t.isLt; have hN : cfg1.N = 10 := N_1; omega
  have hr : t.val * 10000 + p.val < 100000 := by omega
  have h0 : ((cfg1.win 0).blk t).view.emb (ix2 p q) = ix2 (⟨t.val * 10000 + p.val, hr⟩ : Fin 100000) q := by
    funext a; apply Fin.ext
    match a with
    | ⟨0, _⟩ => show win1_0.index t (0 : Fin 2) * 10000 + 1 * p.val = t.val * 10000 + p.val; omega
    | ⟨1, _⟩ => show win1_0.index t (1 : Fin 2) * 64 + 1 * q.val = q.val; omega
  have h1 : ((cfg1.win 1).blk t).view.emb (ix2 p (0 : Fin 1))
      = ix2 (⟨t.val * 10000 + p.val, hr⟩ : Fin 100000) (0 : Fin 1) := by
    funext a; apply Fin.ext
    match a with
    | ⟨0, _⟩ => show win1_1.index t (0 : Fin 2) * 10000 + 1 * p.val = t.val * 10000 + p.val; omega
    | ⟨1, _⟩ => show win1_1.index t (1 : Fin 2) * 1 + 1 * 0 = 0; omega
  have h2 : ((cfg1.win 2).blk t).view.emb (ix2 (0 : Fin 1) q) = ix2 (0 : Fin 1) q := by
    funext a; apply Fin.ext
    match a with
    | ⟨0, _⟩ => show win1_2.index t (0 : Fin 2) * 1 + 1 * 0 = 0; omega
    | ⟨1, _⟩ => show win1_2.index t (1 : Fin 2) * 64 + 1 * q.val = q.val; omega
  have h3 : ((cfg1.win 3).blk t).view.emb (ix2 p q) = ix2 (⟨t.val * 10000 + p.val, hr⟩ : Fin 100000) q := by
    funext a; apply Fin.ext
    match a with
    | ⟨0, _⟩ => show win1_3.index t (0 : Fin 2) * 10000 + 1 * p.val = t.val * 10000 + p.val; omega
    | ⟨1, _⟩ => show win1_3.index t (1 : Fin 2) * 64 + 1 * q.val = q.val; omega
  exact tile_entry (V c main_v26) (V c main_v15) (V c main_v27) (((cfg1.win 0).blk t).view.emb (ix2 p q))
    (((cfg1.win 3).blk t).view.emb (ix2 p q)) (((cfg1.win 1).blk t).view.emb (ix2 p (0 : Fin 1)))
    (((cfg1.win 2).blk t).view.emb (ix2 (0 : Fin 1) q)) ⟨t.val * 10000 + p.val, hr⟩ q h0 h1 h2 h3

/-- An index of the result array is in point `t`'s tile iff each coordinate is in the tile's range on its axis. -/
theorem mem_rowTile1 (t : Fin cfg1.N) (i : S100000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v28).slice (win1_3.rect t)).set ↔ _
  rw [View.set_slice_whole, Rect.mem_set_unit]
  exact Iff.rfl

/-- Row `r` lies in the tile of point `r / 10000`: the ten row tiles cover the array. -/
theorem rowTiles_cover1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 10 := N_1
  have hlt : (i 0).val / 10000 < cfg1.N := by rw [hN]; omega
  obtain ⟨_, _, _, _, _, _, e30, e31⟩ := rowTiles1 ⟨(i 0).val / 10000, hlt⟩
  have e30' : win1_3.index ⟨(i 0).val / 10000, hlt⟩ (0 : Fin 2) = (i 0).val / 10000 := e30
  refine ⟨⟨(i 0).val / 10000, hlt⟩, flush1_3 _, ?_⟩
  rw [mem_rowTile1]
  intro a
  match a with
  | ⟨0, _⟩ =>
    show win1_3.index ⟨(i 0).val / 10000, hlt⟩ (0 : Fin 2) * 10000 ≤ (i 0).val
      ∧ (i 0).val < win1_3.index ⟨(i 0).val / 10000, hlt⟩ (0 : Fin 2) * 10000 + 10000
    omega
  | ⟨1, _⟩ =>
    show win1_3.index ⟨(i 0).val / 10000, hlt⟩ (1 : Fin 2) * 64 ≤ (i 1).val
      ∧ (i 1).val < win1_3.index ⟨(i 0).val / 10000, hlt⟩ (1 : Fin 2) * 64 + 64
    omega

/-- REGION 1's result array: its first operand scaled row by row, shifted by the bias and clamped at zero. -/
theorem final1 : (dat1 (F := Ideal) V c).arrAt 3 cfg1.N
    = Spec.scaleBiasRelu (V c main_v26) (V c main_v15) (V c main_v27) :=
  (dat1 (F := Ideal) V c).arrAt_eq_of_cover 3 _ (fun t _ => writeback1 V c t) rowTiles_cover1

/-! ## Region 3: `max (A · d + b) 0` over ten tiles of 10000 rows -/

/-- The body's arithmetic on one tile, at entry `(p, q)`: the tile's entry times the row's scale, plus the column's
    bias, clamped below at zero. -/
theorem scaleBiasRelu_block3 (x0 : Vec Ideal S10000x64 .f32) (x1 : Vec Ideal S10000x1 .f32) (x2 : Vec Ideal S1x64 .f32)
    (p : Fin 10000) (q : Fin 64) :
    k3_pay1 x0 x1 x2 (ix2 p q) = max (x0 (ix2 p q) * x1 (ix2 p (0 : Fin 1)) + x2 (ix2 (0 : Fin 1) q)) 0 := by
  unfold k3_pay1
  rw [maximumf_apply, addf_apply, mulf_apply, broadcast_apply, colBroadcast_apply, broadcastTo_1b_ab_apply]
  simp only [shapeCast_self]
  rw [Ideal.ofBits_def, Ideal.ofBits_zero_f32]

/-- The four windows' block numbers at a point of the ten-tile grid: the matrix and the scale column move with the
    output's row tile, whose number is the point's own; the bias row stays. -/
theorem rowTiles3 : ∀ t : Fin cfg3.N, win3_0.index t (0 : Fin 2) = win3_3.index t (0 : Fin 2) ∧ win3_0.index t (1 : Fin 2) = 0
    ∧ win3_1.index t (0 : Fin 2) = win3_3.index t (0 : Fin 2) ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point `t` writes back is tile `t` of the whole-array function: entry `(p, q)` of the tile is entry
    `(10000 t + p, q)` of each operand. -/
theorem writeback3 (t : Fin cfg3.N) :
    (dat3 (F := Ideal) V c).flushed 3 t = ((cfg3.win 3).blk t).view.read (Elt Ideal)
      (Spec.scaleBiasRelu (V c main_v39) (V c main_v15) (V c main_v40)) := by
  show (cfg3.win 3).cut (grid3.coords t) ((dat3 V c).after 3 t) = _
  rw [after3_3]
  unfold out3_3
  rw [View.canon_unit_zero zero2]
  simp only [View.ld_unit_zero (S := S10000x64) zero2, View.ld_unit_zero (S := S10000x1) zero2,
    View.ld_unit_zero (S := S1x64) zero2]
  funext j
  obtain ⟨p, q, rfl⟩ : ∃ (p : Fin 10000) (q : Fin 64), j = ix2 p q := ⟨j 0, j 1, eq_ix2 j⟩
  show k3_pay1 (iblk3 V c 0 t) (iblk3 V c 1 t) (iblk3 V c 2 t) (ix2 p q)
      = Spec.scaleBiasRelu (V c main_v39) (V c main_v15) (V c main_v40) (((cfg3.win 3).blk t).view.emb (ix2 p q))
  rw [scaleBiasRelu_block3]
  obtain ⟨e00, e01, e10, e11, e20, e21, e30, e31⟩ := rowTiles3 t
  have ht : t.val < 10 := by have h := t.isLt; have hN : cfg3.N = 10 := N_3; omega
  have hr : t.val * 10000 + p.val < 100000 := by omega
  have h0 : ((cfg3.win 0).blk t).view.emb (ix2 p q) = ix2 (⟨t.val * 10000 + p.val, hr⟩ : Fin 100000) q := by
    funext a; apply Fin.ext
    match a with
    | ⟨0, _⟩ => show win3_0.index t (0 : Fin 2) * 10000 + 1 * p.val = t.val * 10000 + p.val; omega
    | ⟨1, _⟩ => show win3_0.index t (1 : Fin 2) * 64 + 1 * q.val = q.val; omega
  have h1 : ((cfg3.win 1).blk t).view.emb (ix2 p (0 : Fin 1))
      = ix2 (⟨t.val * 10000 + p.val, hr⟩ : Fin 100000) (0 : Fin 1) := by
    funext a; apply Fin.ext
    match a with
    | ⟨0, _⟩ => show win3_1.index t (0 : Fin 2) * 10000 + 1 * p.val = t.val * 10000 + p.val; omega
    | ⟨1, _⟩ => show win3_1.index t (1 : Fin 2) * 1 + 1 * 0 = 0; omega
  have h2 : ((cfg3.win 2).blk t).view.emb (ix2 (0 : Fin 1) q) = ix2 (0 : Fin 1) q := by
    funext a; apply Fin.ext
    match a with
    | ⟨0, _⟩ => show win3_2.index t (0 : Fin 2) * 1 + 1 * 0 = 0; omega
    | ⟨1, _⟩ => show win3_2.index t (1 : Fin 2) * 64 + 1 * q.val = q.val; omega
  have h3 : ((cfg3.win 3).blk t).view.emb (ix2 p q) = ix2 (⟨t.val * 10000 + p.val, hr⟩ : Fin 100000) q := by
    funext a; apply Fin.ext
    match a with
    | ⟨0, _⟩ => show win3_3.index t (0 : Fin 2) * 10000 + 1 * p.val = t.val * 10000 + p.val; omega
    | ⟨1, _⟩ => show win3_3.index t (1 : Fin 2) * 64 + 1 * q.val = q.val; omega
  exact tile_entry (V c main_v39) (V c main_v15) (V c main_v40) (((cfg3.win 0).blk t).view.emb (ix2 p q))
    (((cfg3.win 3).blk t).view.emb (ix2 p q)) (((cfg3.win 1).blk t).view.emb (ix2 p (0 : Fin 1)))
    (((cfg3.win 2).blk t).view.emb (ix2 (0 : Fin 1) q)) ⟨t.val * 10000 + p.val, hr⟩ q h0 h1 h2 h3

/-- An index of the result array is in point `t`'s tile iff each coordinate is in the tile's range on its axis. -/
theorem mem_rowTile3 (t : Fin cfg3.N) (i : S100000x64.Idx) :
    i ∈ ((cfg3.win 3).blk t).view.set ↔ ∀ a : Fin 2, win3_3.index t a * S10000x64.size a ≤ (i a).val
      ∧ (i a).val < win3_3.index t a * S10000x64.size a + S10000x64.size a := by
  show i ∈ ((View.whole main_v41).slice (win3_3.rect t)).set ↔ _
  rw [View.set_slice_whole, Rect.mem_set_unit]
  exact Iff.rfl

/-- Row `r` lies in the tile of point `r / 10000`: the ten row tiles cover the array. -/
theorem rowTiles_cover3 (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  have hN : cfg3.N = 10 := N_3
  have hlt : (i 0).val / 10000 < cfg3.N := by rw [hN]; omega
  obtain ⟨_, _, _, _, _, _, e30, e31⟩ := rowTiles3 ⟨(i 0).val / 10000, hlt⟩
  have e30' : win3_3.index ⟨(i 0).val / 10000, hlt⟩ (0 : Fin 2) = (i 0).val / 10000 := e30
  refine ⟨⟨(i 0).val / 10000, hlt⟩, flush3_3 _, ?_⟩
  rw [mem_rowTile3]
  intro a
  match a with
  | ⟨0, _⟩ =>
    show win3_3.index ⟨(i 0).val / 10000, hlt⟩ (0 : Fin 2) * 10000 ≤ (i 0).val
      ∧ (i 0).val < win3_3.index ⟨(i 0).val / 10000, hlt⟩ (0 : Fin 2) * 10000 + 10000
    omega
  | ⟨1, _⟩ =>
    show win3_3.index ⟨(i 0).val / 10000, hlt⟩ (1 : Fin 2) * 64 ≤ (i 1).val
      ∧ (i 1).val < win3_3.index ⟨(i 0).val / 10000, hlt⟩ (1 : Fin 2) * 64 + 64
    omega

/-- REGION 3's result array: its first operand scaled row by row, shifted by the bias and clamped at zero. -/
theorem final3 : (dat3 (F := Ideal) V c).arrAt 3 cfg3.N
    = Spec.scaleBiasRelu (V c main_v39) (V c main_v15) (V c main_v40) :=
  (dat3 (F := Ideal) V c).arrAt_eq_of_cover 3 _ (fun t _ => writeback3 V c t) rowTiles_cover3

/-! ## Region 5: `max (A · d + b) 0` over ten tiles of 10000 rows -/

/-- The body's arithmetic on one tile, at entry `(p, q)`: the tile's entry times the row's scale, plus the column's
    bias, clamped below at zero. -/
theorem scaleBiasRelu_block5 (x0 : Vec Ideal S10000x64 .f32) (x1 : Vec Ideal S10000x1 .f32) (x2 : Vec Ideal S1x64 .f32)
    (p : Fin 10000) (q : Fin 64) :
    k5_pay1 x0 x1 x2 (ix2 p q) = max (x0 (ix2 p q) * x1 (ix2 p (0 : Fin 1)) + x2 (ix2 (0 : Fin 1) q)) 0 := by
  unfold k5_pay1
  rw [maximumf_apply, addf_apply, mulf_apply, broadcast_apply, colBroadcast_apply, broadcastTo_1b_ab_apply]
  simp only [shapeCast_self]
  rw [Ideal.ofBits_def, Ideal.ofBits_zero_f32]

/-- The four windows' block numbers at a point of the ten-tile grid: the matrix and the scale column move with the
    output's row tile, whose number is the point's own; the bias row stays. -/
theorem rowTiles5 : ∀ t : Fin cfg5.N, win5_0.index t (0 : Fin 2) = win5_3.index t (0 : Fin 2) ∧ win5_0.index t (1 : Fin 2) = 0
    ∧ win5_1.index t (0 : Fin 2) = win5_3.index t (0 : Fin 2) ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- What point `t` writes back is tile `t` of the whole-array function: entry `(p, q)` of the tile is entry
    `(10000 t + p, q)` of each operand. -/
theorem writeback5 (t : Fin cfg5.N) :
    (dat5 (F := Ideal) V c).flushed 3 t = ((cfg5.win 3).blk t).view.read (Elt Ideal)
      (Spec.scaleBiasRelu (V c main_v52) (V c main_v15) (V c main_v53)) := by
  show (cfg5.win 3).cut (grid5.coords t) ((dat5 V c).after 3 t) = _
  rw [after5_3]
  unfold out5_3
  rw [View.canon_unit_zero zero2]
  simp only [View.ld_unit_zero (S := S10000x64) zero2, View.ld_unit_zero (S := S10000x1) zero2,
    View.ld_unit_zero (S := S1x64) zero2]
  funext j
  obtain ⟨p, q, rfl⟩ : ∃ (p : Fin 10000) (q : Fin 64), j = ix2 p q := ⟨j 0, j 1, eq_ix2 j⟩
  show k5_pay1 (iblk5 V c 0 t) (iblk5 V c 1 t) (iblk5 V c 2 t) (ix2 p q)
      = Spec.scaleBiasRelu (V c main_v52) (V c main_v15) (V c main_v53) (((cfg5.win 3).blk t).view.emb (ix2 p q))
  rw [scaleBiasRelu_block5]
  obtain ⟨e00, e01, e10, e11, e20, e21, e30, e31⟩ := rowTiles5 t
  have ht : t.val < 10 := by have h := t.isLt; have hN : cfg5.N = 10 := N_5; omega
  have hr : t.val * 10000 + p.val < 100000 := by omega
  have h0 : ((cfg5.win 0).blk t).view.emb (ix2 p q) = ix2 (⟨t.val * 10000 + p.val, hr⟩ : Fin 100000) q := by
    funext a; apply Fin.ext
    match a with
    | ⟨0, _⟩ => show win5_0.index t (0 : Fin 2) * 10000 + 1 * p.val = t.val * 10000 + p.val; omega
    | ⟨1, _⟩ => show win5_0.index t (1 : Fin 2) * 64 + 1 * q.val = q.val; omega
  have h1 : ((cfg5.win 1).blk t).view.emb (ix2 p (0 : Fin 1))
      = ix2 (⟨t.val * 10000 + p.val, hr⟩ : Fin 100000) (0 : Fin 1) := by
    funext a; apply Fin.ext
    match a with
    | ⟨0, _⟩ => show win5_1.index t (0 : Fin 2) * 10000 + 1 * p.val = t.val * 10000 + p.val; omega
    | ⟨1, _⟩ => show win5_1.index t (1 : Fin 2) * 1 + 1 * 0 = 0; omega
  have h2 : ((cfg5.win 2).blk t).view.emb (ix2 (0 : Fin 1) q) = ix2 (0 : Fin 1) q := by
    funext a; apply Fin.ext
    match a with
    | ⟨0, _⟩ => show win5_2.index t (0 : Fin 2) * 1 + 1 * 0 = 0; omega
    | ⟨1, _⟩ => show win5_2.index t (1 : Fin 2) * 64 + 1 * q.val = q.val; omega
  have h3 : ((cfg5.win 3).blk t).view.emb (ix2 p q) = ix2 (⟨t.val * 10000 + p.val, hr⟩ : Fin 100000) q := by
    funext a; apply Fin.ext
    match a with
    | ⟨0, _⟩ => show win5_3.index t (0 : Fin 2) * 10000 + 1 * p.val = t.val * 10000 + p.val; omega
    | ⟨1, _⟩ => show win5_3.index t (1 : Fin 2) * 64 + 1 * q.val = q.val; omega
  exact tile_entry (V c main_v52) (V c main_v15) (V c main_v53) (((cfg5.win 0).blk t).view.emb (ix2 p q))
    (((cfg5.win 3).blk t).view.emb (ix2 p q)) (((cfg5.win 1).blk t).view.emb (ix2 p (0 : Fin 1)))
    (((cfg5.win 2).blk t).view.emb (ix2 (0 : Fin 1) q)) ⟨t.val * 10000 + p.val, hr⟩ q h0 h1 h2 h3

/-- An index of the result array is in point `t`'s tile iff each coordinate is in the tile's range on its axis. -/
theorem mem_rowTile5 (t : Fin cfg5.N) (i : S100000x64.Idx) :
    i ∈ ((cfg5.win 3).blk t).view.set ↔ ∀ a : Fin 2, win5_3.index t a * S10000x64.size a ≤ (i a).val
      ∧ (i a).val < win5_3.index t a * S10000x64.size a + S10000x64.size a := by
  show i ∈ ((View.whole main_v54).slice (win5_3.rect t)).set ↔ _
  rw [View.set_slice_whole, Rect.mem_set_unit]
  exact Iff.rfl

/-- Row `r` lies in the tile of point `r / 10000`: the ten row tiles cover the array. -/
theorem rowTiles_cover5 (i : S100000x64.Idx) :
    ∃ t : Fin cfg5.N, (cfg5.win 3).flush t = true ∧ i ∈ ((cfg5.win 3).blk t).view.set := by
  have hi0 : (i 0).val < 100000 := (i 0).isLt
  have hi1 : (i 1).val < 64 := (i 1).isLt
  have hN : cfg5.N = 10 := N_5
  have hlt : (i 0).val / 10000 < cfg5.N := by rw [hN]; omega
  obtain ⟨_, _, _, _, _, _, e30, e31⟩ := rowTiles5 ⟨(i 0).val / 10000, hlt⟩
  have e30' : win5_3.index ⟨(i 0).val / 10000, hlt⟩ (0 : Fin 2) = (i 0).val / 10000 := e30
  refine ⟨⟨(i 0).val / 10000, hlt⟩, flush5_3 _, ?_⟩
  rw [mem_rowTile5]
  intro a
  match a with
  | ⟨0, _⟩ =>
    show win5_3.index ⟨(i 0).val / 10000, hlt⟩ (0 : Fin 2) * 10000 ≤ (i 0).val
      ∧ (i 0).val < win5_3.index ⟨(i 0).val / 10000, hlt⟩ (0 : Fin 2) * 10000 + 10000
    omega
  | ⟨1, _⟩ =>
    show win5_3.index ⟨(i 0).val / 10000, hlt⟩ (1 : Fin 2) * 64 ≤ (i 1).val
      ∧ (i 1).val < win5_3.index ⟨(i 0).val / 10000, hlt⟩ (1 : Fin 2) * 64 + 64
    omega

/-- REGION 5's result array: its first operand scaled row by row, shifted by the bias and clamped at zero. -/
theorem final5 : (dat5 (F := Ideal) V c).arrAt 3 cfg5.N
    = Spec.scaleBiasRelu (V c main_v52) (V c main_v15) (V c main_v53) :=
  (dat5 (F := Ideal) V c).arrAt_eq_of_cover 3 _ (fun t _ => writeback5 V c t) rowTiles_cover5

end Cert.KernelIdeal.Regions

end
-- ==== Proof.Region6.lean ====
/-
  The value the last device region leaves: the two-layer head
  `(∑ j, max ((∑ k, P g k · W1 k j) + b1 j) 0 · W2 j) + b2`, one number per row `g` of the 4096 × 64 matrix `P`.

  The region has one grid point and every window's block is its whole array. The body's arithmetic at a row: two
  matrix products into the zero matrix (sums over the contracted axis), the bias row and the scalar bias broadcast
  down the rows, the clamp against zero; the narrowing of the products' operands is the identity on extended reals.
  An element of a block sits at the same index in its array, so what the point writes back is the head of the five
  operand arrays, and the one block covers the result column.
-/
import proofs.«108338_j35966056137051_1_alg».proof.Proof.Gen.KernelIdeal.Frame
import proofs.«108338_j35966056137051_1_alg».proof.Proof.Spec
import proofs.«108338_j35966056137051_1_alg».proof.Proof.LibDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Regions

open Idealize.ShloMosaic Idealize.ShloMosaic.TcCoe Idealize.SL.Sem Cert.KernelIdeal Cert.KernelIdeal.Gen
open Idealize.ShloMosaic.ValueIdx

theorem zeroOffsets6 : (![0, 0] : Fin 2 → Nat) = fun _ => 0 := funext fun a => by fin_cases a <;> rfl

/-- The head's arithmetic on the whole blocks, at row `g`: the hidden vector `max (P g · W1 + b1) 0` (a matrix
    product into zero, the bias row added, the clamp) contracted with the single column `W2` (a second matrix product
    into zero), plus the scalar bias. The narrowing of the products' operands is the identity on extended reals. -/
theorem head_block (x0 : Vec Ideal S4096x64 .f32) (x1 : Vec Ideal S64x32 .f32) (x2 : Vec Ideal S1x32 .f32)
    (x3 : Vec Ideal S32x1 .f32) (x4 : Vec Ideal S1x1 .f32) (g : Fin 4096) (u : Fin 1) :
    k6_pay1 x0 x1 x2 x3 x4 (ix2 g u)
      = (∑ j : Fin 32, max ((∑ k : Fin 64, x0 (ix2 g k) * x1 (ix2 k j)) + x2 (ix2 (0 : Fin 1) j)) 0 * x3 (ix2 j u))
        + x4 (ix2 (0 : Fin 1) u) := by
  unfold k6_pay1
  simp only [Idealize.ShloMosaic.matmul, shapeCast_self]
  rw [addf_apply, broadcastTo_1b_ab_apply]
  refine congrArg (· + x4 (ix2 (0 : Fin 1) u)) ?_
  refine (LibDot.matmul_zero_plain dot_S4096x32_S32x1_S4096x1_1_0_0_1_n_n rfl none _ _ g u).trans ?_
  refine Finset.sum_congr rfl fun j _ => ?_
  rw [truncf_apply, truncf_apply, maximumf_apply, addf_apply, broadcast_apply, broadcastTo_1b_ab_apply,
    LibDot.matmul_zero_plain dot_S4096x64_S64x32_S4096x32_1_0_0_1_n_n rfl none _ _ g j]
  simp only [truncf_apply]
  rw [Ideal.ofBits_def, Ideal.ofBits_zero_f32]

/-- The head at one row, from five operands that agree with `P`, `W1`, `b1`, `W2`, `b2` at the entries the row reads. -/
theorem head_entry (P : S4096x64.Idx → EReal) (W1 : S64x32.Idx → EReal) (b1 : S1x32.Idx → EReal)
    (W2 : S32x1.Idx → EReal) (b2 : S1x1.Idx → EReal)
    (y0 : S4096x64.Idx → EReal) (y1 : S64x32.Idx → EReal) (y2 : S1x32.Idx → EReal) (y3 : S32x1.Idx → EReal)
    (y4 : S1x1.Idx → EReal) (a5 : S4096x1.Idx) (g : Fin 4096) (u : Fin 1)
    (h0 : ∀ k : Fin 64, y0 (ix2 g k) = P (ix2 g k))
    (h1 : ∀ (k : Fin 64) (j : Fin 32), y1 (ix2 k j) = W1 (ix2 k j))
    (h2 : ∀ j : Fin 32, y2 (ix2 (0 : Fin 1) j) = b1 (ix2 (0 : Fin 1) j))
    (h3 : ∀ j : Fin 32, y3 (ix2 j u) = W2 (ix2 j (0 : Fin 1)))
    (h4 : y4 (ix2 (0 : Fin 1) u) = b2 (ix2 (0 : Fin 1) (0 : Fin 1))) (h5 : a5 = ix2 g u) :
    (∑ j : Fin 32, max ((∑ k : Fin 64, y0 (ix2 g k) * y1 (ix2 k j)) + y2 (ix2 (0 : Fin 1) j)) 0 * y3 (ix2 j u))
        + y4 (ix2 (0 : Fin 1) u)
      = Spec.mlpHead P W1 b1 W2 b2 a5 := by
  subst h5
  unfold Spec.mlpHead
  rw [Spec.ofEntries_ix2, h4]
  refine congrArg (· + b2 (ix2 (0 : Fin 1) (0 : Fin 1))) (Finset.sum_congr rfl fun j _ => ?_)
  rw [h2, h3]
  refine congrArg (fun z => max (z + b1 (ix2 (0 : Fin 1) j)) 0 * W2 (ix2 j (0 : Fin 1))) (Finset.sum_congr rfl fun k _ => ?_)
  rw [h0, h1]

variable (V : (c : Dev nD) → (b : Ref sig .tc) → Buf (Elt Ideal) ((c : Thread nD τ).loc b)) (c : Dev nD)

/-- The one point's block numbers: every window's block is its whole array. -/
theorem blocks6 : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0 :=
  (by decide +kernel : ∀ t : Fin grid6.N, _)

/-- What the one point writes back is the head of the five operand arrays: each block is its whole array, so an
    element of a block sits at the same index in the array. -/
theorem writeback6 (t : Fin cfg6.N) :
    (dat6 (F := Ideal) V c).flushed 5 t = ((cfg6.win 5).blk t).view.read (Elt Ideal)
      (Spec.mlpHead (V c main_v66) (V c main_arg9) (V c main_v67) (V c main_arg11) (V c main_v68)) := by
  show (cfg6.win 5).cut (grid6.coords t) ((dat6 V c).after 5 t) = _
  rw [after6_5]
  unfold out6_5
  rw [View.canon_unit_zero zeroOffsets6]
  simp only [View.ld_unit_zero (S := S4096x64) zeroOffsets6, View.ld_unit_zero (S := S64x32) zeroOffsets6,
    View.ld_unit_zero (S := S1x32) zeroOffsets6, View.ld_unit_zero (S := S32x1) zeroOffsets6, View.ld_unit_zero (S := S1x1) zeroOffsets6]
  funext j
  obtain ⟨g, u, rfl⟩ : ∃ (g : Fin 4096) (u : Fin 1), j = ix2 g u := ⟨j 0, j 1, eq_ix2 j⟩
  show k6_pay1 (iblk6 V c 0 t) (iblk6 V c 1 t) (iblk6 V c 2 t) (iblk6 V c 3 t) (iblk6 V c 4 t) (ix2 g u)
      = Spec.mlpHead (V c main_v66) (V c main_arg9) (V c main_v67) (V c main_arg11) (V c main_v68)
          (((cfg6.win 5).blk t).view.emb (ix2 g u))
  rw [head_block]
  obtain ⟨e00, e01, e10, e11, e20, e21, e30, e31, e40, e41, e50, e51⟩ := blocks6 t
  have hu : u.val = 0 := by have := u.isLt; omega
  have i0 : ∀ k : Fin 64, ((cfg6.win 0).blk t).view.emb (ix2 g k) = ix2 g k := fun k => by
    funext a; apply Fin.ext
    match a with
    | ⟨0, _⟩ => show win6_0.index t (0 : Fin 2) * 4096 + 1 * g.val = g.val; omega
    | ⟨1, _⟩ => show win6_0.index t (1 : Fin 2) * 64 + 1 * k.val = k.val; omega
  have i1 : ∀ (k : Fin 64) (j : Fin 32), ((cfg6.win 1).blk t).view.emb (ix2 k j) = ix2 k j := fun k j => by
    funext a; apply Fin.ext
    match a with
    | ⟨0, _⟩ => show win6_1.index t (0 : Fin 2) * 64 + 1 * k.val = k.val; omega
    | ⟨1, _⟩ => show win6_1.index t (1 : Fin 2) * 32 + 1 * j.val = j.val; omega
  have i2 : ∀ j : Fin 32, ((cfg6.win 2).blk t).view.emb (ix2 (0 : Fin 1) j) = ix2 (0 : Fin 1) j := fun j => by
    funext a; apply Fin.ext
    match a with
    | ⟨0, _⟩ => show win6_2.index t (0 : Fin 2) * 1 + 1 * 0 = 0; omega
    | ⟨1, _⟩ => show win6_2.index t (1 : Fin 2) * 32 + 1 * j.val = j.val; omega
  have i3 : ∀ j : Fin 32, ((cfg6.win 3).blk t).view.emb (ix2 j u) = ix2 j (0 : Fin 1) := fun j => by
    funext a; apply Fin.ext
    match a with
    | ⟨0, _⟩ => show win6_3.index t (0 : Fin 2) * 32 + 1 * j.val = j.val; omega
    | ⟨1, _⟩ => show win6_3.index t (1 : Fin 2) * 1 + 1 * u.val = 0; omega
  have i4 : ((cfg6.win 4).blk t).view.emb (ix2 (0 : Fin 1) u) = ix2 (0 : Fin 1) (0 : Fin 1) := by
    funext a; apply Fin.ext
    match a with
    | ⟨0, _⟩ => show win6_4.index t (0 : Fin 2) * 1 + 1 * 0 = 0; omega
    | ⟨1, _⟩ => show win6_4.index t (1 : Fin 2) * 1 + 1 * u.val = 0; omega
  have i5 : ((cfg6.win 5).blk t).view.emb (ix2 g u) = ix2 g u := by
    funext a; apply Fin.ext
    match a with
    | ⟨0, _⟩ => show win6_5.index t (0 : Fin 2) * 4096 + 1 * g.val = g.val; omega
    | ⟨1, _⟩ => show win6_5.index t (1 : Fin 2) * 1 + 1 * u.val = u.val; omega
  exact head_entry (V c main_v66) (V c main_arg9) (V c main_v67) (V c main_arg11) (V c main_v68)
    (iblk6 V c 0 t) (iblk6 V c 1 t) (iblk6 V c 2 t) (iblk6 V c 3 t) (iblk6 V c 4 t)
    (((cfg6.win 5).blk t).view.emb (ix2 g u)) g u
    (fun k => congrArg (V c main_v66 : S4096x64.Idx → EReal) (i0 k))
    (fun k j => congrArg (V c main_arg9 : S64x32.Idx → EReal) (i1 k j))
    (fun j => congrArg (V c main_v67 : S1x32.Idx → EReal) (i2 j))
    (fun j => congrArg (V c main_arg11 : S32x1.Idx → EReal) (i3 j))
    (congrArg (V c main_v68 : S1x1.Idx → EReal) i4) i5

/-- An index of the result column is in the one point's block iff each coordinate is in the block's range. -/
theorem mem_block6 (t : Fin cfg6.N) (i : S4096x1.Idx) :
    i ∈ ((cfg6.win 5).blk t).view.set ↔ ∀ a : Fin 2, win6_5.index t a * S4096x1.size a ≤ (i a).val
      ∧ (i a).val < win6_5.index t a * S4096x1.size a + S4096x1.size a := by
  show i ∈ ((View.whole main_v69).slice (win6_5.rect t)).set ↔ _
  rw [View.set_slice_whole, Rect.mem_set_unit]
  exact Iff.rfl

/-- The one block is the whole result column. -/
theorem block_cover6 (i : S4096x1.Idx) :
    ∃ t : Fin cfg6.N, (cfg6.win 5).flush t = true ∧ i ∈ ((cfg6.win 5).blk t).view.set := by
  have hi0 : (i 0).val < 4096 := (i 0).isLt
  have hi1 : (i 1).val < 1 := (i 1).isLt
  have hN : cfg6.N = 1 := N_6
  have hlt : 0 < cfg6.N := by rw [hN]; omega
  obtain ⟨_, _, _, _, _, _, _, _, _, _, e50, e51⟩ := blocks6 ⟨0, hlt⟩
  refine ⟨⟨0, hlt⟩, flush6_5 _, ?_⟩
  rw [mem_block6]
  intro a
  match a with
  | ⟨0, _⟩ =>
    show win6_5.index ⟨0, hlt⟩ (0 : Fin 2) * 4096 ≤ (i 0).val
      ∧ (i 0).val < win6_5.index ⟨0, hlt⟩ (0 : Fin 2) * 4096 + 4096
    omega
  | ⟨1, _⟩ =>
    show win6_5.index ⟨0, hlt⟩ (1 : Fin 2) * 1 ≤ (i 1).val
      ∧ (i 1).val < win6_5.index ⟨0, hlt⟩ (1 : Fin 2) * 1 + 1
    omega

/-- REGION 6's result array: the two-layer head of the per-graph means. -/
theorem final6 : (dat6 (F := Ideal) V c).arrAt 5 cfg6.N
    = Spec.mlpHead (V c main_v66) (V c main_arg9) (V c main_v67) (V c main_arg11) (V c main_v68) :=
  (dat6 (F := Ideal) V c).arrAt_eq_of_cover 5 _ (fun t _ => writeback6 V c t) block_cover6

end Cert.KernelIdeal.Regions

end
-- ==== Proof.KChain.lean ====
/-
  The kernel program's result as a function of its arguments. Its @main alternates stretches of host operations with
  seven dense stages; the contents of the buffers at each boundary are a fold from the launch memory. Boundary by
  boundary: the edge list gives the sources, the destinations and the scale `dinv` as one column; each layer is a scaled
  product (a stage), its rows gathered at the sources and summed into the destinations (a stretch), then scaled, shifted
  and clamped (a stage); the last layer's rows are averaged per graph (a stretch) and the head applied (a stage). What a
  stretch leaves is read off its operations; what a stage leaves in its output array is the stage's whole-array
  function of its input arrays as the stage finds them; a buffer no segment in between touches is read back unchanged.
-/
import proofs.«108338_j35966056137051_1_alg».proof.Proof.Gen.KernelIdeal.Frame
import proofs.«108338_j35966056137051_1_alg».proof.Proof.KDefs
import proofs.«108338_j35966056137051_1_alg».proof.Proof.KKeep
import proofs.«108338_j35966056137051_1_alg».proof.Proof.RegionsA
import proofs.«108338_j35966056137051_1_alg».proof.Proof.RegionsA2
import proofs.«108338_j35966056137051_1_alg».proof.Proof.RegionsA4
import proofs.«108338_j35966056137051_1_alg».proof.Proof.RegionsB
import proofs.«108338_j35966056137051_1_alg».proof.Proof.Region6
import Idealize.ShloMosaic.Lib.StableHlo.Run

set_option maxRecDepth 16384

noncomputable section

namespace Cert.KernelIdeal.KChain

open Idealize.ShloMosaic Idealize.ShloMosaic.TcCoe Idealize.ShloMosaic.Tactic Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## Before the first stage -/

theorem w1_v3 : W1 m ρ c (Proc.devRef .tc main_v3) = KDefs.srcRaw (m ((c : Thread nD τ).loc main_arg1)) := by
  show StableHlo.after hostOps0 (W0 m ρ c) (Proc.devRef .tc main_v3) = _
  after_results_simp
  unfold KDefs.srcRaw
  rfl

theorem w1_v6 : W1 m ρ c (Proc.devRef .tc main_v6) = KDefs.dstRaw (m ((c : Thread nD τ).loc main_arg1)) := by
  show StableHlo.after hostOps0 (W0 m ρ c) (Proc.devRef .tc main_v6) = _
  after_results_simp
  unfold KDefs.dstRaw
  rfl

theorem w1_v10 : W1 m ρ c (Proc.devRef .tc main_v10) = KDefs.deg (m ((c : Thread nD τ).loc main_arg1)) := by
  show StableHlo.after hostOps0 (W0 m ρ c) (Proc.devRef .tc main_v10) = _
  after_results_simp
  unfold KDefs.deg KDefs.dstIdx KDefs.dstRaw
  rfl

theorem w1_v12 : W1 m ρ c (Proc.devRef .tc main_v12) = cmpf .ogt (KDefs.deg (m ((c : Thread nD τ).loc main_arg1))) (broadcastInDim S100000 ![] Facts₀.bcast_S_S100000 (constant S_ .f32 0x00000000#32)) := by
  show StableHlo.after hostOps0 (W0 m ρ c) (Proc.devRef .tc main_v12) = _
  after_results_simp
  unfold KDefs.deg KDefs.dstIdx KDefs.dstRaw
  rfl

theorem w1_v13 : W1 m ρ c (Proc.devRef .tc main_v13) = Host.rsqrt (KDefs.deg (m ((c : Thread nD τ).loc main_arg1))) := by
  show StableHlo.after hostOps0 (W0 m ρ c) (Proc.devRef .tc main_v13) = _
  after_results_simp
  unfold KDefs.deg KDefs.dstIdx KDefs.dstRaw
  rfl

theorem w1_cst_2 : W1 m ρ c (Proc.devRef .tc main_cst_2) = constant (F := Ideal) S_ .f32 0x00000000#32 := by
  show StableHlo.after hostOps0 (W0 m ρ c) (Proc.devRef .tc main_cst_2) = _
  after_results_simp

/-- The `where` of the host program, from any contents: the select of its three operands. -/
theorem where_stage (X : Valuation τ sig (Elt Ideal)) :
    StableHlo.after hostOps0_1 X (Proc.devRef .tc main_v14)
      = select (X (Proc.devRef .tc main_v12)) (X (Proc.devRef .tc main_v13)) (broadcastInDim S100000 ![] Facts₀.bcast_S_S100000 (id (X (Proc.devRef .tc main_cst_2)))) := by
  after_results_simp
  rfl

/-- The reshape to one column, from any contents. -/
theorem column_stage (X : Valuation τ sig (Elt Ideal)) :
    StableHlo.after hostOps0_2 X (Proc.devRef .tc main_v15) = shapeCast _ (X (Proc.devRef .tc main_v14)) Facts₀.shapeCasts_S100000_S100000x1 := by
  after_results_simp
  rfl

theorem w2_v14 : W2 m ρ c (Proc.devRef .tc main_v14) = KDefs.dinv (m ((c : Thread nD τ).loc main_arg1)) := by
  show StableHlo.after hostOps0_1 (W1 m ρ c) (Proc.devRef .tc main_v14) = _
  rw [where_stage, w1_v12 m ρ c, w1_v13 m ρ c, w1_cst_2 m ρ c]
  rfl

theorem w3_v15 : W3 m ρ c (Proc.devRef .tc main_v15) = KDefs.dinvCol (m ((c : Thread nD τ).loc main_arg1)) := by
  show StableHlo.after hostOps0_2 (W2 m ρ c) (Proc.devRef .tc main_v15) = _
  rw [column_stage, w2_v14 m ρ c]
  rfl

theorem v15_5 : W5 m ρ c (Proc.devRef .tc main_v15) = (KDefs.dinvCol (m ((c : Thread nD τ).loc main_arg1))) := (KKeep.keep_main_v15_5_3 m ρ c).trans (w3_v15 m ρ c)
theorem v15_6 : W6 m ρ c (Proc.devRef .tc main_v15) = (KDefs.dinvCol (m ((c : Thread nD τ).loc main_arg1))) := (KKeep.keep_main_v15_6_5 m ρ c).trans (v15_5 m ρ c)
theorem v15_8 : W8 m ρ c (Proc.devRef .tc main_v15) = (KDefs.dinvCol (m ((c : Thread nD τ).loc main_arg1))) := (KKeep.keep_main_v15_8_6 m ρ c).trans (v15_6 m ρ c)
theorem v15_9 : W9 m ρ c (Proc.devRef .tc main_v15) = (KDefs.dinvCol (m ((c : Thread nD τ).loc main_arg1))) := (KKeep.keep_main_v15_9_8 m ρ c).trans (v15_8 m ρ c)
theorem v15_11 : W11 m ρ c (Proc.devRef .tc main_v15) = (KDefs.dinvCol (m ((c : Thread nD τ).loc main_arg1))) := (KKeep.keep_main_v15_11_9 m ρ c).trans (v15_9 m ρ c)
theorem v3_4 : W4 m ρ c (Proc.devRef .tc main_v3) = W1 m ρ c (Proc.devRef .tc main_v3) := KKeep.keep_main_v3_4_1 m ρ c
theorem v3_7 : W7 m ρ c (Proc.devRef .tc main_v3) = W1 m ρ c (Proc.devRef .tc main_v3) := (KKeep.keep_main_v3_7_4 m ρ c).trans (v3_4 m ρ c)
theorem v3_10 : W10 m ρ c (Proc.devRef .tc main_v3) = W1 m ρ c (Proc.devRef .tc main_v3) := (KKeep.keep_main_v3_10_7 m ρ c).trans (v3_7 m ρ c)
theorem v6_4 : W4 m ρ c (Proc.devRef .tc main_v6) = W1 m ρ c (Proc.devRef .tc main_v6) := KKeep.keep_main_v6_4_1 m ρ c
theorem v6_7 : W7 m ρ c (Proc.devRef .tc main_v6) = W1 m ρ c (Proc.devRef .tc main_v6) := (KKeep.keep_main_v6_7_4 m ρ c).trans (v6_4 m ρ c)
theorem v6_10 : W10 m ρ c (Proc.devRef .tc main_v6) = W1 m ρ c (Proc.devRef .tc main_v6) := (KKeep.keep_main_v6_10_7 m ρ c).trans (v6_7 m ρ c)

/-! ## The first layer -/

theorem w4_v16 : W4 m ρ c (Proc.devRef .tc main_v16) = (Spec.scaledProduct (m ((c : Thread nD τ).loc main_arg0)) (m ((c : Thread nD τ).loc main_arg3)) (KDefs.dinvCol (m ((c : Thread nD τ).loc main_arg1)))) :=
  (W4_arr m ρ c 3).trans ((Regions.final0 (V3 m ρ) c).trans (by
    rw [show V3 m ρ c main_arg0 = (m ((c : Thread nD τ).loc main_arg0)) from KKeep.keep_main_arg0_3_0 m ρ c,
      show V3 m ρ c main_arg3 = (m ((c : Thread nD τ).loc main_arg3)) from KKeep.keep_main_arg3_3_0 m ρ c,
      show V3 m ρ c main_v15 = (KDefs.dinvCol (m ((c : Thread nD τ).loc main_arg1))) from w3_v15 m ρ c]))

/-- After the stretch: the stage's scaled product gathered at the edges' sources and summed into their destinations. -/
theorem w5_v26 : W5 m ρ c (Proc.devRef .tc main_v26) = KDefs.aggregate (Spec.scaledProduct (m ((c : Thread nD τ).loc main_arg0)) (m ((c : Thread nD τ).loc main_arg3)) (KDefs.dinvCol (m ((c : Thread nD τ).loc main_arg1)))) (m ((c : Thread nD τ).loc main_arg1)) := by
  show StableHlo.after hostOps1 (W4 m ρ c) (Proc.devRef .tc main_v26) = _
  after_results_simp
  rw [w4_v16 m ρ c, v3_4 m ρ c, w1_v3 m ρ c, v6_4 m ρ c, w1_v6 m ρ c]
  unfold KDefs.aggregate KDefs.srcIdx KDefs.dstIdx
  rfl

/-- After the stretch: the layer's bias as a one-row matrix. -/
theorem w5_v27 : W5 m ρ c (Proc.devRef .tc main_v27) = shapeCast _ (m ((c : Thread nD τ).loc main_arg4)) Facts₀.shapeCasts_S64_S1x64 := by
  show StableHlo.after hostOps1 (W4 m ρ c) (Proc.devRef .tc main_v27) = _
  after_results_simp
  rw [KKeep.keep_main_arg4_4_0 m ρ c]
  rfl

theorem w6_v28 : W6 m ρ c (Proc.devRef .tc main_v28) = (KDefs.layer (m ((c : Thread nD τ).loc main_arg0)) (m ((c : Thread nD τ).loc main_arg3)) (m ((c : Thread nD τ).loc main_arg4)) (m ((c : Thread nD τ).loc main_arg1))) :=
  (W6_arr m ρ c 3).trans ((Regions.final1 (V5 m ρ) c).trans (by
    rw [show V5 m ρ c main_v26 = _ from w5_v26 m ρ c, show V5 m ρ c main_v15 = _ from v15_5 m ρ c,
      show V5 m ρ c main_v27 = _ from w5_v27 m ρ c]
    rfl))

/-! ## The second layer -/

theorem w7_v29 : W7 m ρ c (Proc.devRef .tc main_v29) = (Spec.scaledProduct (KDefs.layer (m ((c : Thread nD τ).loc main_arg0)) (m ((c : Thread nD τ).loc main_arg3)) (m ((c : Thread nD τ).loc main_arg4)) (m ((c : Thread nD τ).loc main_arg1))) (m ((c : Thread nD τ).loc main_arg5)) (KDefs.dinvCol (m ((c : Thread nD τ).loc main_arg1)))) :=
  (W7_arr m ρ c 3).trans ((Regions.final2 (V6 m ρ) c).trans (by
    rw [show V6 m ρ c main_v28 = _ from w6_v28 m ρ c,
      show V6 m ρ c main_arg5 = (m ((c : Thread nD τ).loc main_arg5)) from KKeep.keep_main_arg5_6_0 m ρ c,
      show V6 m ρ c main_v15 = _ from v15_6 m ρ c]))

/-- After the stretch: the stage's scaled product gathered at the edges' sources and summed into their destinations. -/
theorem w8_v39 : W8 m ρ c (Proc.devRef .tc main_v39) = KDefs.aggregate (Spec.scaledProduct (KDefs.layer (m ((c : Thread nD τ).loc main_arg0)) (m ((c : Thread nD τ).loc main_arg3)) (m ((c : Thread nD τ).loc main_arg4)) (m ((c : Thread nD τ).loc main_arg1))) (m ((c : Thread nD τ).loc main_arg5)) (KDefs.dinvCol (m ((c : Thread nD τ).loc main_arg1)))) (m ((c : Thread nD τ).loc main_arg1)) := by
  show StableHlo.after hostOps3 (W7 m ρ c) (Proc.devRef .tc main_v39) = _
  after_results_simp
  rw [w7_v29 m ρ c, v3_7 m ρ c, w1_v3 m ρ c, v6_7 m ρ c, w1_v6 m ρ c]
  unfold KDefs.aggregate KDefs.srcIdx KDefs.dstIdx
  rfl

/-- After the stretch: the layer's bias as a one-row matrix. -/
theorem w8_v40 : W8 m ρ c (Proc.devRef .tc main_v40) = shapeCast _ (m ((c : Thread nD τ).loc main_arg6)) Facts₀.shapeCasts_S64_S1x64 := by
  show StableHlo.after hostOps3 (W7 m ρ c) (Proc.devRef .tc main_v40) = _
  after_results_simp
  rw [KKeep.keep_main_arg6_7_0 m ρ c]
  rfl

theorem w9_v41 : W9 m ρ c (Proc.devRef .tc main_v41) = (KDefs.layer (KDefs.layer (m ((c : Thread nD τ).loc main_arg0)) (m ((c : Thread nD τ).loc main_arg3)) (m ((c : Thread nD τ).loc main_arg4)) (m ((c : Thread nD τ).loc main_arg1))) (m ((c : Thread nD τ).loc main_arg5)) (m ((c : Thread nD τ).loc main_arg6)) (m ((c : Thread nD τ).loc main_arg1))) :=
  (W9_arr m ρ c 3).trans ((Regions.final3 (V8 m ρ) c).trans (by
    rw [show V8 m ρ c main_v39 = _ from w8_v39 m ρ c, show V8 m ρ c main_v15 = _ from v15_8 m ρ c,
      show V8 m ρ c main_v40 = _ from w8_v40 m ρ c]
    rfl))

/-! ## The third layer -/

theorem w10_v42 : W10 m ρ c (Proc.devRef .tc main_v42) = (Spec.scaledProduct (KDefs.layer (KDefs.layer (m ((c : Thread nD τ).loc main_arg0)) (m ((c : Thread nD τ).loc main_arg3)) (m ((c : Thread nD τ).loc main_arg4)) (m ((c : Thread nD τ).loc main_arg1))) (m ((c : Thread nD τ).loc main_arg5)) (m ((c : Thread nD τ).loc main_arg6)) (m ((c : Thread nD τ).loc main_arg1))) (m ((c : Thread nD τ).loc main_arg7)) (KDefs.dinvCol (m ((c : Thread nD τ).loc main_arg1)))) :=
  (W10_arr m ρ c 3).trans ((Regions.final4 (V9 m ρ) c).trans (by
    rw [show V9 m ρ c main_v41 = _ from w9_v41 m ρ c,
      show V9 m ρ c main_arg7 = (m ((c : Thread nD τ).loc main_arg7)) from KKeep.keep_main_arg7_9_0 m ρ c,
      show V9 m ρ c main_v15 = _ from v15_9 m ρ c]))

/-- After the stretch: the stage's scaled product gathered at the edges' sources and summed into their destinations. -/
theorem w11_v52 : W11 m ρ c (Proc.devRef .tc main_v52) = KDefs.aggregate (Spec.scaledProduct (KDefs.layer (KDefs.layer (m ((c : Thread nD τ).loc main_arg0)) (m ((c : Thread nD τ).loc main_arg3)) (m ((c : Thread nD τ).loc main_arg4)) (m ((c : Thread nD τ).loc main_arg1))) (m ((c : Thread nD τ).loc main_arg5)) (m ((c : Thread nD τ).loc main_arg6)) (m ((c : Thread nD τ).loc main_arg1))) (m ((c : Thread nD τ).loc main_arg7)) (KDefs.dinvCol (m ((c : Thread nD τ).loc main_arg1)))) (m ((c : Thread nD τ).loc main_arg1)) := by
  show StableHlo.after hostOps5 (W10 m ρ c) (Proc.devRef .tc main_v52) = _
  after_results_simp
  rw [w10_v42 m ρ c, v3_10 m ρ c, w1_v3 m ρ c, v6_10 m ρ c, w1_v6 m ρ c]
  unfold KDefs.aggregate KDefs.srcIdx KDefs.dstIdx
  rfl

/-- After the stretch: the layer's bias as a one-row matrix. -/
theorem w11_v53 : W11 m ρ c (Proc.devRef .tc main_v53) = shapeCast _ (m ((c : Thread nD τ).loc main_arg8)) Facts₀.shapeCasts_S64_S1x64 := by
  show StableHlo.after hostOps5 (W10 m ρ c) (Proc.devRef .tc main_v53) = _
  after_results_simp
  rw [KKeep.keep_main_arg8_10_0 m ρ c]
  rfl

theorem w12_v54 : W12 m ρ c (Proc.devRef .tc main_v54) = (KDefs.layer (KDefs.layer (KDefs.layer (m ((c : Thread nD τ).loc main_arg0)) (m ((c : Thread nD τ).loc main_arg3)) (m ((c : Thread nD τ).loc main_arg4)) (m ((c : Thread nD τ).loc main_arg1))) (m ((c : Thread nD τ).loc main_arg5)) (m ((c : Thread nD τ).loc main_arg6)) (m ((c : Thread nD τ).loc main_arg1))) (m ((c : Thread nD τ).loc main_arg7)) (m ((c : Thread nD τ).loc main_arg8)) (m ((c : Thread nD τ).loc main_arg1))) :=
  (W12_arr m ρ c 3).trans ((Regions.final5 (V11 m ρ) c).trans (by
    rw [show V11 m ρ c main_v52 = _ from w11_v52 m ρ c, show V11 m ρ c main_v15 = _ from v15_11 m ρ c,
      show V11 m ρ c main_v53 = _ from w11_v53 m ρ c]
    rfl))

/-! ## The mean over each graph, and the head -/

theorem w13_v66 : W13 m ρ c (Proc.devRef .tc main_v66) = KDefs.pooled (KDefs.layer (KDefs.layer (KDefs.layer (m ((c : Thread nD τ).loc main_arg0)) (m ((c : Thread nD τ).loc main_arg3)) (m ((c : Thread nD τ).loc main_arg4)) (m ((c : Thread nD τ).loc main_arg1))) (m ((c : Thread nD τ).loc main_arg5)) (m ((c : Thread nD τ).loc main_arg6)) (m ((c : Thread nD τ).loc main_arg1))) (m ((c : Thread nD τ).loc main_arg7)) (m ((c : Thread nD τ).loc main_arg8)) (m ((c : Thread nD τ).loc main_arg1))) (m ((c : Thread nD τ).loc main_arg2)) := by
  show StableHlo.after hostOps6 (W12 m ρ c) (Proc.devRef .tc main_v66) = _
  after_results_simp
  rw [w12_v54 m ρ c, KKeep.keep_main_arg2_12_0 m ρ c]
  unfold KDefs.pooled
  rfl

theorem w13_v67 : W13 m ρ c (Proc.devRef .tc main_v67) = shapeCast _ (m ((c : Thread nD τ).loc main_arg10)) Facts₀.shapeCasts_S32_S1x32 := by
  show StableHlo.after hostOps6 (W12 m ρ c) (Proc.devRef .tc main_v67) = _
  after_results_simp
  rw [KKeep.keep_main_arg10_12_0 m ρ c]
  rfl

theorem w13_v68 : W13 m ρ c (Proc.devRef .tc main_v68) = shapeCast _ (m ((c : Thread nD τ).loc main_arg12)) Facts₀.shapeCasts_S1_S1x1 := by
  show StableHlo.after hostOps6 (W12 m ρ c) (Proc.devRef .tc main_v68) = _
  after_results_simp
  rw [KKeep.keep_main_arg12_12_0 m ρ c]
  rfl

/-- THE RESULT BUFFER at the last boundary is the program's value of the launch contents of the arguments. -/
theorem w14_v69 : W14 m ρ c (Proc.devRef .tc main_v69) = KDefs.value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (W14_arr m ρ c 5).trans ((Regions.final6 (V13 m ρ) c).trans (by
    rw [show V13 m ρ c main_v66 = _ from w13_v66 m ρ c,
      show V13 m ρ c main_arg9 = (m ((c : Thread nD τ).loc main_arg9)) from KKeep.keep_main_arg9_13_0 m ρ c,
      show V13 m ρ c main_v67 = _ from w13_v67 m ρ c,
      show V13 m ρ c main_arg11 = (m ((c : Thread nD τ).loc main_arg11)) from KKeep.keep_main_arg11_13_0 m ρ c,
      show V13 m ρ c main_v68 = _ from w13_v68 m ρ c]
    rfl))

end Cert.KernelIdeal.KChain

end
-- ==== Proof.RDefs.lean ====
/-
  The reference program's computation as functions of the argument arrays at the exact instance (floats are
  extended reals), one definition per stretch of its host operations.

  From the edge list: sources and destinations with one self loop per node appended (`srcRaw`, `dstRaw`), each also
  wrapped into range for a lookup (`srcIdx`, `dstWrapIdx`), the in-degree (`deg`), its reciprocal square root where
  positive and zero elsewhere (`dinv`), and the weight of each edge, `dinv` at its source times `dinv` at its
  destination (`norm`). A layer from its product `H = X · W` (`layerOf`): the rows of `H` gathered at the sources, each
  multiplied by its edge's weight, summed into the destinations, shifted by the bias, clamped at zero. The per-graph
  mean (`pooled`), the two-layer head (`headOf`), and the whole result (`value`).
-/
import proofs.«108338_j35966056137051_1_alg».proof.ReferenceIdeal
import proofs.«108338_j35966056137051_1_alg».proof.Proof.Gen.ReferenceIdeal
import proofs.«108338_j35966056137051_1_alg».proof.Proof.Spec

noncomputable section

namespace Cert.ReferenceIdeal.RDefs

open Idealize.ShloMosaic Cert.ReferenceIdeal Cert.ReferenceIdeal.Facts₀

/-- Sources of the edges, then one self loop per node. -/
def srcRaw (ei : IVec S2x1250000 32) : IVec S1350000 32 :=
  concatenate S1350000 0 [⟨S1250000, shapeCast _ (extractStridedSlice S1x1250000 ![0, 0] ei slices_S2x1250000_S1x1250000_0_0) shapeCasts_S1x1250000_S1250000⟩, ⟨S100000, iotaInDim S100000 32 0⟩] concatenates_S1250000_S100000_S1350000_d0

/-- Destinations of the edges, then one self loop per node. -/
def dstRaw (ei : IVec S2x1250000 32) : IVec S1350000 32 :=
  concatenate S1350000 0 [⟨S1250000, shapeCast _ (extractStridedSlice S1x1250000 ![1, 0] ei slices_S2x1250000_S1x1250000_1_0) shapeCasts_S1x1250000_S1250000⟩, ⟨S100000, iotaInDim S100000 32 0⟩] concatenates_S1250000_S100000_S1350000_d0

/-- A node number as a row number for a lookup: a negative number has the node count added. -/
def wrap (v : IVec S1350000 32) : IVec S1350000x1 32 :=
  broadcastInDim S1350000x1 ![0] bcast_S1350000_S1350000x1_0
    (select (cmpi .slt v (broadcastInDim S1350000 ![] bcast_S_S1350000 (constantI S_ 32 0#32)))
      (addi v (broadcastInDim S1350000 ![] bcast_S_S1350000 (constantI S_ 32 100000#32))) v)

def srcIdx (ei : IVec S2x1250000 32) : IVec S1350000x1 32 := wrap (srcRaw ei)

def dstWrapIdx (ei : IVec S2x1250000 32) : IVec S1350000x1 32 := wrap (dstRaw ei)

/-- The destination of each edge as the bucket of a segment sum (not wrapped). -/
def dstIdx (ei : IVec S2x1250000 32) : IVec S1350000x1 32 :=
  broadcastInDim S1350000x1 ![0] bcast_S1350000_S1350000x1_0 (dstRaw ei)

/-- The number of edges into each node. -/
def deg (ei : IVec S2x1250000 32) : FVec Ideal S100000 .f32 :=
  Host.scatterAdd scatter_S100000_S1350000x1_S1350000_n_0_0_1
    (broadcastInDim S100000 ![] bcast_S_S100000 (constant S_ .f32 0x00000000#32)) (dstIdx ei)
    (broadcastInDim S1350000 ![] bcast_S_S1350000 (constant S_ .f32 0x3F800000#32))

/-- `1 / sqrt deg` where the degree is positive, zero elsewhere. -/
def dinv (ei : IVec S2x1250000 32) : FVec Ideal S100000 .f32 :=
  select (cmpf .ogt (deg ei) (broadcastInDim S100000 ![] bcast_S_S100000 (constant S_ .f32 0x00000000#32)))
    (Host.rsqrt (deg ei)) (broadcastInDim S100000 ![] bcast_S_S100000 (id (constant S_ .f32 0x00000000#32)))

/-- The weight of each edge: `dinv` at its source times `dinv` at its destination. -/
def norm (ei : IVec S2x1250000 32) : FVec Ideal S1350000 .f32 :=
  mulf (Host.gather gather_S100000_S1350000x1_S1350000_n_0_n_n_0_1_1 (dinv ei) (srcIdx ei))
    (Host.gather gather_S100000_S1350000x1_S1350000_n_0_n_n_0_1_1 (dinv ei) (dstWrapIdx ei))

/-- A layer from its product `H`: gather at the sources, weigh, sum into the destinations, add the bias, clamp at zero. -/
def layerOf (H : FVec Ideal S100000x64 .f32) (b : FVec Ideal S64 .f32) (ei : IVec S2x1250000 32) : FVec Ideal S100000x64 .f32 :=
  maximumf
    (addf
      (Host.scatterAdd scatter_S100000x64_S1350000x1_S1350000x64_1_0_0_1
        (broadcastInDim S100000x64 ![] bcast_S_S100000x64 (constant S_ .f32 0x00000000#32)) (dstIdx ei)
        (mulf (Host.gather gather_S100000x64_S1350000x1_S1350000x64_1_0_n_n_0_1_164 H (srcIdx ei))
          (broadcastInDim S1350000x64 ![0, 1] bcast_S1350000x1_S1350000x64_0_1
            (broadcastInDim S1350000x1 ![0] bcast_S1350000_S1350000x1_0 (norm ei)))))
      (broadcastInDim S100000x64 ![0, 1] bcast_S1x64_S100000x64_0_1 (broadcastInDim S1x64 ![1] bcast_S64_S1x64_1 b)))
    (broadcastInDim S100000x64 ![] bcast_S_S100000x64 (constant S_ .f32 0x00000000#32))

/-- The mean of the rows of `H` over each graph. -/
def pooled (H : FVec Ideal S100000x64 .f32) (batch : IVec S100000 32) : FVec Ideal S4096x64 .f32 :=
  Host.divf
    (Host.scatterAdd scatter_S4096x64_S100000x1_S100000x64_1_0_0_1
      (broadcastInDim S4096x64 ![] bcast_S_S4096x64 (constant S_ .f32 0x00000000#32))
      (broadcastInDim S100000x1 ![0] bcast_S100000_S100000x1_0 batch) H)
    (broadcastInDim S4096x64 ![0, 1] bcast_S4096x1_S4096x64_0_1
      (broadcastInDim S4096x1 ![0] bcast_S4096_S4096x1_0
        (maximumf
          (Host.scatterAdd scatter_S4096_S100000x1_S100000_n_0_0_1
            (broadcastInDim S4096 ![] bcast_S_S4096 (constant S_ .f32 0x00000000#32))
            (broadcastInDim S100000x1 ![0] bcast_S100000_S100000x1_0 batch)
            (broadcastInDim S100000 ![] bcast_S_S100000 (constant S_ .f32 0x3F800000#32)))
          (broadcastInDim S4096 ![] bcast_S_S4096 (constant S_ .f32 0x3F800000#32)))))

/-- The head: a hidden layer clamped at zero, then one output column. -/
def headOf (Pm : FVec Ideal S4096x64 .f32) (Wl1 : FVec Ideal S64x32 .f32) (bl1 : FVec Ideal S32 .f32)
    (Wl2 : FVec Ideal S32x1 .f32) (bl2 : FVec Ideal S1 .f32) : FVec Ideal S4096x1 .f32 :=
  addf
    (Host.dotGeneral dot_S4096x32_S32x1_S4096x1_1_0_0_1_n_n none
      (maximumf
        (addf (Host.dotGeneral dot_S4096x64_S64x32_S4096x32_1_0_0_1_n_n none Pm Wl1)
          (broadcastInDim S4096x32 ![0, 1] bcast_S1x32_S4096x32_0_1 (broadcastInDim S1x32 ![1] bcast_S32_S1x32_1 bl1)))
        (broadcastInDim S4096x32 ![] bcast_S_S4096x32 (constant S_ .f32 0x00000000#32)))
      Wl2)
    (broadcastInDim S4096x1 ![0, 1] bcast_S1x1_S4096x1_0_1 (broadcastInDim S1x1 ![1] bcast_S1_S1x1_1 bl2))

/-- The program's result. -/
def value (x : FVec Ideal S100000x128 .f32) (ei : IVec S2x1250000 32) (batch : IVec S100000 32)
    (W1 : FVec Ideal S128x64 .f32) (b1 : FVec Ideal S64 .f32) (W2 : FVec Ideal S64x64 .f32) (b2 : FVec Ideal S64 .f32)
    (W3 : FVec Ideal S64x64 .f32) (b3 : FVec Ideal S64 .f32) (Wl1 : FVec Ideal S64x32 .f32) (bl1 : FVec Ideal S32 .f32)
    (Wl2 : FVec Ideal S32x1 .f32) (bl2 : FVec Ideal S1 .f32) : FVec Ideal S4096x1 .f32 :=
  headOf
    (pooled
      (layerOf (Host.dotGeneral dot_S100000x64_S64x64_S100000x64_1_0_0_1_n_n none
        (layerOf (Host.dotGeneral dot_S100000x64_S64x64_S100000x64_1_0_0_1_n_n none
          (layerOf (Host.dotGeneral dot_S100000x128_S128x64_S100000x64_1_0_0_1_n_n none x W1) b1 ei) W2) b2 ei) W3) b3 ei)
      batch)
    Wl1 bl1 Wl2 bl2

end Cert.ReferenceIdeal.RDefs

end
-- ==== Proof.RefValue.lean ====
/-
  The reference program's result, as its run states it, is the composition of the named stages: three layers from
  their products, the per-graph mean, the head.
-/
import proofs.«108338_j35966056137051_1_alg».proof.Proof.RefRun
import proofs.«108338_j35966056137051_1_alg».proof.Proof.RDefs

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The term the run leaves in the result buffer is `RDefs.value` of the launch contents of the arguments. -/
theorem res_eq (m : (ℓ : Loc nD τ sig) → Buf (Elt Ideal) ℓ) (c : Dev nD) :
    Cert.ReferenceIdeal.ValueP.res_main_v104 (F := Ideal) m c = RDefs.value (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  unfold Cert.ReferenceIdeal.ValueP.res_main_v104 RDefs.value RDefs.headOf RDefs.pooled RDefs.layerOf RDefs.norm RDefs.dinv RDefs.deg RDefs.dstIdx RDefs.srcIdx RDefs.dstWrapIdx RDefs.wrap RDefs.srcRaw RDefs.dstRaw
  rfl

end Cert.ReferenceIdeal.RefValue

end
-- ==== Proof.HeadPool.lean ====
/-
  The dense stages' bridge lemmas that involve no edge list.

  * `head_law`: the two-layer head written entry by entry, `(∑ j, max ((∑ k, P g k · W1 k j) + b1 j) 0 · W2 j) + b2`,
    is the reference's head: its two matrix products are these sums over the contracted axis, its two bias
    broadcasts read the bias of the entry's column, and its clamp compares with the extended real zero.
  * `pooled_eq`: the per-graph mean is the same term in the two programs.
  * `product128`, `product64`: a layer's scaled product is, entry by entry, the host's matrix product at that entry
    times the row's scale.

  Nothing is assumed finite: every step is an equation between extended reals.
-/
import proofs.«108338_j35966056137051_1_alg».proof.Proof.KDefs
import proofs.«108338_j35966056137051_1_alg».proof.Proof.RDefs
import proofs.«108338_j35966056137051_1_alg».proof.Proof.LibDot
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Bridge

open Idealize.ShloMosaic Idealize.ShloMosaic.ValueIdx

/-- The per-graph mean is literally the same term in the two programs: the same operations with the same shape
    facts, and two proofs of one proposition are equal. -/
theorem pooled_eq (H : FVec Ideal ReferenceIdeal.S100000x64 .f32) (batch : IVec ReferenceIdeal.S100000 32) :
    KernelIdeal.KDefs.pooled H batch = ReferenceIdeal.RDefs.pooled H batch := by
  unfold KernelIdeal.KDefs.pooled ReferenceIdeal.RDefs.pooled
  rfl

/-- A layer's scaled product on 128 input features: entry `(p, q)` is the host's matrix product at `(p, q)`
    times the scale of row `p`. -/
theorem product128 (X : FVec Ideal ReferenceIdeal.S100000x128 .f32) (W : FVec Ideal ReferenceIdeal.S128x64 .f32)
    (d : Spec.Mat 100000 1) :
    Spec.scaledProduct X W d = Spec.ofEntries fun p q =>
      (Host.dotGeneral ReferenceIdeal.dot_S100000x128_S128x64_S100000x64_1_0_0_1_n_n none X W) (ix2 p q)
        * d (ix2 p (0 : Fin 1)) := by
  unfold Spec.scaledProduct
  refine congrArg Spec.ofEntries (funext fun p => funext fun q => ?_)
  exact congrArg (· * d (ix2 p (0 : Fin 1)))
    (LibDot.dotGeneral_plain ReferenceIdeal.dot_S100000x128_S128x64_S100000x64_1_0_0_1_n_n rfl none .single X W p q).symm

/-- The same on 64 input features. -/
theorem product64 (X : FVec Ideal ReferenceIdeal.S100000x64 .f32) (W : FVec Ideal ReferenceIdeal.S64x64 .f32)
    (d : Spec.Mat 100000 1) :
    Spec.scaledProduct X W d = Spec.ofEntries fun p q =>
      (Host.dotGeneral ReferenceIdeal.dot_S100000x64_S64x64_S100000x64_1_0_0_1_n_n none X W) (ix2 p q)
        * d (ix2 p (0 : Fin 1)) := by
  unfold Spec.scaledProduct
  refine congrArg Spec.ofEntries (funext fun p => funext fun q => ?_)
  exact congrArg (· * d (ix2 p (0 : Fin 1)))
    (LibDot.dotGeneral_plain ReferenceIdeal.dot_S100000x64_S64x64_S100000x64_1_0_0_1_n_n rfl none .single X W p q).symm

/-- The 32 biases, laid out as one row and repeated down the 4096 rows, read at `(g, j)`: the bias of column `j`. -/
theorem bias32_apply (b : FVec Ideal ReferenceIdeal.S32 .f32) (g : Fin 4096) (j : Fin 32) :
    broadcastInDim ReferenceIdeal.S4096x32 ![0, 1] ReferenceIdeal.Facts₀.bcast_S1x32_S4096x32_0_1
      (broadcastInDim ReferenceIdeal.S1x32 ![1] ReferenceIdeal.Facts₀.bcast_S32_S1x32_1 b) (ix2 g j) = b (ix1 j) :=
  (broadcastInDim_apply _ ReferenceIdeal.Facts₀.bcast_S1x32_S4096x32_0_1 _ (ix2 g j) (ix2 (0 : Fin 1) j) (fun a => match a with
    | ⟨0, _⟩ => by show 0 = if (1 : Nat) = 1 then 0 else g.val; rw [if_pos rfl]
    | ⟨1, _⟩ => by show j.val = if (32 : Nat) = 1 then 0 else j.val; rw [if_neg (by decide)])).trans
  (broadcastInDim_apply _ ReferenceIdeal.Facts₀.bcast_S32_S1x32_1 b (ix2 (0 : Fin 1) j) (ix1 j) (fun a => match a with
    | ⟨0, _⟩ => by show j.val = if (32 : Nat) = 1 then 0 else j.val; rw [if_neg (by decide)]))

/-- The single output bias, laid out as a one-by-one matrix and repeated down the 4096 rows, read at `(g, 0)`. -/
theorem bias1_apply (b : FVec Ideal ReferenceIdeal.S1 .f32) (g : Fin 4096) (u : Fin 1) :
    broadcastInDim ReferenceIdeal.S4096x1 ![0, 1] ReferenceIdeal.Facts₀.bcast_S1x1_S4096x1_0_1
      (broadcastInDim ReferenceIdeal.S1x1 ![1] ReferenceIdeal.Facts₀.bcast_S1_S1x1_1 b) (ix2 g u) = b (ix1 (0 : Fin 1)) :=
  (broadcastInDim_apply _ ReferenceIdeal.Facts₀.bcast_S1x1_S4096x1_0_1 _ (ix2 g u) (ix2 (0 : Fin 1) (0 : Fin 1)) (fun a => match a with
    | ⟨0, _⟩ => by show 0 = if (1 : Nat) = 1 then 0 else g.val; rw [if_pos rfl]
    | ⟨1, _⟩ => by show 0 = if (1 : Nat) = 1 then 0 else u.val; rw [if_pos rfl])).trans
  (broadcastInDim_apply _ ReferenceIdeal.Facts₀.bcast_S1_S1x1_1 b (ix2 (0 : Fin 1) (0 : Fin 1)) (ix1 (0 : Fin 1)) (fun a => match a with
    | ⟨0, _⟩ => by show 0 = if (1 : Nat) = 1 then 0 else 0; rw [if_pos rfl]))

/-- The scalar zero repeated over the 4096 × 32 hidden matrix is the extended real zero at every entry. -/
theorem zero4096x32_apply (g : Fin 4096) (j : Fin 32) :
    broadcastInDim ReferenceIdeal.S4096x32 ![] ReferenceIdeal.Facts₀.bcast_S_S4096x32
      (constant (F := Ideal) ReferenceIdeal.S_ .f32 0x00000000#32) (ix2 g j) = (0 : EReal) := by
  rw [broadcastInDim_apply _ ReferenceIdeal.Facts₀.bcast_S_S4096x32 _ (ix2 g j) ix0 (fun a => a.elim0), constant_apply,
    Ideal.ofBits_zero_f32]

/-- THE HEAD: for each row `g`, `(∑ j, max ((∑ k, P g k · W1 k j) + b1 j) 0 · W2 j) + b2` is what the reference's
    two matrix products, two bias additions and one clamp compute. -/
theorem head_law (Pm : FVec Ideal ReferenceIdeal.S4096x64 .f32) (Wl1 : FVec Ideal ReferenceIdeal.S64x32 .f32)
    (bl1 : FVec Ideal ReferenceIdeal.S32 .f32) (Wl2 : FVec Ideal ReferenceIdeal.S32x1 .f32)
    (bl2 : FVec Ideal ReferenceIdeal.S1 .f32) :
    Spec.mlpHead Pm Wl1 (shapeCast _ bl1 KernelIdeal.Facts₀.shapeCasts_S32_S1x32) Wl2
        (shapeCast _ bl2 KernelIdeal.Facts₀.shapeCasts_S1_S1x1)
      = ReferenceIdeal.RDefs.headOf Pm Wl1 bl1 Wl2 bl2 := by
  funext i
  obtain ⟨g, u, rfl⟩ : ∃ (g : Fin 4096) (u : Fin 1), i = ix2 g u := ⟨i 0, i 1, eq_ix2 i⟩
  obtain rfl : u = 0 := Subsingleton.elim _ _
  unfold ReferenceIdeal.RDefs.headOf Spec.mlpHead
  rw [Spec.ofEntries_ix2, addf_apply, bias1_apply]
  refine congr (congrArg _ ?_) ?_
  · refine ((LibDot.dotGeneral_plain ReferenceIdeal.dot_S4096x32_S32x1_S4096x1_1_0_0_1_n_n rfl none .single _ Wl2 g 0).trans ?_).symm
    refine Finset.sum_congr rfl fun j _ => ?_
    rw [maximumf_apply, addf_apply, bias32_apply, zero4096x32_apply]
    rw [show Host.dotGeneral ReferenceIdeal.dot_S4096x64_S64x32_S4096x32_1_0_0_1_n_n none Pm Wl1 (ix2 g j)
          = ∑ k : Fin 64, Pm (ix2 g k) * Wl1 (ix2 k j)
        from LibDot.dotGeneral_plain ReferenceIdeal.dot_S4096x64_S64x32_S4096x32_1_0_0_1_n_n rfl none .single Pm Wl1 g j]
    rw [shapeCast_a_1a_apply]
  · exact shapeCast_a_1a_apply bl2 _ 0 0

end Cert.Bridge

end
-- ==== Proof.LibRowOps.lean ====
/-
  Row gather and row scatter-add, read at an index.

  `x[idx]` of a matrix `x : [N, C]` at a vector of `E` row numbers lowers to a gather whose start indices are an
  `[E, 1]` array: row `e` of the result is row `idx[e, 0]` of `x`, the row number read as a signed integer and clamped
  into `[0, N - 1]`. A segment sum of `E` rows into `N` buckets lowers to a scatter with an `add` body over the same
  kind of index array: element `(n, k)` of the result is the operand's plus the sum of `upd[e, k]` over the rows `e`
  whose row number, read signed and NOT clamped, is exactly `n` (a row number outside `[0, N)` contributes nothing).
  Both are stated for any extents, over dimension numbers given as a generic record, and for the scatter at the
  exact instance, where the accumulation is a finite sum of extended reals.
-/
import Idealize.ShloMosaic.PureOps.Ideal
import Idealize.ShloMosaic.Lib.ValueIdx

noncomputable section

open scoped BigOperators

namespace Cert.LibRowOps

open Idealize.ShloMosaic Idealize.ShloMosaic.ValueIdx

/-- The position `[e, 0]` of the `[E, 1]` array of row numbers that row `e` of an `[E, C]` array reads. -/
abbrev rowPos {E C : Nat} (y : (⟨2, ![E, C]⟩ : Shape).Idx) : (⟨2, ![E, 1]⟩ : Shape).Idx :=
  fun a => match a with | ⟨0, _⟩ => ⟨(y 0).val, idx2_lt0 y⟩ | ⟨1, _⟩ => ⟨0, Nat.one_pos⟩

/-! ## The gather -/

section Gather
variable {α : Type}

/-- The dimension numbers of a row gather: operand `[N, C]`, start indices `[E, 1]`, result `[E, C]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER AT `(e, k)`: the operand at row `idx[e, 0]`, read signed and clamped into `[0, N - 1]`, column `k`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (y : (⟨2, ![E, C]⟩ : Shape).Idx) :
    Host.gather (rowGatherDims N E C wf) x idx y
      = x (ix2 ⟨min (idx (rowPos y)).toInt.toNat (N - 1), by omega⟩ (y 1)) := by
  unfold Host.gather
  congr 1
  funext a
  refine Fin.ext ?_
  match a with
  | ⟨0, _⟩ =>
    show (rowGatherDims N E C wf).start y idx 0 + (rowGatherDims N E C wf).batchCoord y 0
      + (rowGatherDims N E C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx y ⟨List.idxOf (0 : Fin 2) (rowGatherDims N E C wf).startIndexMap,
        List.idxOf_lt_length_iff.2 (List.mem_singleton.mpr rfl)⟩ = rowPos y := by
      funext b; refine Fin.ext ?_
      match b with
      | ⟨0, _⟩ => rfl
      | ⟨1, _⟩ => rfl
    rw [hsi]
    rfl
  | ⟨1, _⟩ =>
    show (rowGatherDims N E C wf).start y idx 1 + (rowGatherDims N E C wf).batchCoord y 1
      + (rowGatherDims N E C wf).offCoord y 1 = (y 1).val
    rw [GatherDims.batchCoord_eq_zero _ _ _ List.not_mem_nil]
    have hs : (rowGatherDims N E C wf).start y idx 1 = 0 := by
      unfold GatherDims.start
      rw [dif_neg (show (1 : Fin 2) ∉ ([0] : List (Fin 2)) by decide)]
    have ho : (rowGatherDims N E C wf).offCoord y 1 = (y 1).val := by
      unfold GatherDims.offCoord
      rw [dif_pos ((GatherDims.mem_sKept _ _).mpr ⟨(show (1 : Fin 2) ∉ ([0] : List (Fin 2)) by decide), List.not_mem_nil⟩)]
      rfl
    rw [hs, ho]; omega

end Gather

/-! ## The scatter-add -/

section Scatter

/-- The dimension numbers of a row scatter: operand `[N, C]`, scatter indices `[E, 1]`, updates `[E, C]`. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On the row axis an update starts at its row number, read signed. -/
theorem rowScatter_start0 (j : (⟨2, ![E, C]⟩ : Shape).Idx) (idx : IVec ⟨2, ![E, 1]⟩ w) :
    (rowScatterDims N E C wf).start j idx 0 = (idx (rowPos j)).toInt := by
  unfold ScatterDims.start
  rw [dif_pos (show (0 : Fin 2) ∈ (rowScatterDims N E C wf).scatterDimsToOperandDims from List.mem_singleton.mpr rfl)]
  have hsi : (rowScatterDims N E C wf).siIdx j ⟨List.idxOf (0 : Fin 2) (rowScatterDims N E C wf).scatterDimsToOperandDims,
      List.idxOf_lt_length_iff.2 (List.mem_singleton.mpr rfl)⟩ = rowPos j := by
    funext b; refine Fin.ext ?_
    match b with
    | ⟨0, _⟩ => rfl
    | ⟨1, _⟩ => rfl
  rw [hsi]

/-- On the column axis an update starts at zero. -/
theorem rowScatter_start1 (j : (⟨2, ![E, C]⟩ : Shape).Idx) (idx : IVec ⟨2, ![E, 1]⟩ w) :
    (rowScatterDims N E C wf).start j idx 1 = 0 := by
  unfold ScatterDims.start
  rw [dif_neg (show (1 : Fin 2) ∉ ([0] : List (Fin 2)) by decide)]

/-- The row axis is inserted: no window coordinate. -/
theorem rowScatter_window0 (j : (⟨2, ![E, C]⟩ : Shape).Idx) : (rowScatterDims N E C wf).window j 0 = 0 := by
  unfold ScatterDims.window
  rw [dif_neg (by simp [ScatterDims.sKept, Shape.kept])]

/-- The column axis carries the update's column. -/
theorem rowScatter_window1 (j : (⟨2, ![E, C]⟩ : Shape).Idx) : (rowScatterDims N E C wf).window j 1 = (j 1).val := by
  unfold ScatterDims.window
  rw [dif_pos (by simp [ScatterDims.sKept, Shape.kept])]
  rfl

/-- WHERE AN UPDATE LANDS: update `(e, c)` lands on `(n, k)` exactly when row `e`'s number, read signed, is `n`
    and `c = k`. -/
theorem rowScatter_resultIdx_eq_some (j : (⟨2, ![E, C]⟩ : Shape).Idx) (idx : IVec ⟨2, ![E, 1]⟩ w)
    (i : (⟨2, ![N, C]⟩ : Shape).Idx) :
    (rowScatterDims N E C wf).resultIdx? j idx = some i
      ↔ (idx (rowPos j)).toInt = ((i 0).val : Int) ∧ (j 1).val = (i 1).val := by
  have h0 : (rowScatterDims N E C wf).start j idx 0 + ((rowScatterDims N E C wf).window j 0 : Int) = (idx (rowPos j)).toInt := by
    rw [rowScatter_start0, rowScatter_window0]; simp
  have h1 : (rowScatterDims N E C wf).start j idx 1 + ((rowScatterDims N E C wf).window j 1 : Int) = ((j 1).val : Int) := by
    rw [rowScatter_start1, rowScatter_window1]; simp
  have hi0 := idx2_lt0 i
  have hi1 := idx2_lt1 i
  have hj1 := idx2_lt1 j
  unfold ScatterDims.resultIdx?
  constructor
  · intro h
    split at h
    · rename_i hb
      have e := Option.some.inj h
      have e0 : ((rowScatterDims N E C wf).start j idx 0 + ((rowScatterDims N E C wf).window j 0 : Int)).toNat = (i 0).val :=
        congrArg Fin.val (congrFun e 0)
      have e1 : ((rowScatterDims N E C wf).start j idx 1 + ((rowScatterDims N E C wf).window j 1 : Int)).toNat = (i 1).val :=
        congrArg Fin.val (congrFun e 1)
      have b0 := (hb 0).1
      rw [h0] at e0 b0
      rw [h1] at e1
      constructor <;> omega
    · exact absurd h (by simp)
  · rintro ⟨e0, e1⟩
    have hb : ∀ a, 0 ≤ (rowScatterDims N E C wf).start j idx a + ((rowScatterDims N E C wf).window j a : Int)
        ∧ (rowScatterDims N E C wf).start j idx a + ((rowScatterDims N E C wf).window j a : Int) < ((⟨2, ![N, C]⟩ : Shape).size a : Int) := by
      intro a
      match a with
      | ⟨0, _⟩ =>
        show 0 ≤ (rowScatterDims N E C wf).start j idx 0 + ((rowScatterDims N E C wf).window j 0 : Int)
          ∧ (rowScatterDims N E C wf).start j idx 0 + ((rowScatterDims N E C wf).window j 0 : Int) < (N : Int)
        rw [h0, e0]; omega
      | ⟨1, _⟩ =>
        show 0 ≤ (rowScatterDims N E C wf).start j idx 1 + ((rowScatterDims N E C wf).window j 1 : Int)
          ∧ (rowScatterDims N E C wf).start j idx 1 + ((rowScatterDims N E C wf).window j 1 : Int) < (C : Int)
        rw [h1]; omega
    rw [dif_pos hb]
    congr 1
    funext a
    refine Fin.ext ?_
    match a with
    | ⟨0, _⟩ =>
      show ((rowScatterDims N E C wf).start j idx 0 + ((rowScatterDims N E C wf).window j 0 : Int)).toNat = (i 0).val
      rw [h0, e0]; simp
    | ⟨1, _⟩ =>
      show ((rowScatterDims N E C wf).start j idx 1 + ((rowScatterDims N E C wf).window j 1 : Int)).toNat = (i 1).val
      rw [h1]; omega

/-- The row-number position of update `(e, c)` is `[e, 0]`, whatever the column. -/
theorem rowPos_ix2 (e : Fin E) (c : Fin C) : rowPos (ix2 e c) = ix2 e (0 : Fin 1) := by
  funext a
  match a with
  | ⟨0, _⟩ => rfl
  | ⟨1, _⟩ => rfl

/-- THE ROW SCATTER-ADD AT `(n, k)`, exactly: the operand's element plus the sum of `upd[e, k]` over the rows `e`
    whose number, read signed, is `n`. -/
theorem rowScatterAdd_apply (x : (⟨2, ![N, C]⟩ : Shape).Idx → EReal) (idx : IVec ⟨2, ![E, 1]⟩ w)
    (upd : (⟨2, ![E, C]⟩ : Shape).Idx → EReal) (n : Fin N) (k : Fin C) :
    Ideal.hostScatterAdd (rowScatterDims N E C wf) x idx upd (ix2 n k)
      = x (ix2 n k)
        + ∑ e ∈ Finset.univ.filter (fun e : Fin E => (idx (ix2 e (0 : Fin 1))).toInt = (n.val : Int)), upd (ix2 e k) := by
  unfold Ideal.hostScatterAdd
  congr 1
  rw [Finset.sum_filter, sum_idx2, Finset.sum_filter]
  refine Finset.sum_congr rfl fun e _ => ?_
  have key : ∀ c : Fin C, (rowScatterDims N E C wf).resultIdx? (ix2 e c) idx = some (ix2 n k)
      ↔ (idx (ix2 e (0 : Fin 1))).toInt = (n.val : Int) ∧ c.val = k.val := fun c => by
    rw [rowScatter_resultIdx_eq_some, rowPos_ix2]
    exact Iff.rfl
  by_cases hQ : (idx (ix2 e (0 : Fin 1))).toInt = (n.val : Int)
  · rw [if_pos hQ, Finset.sum_eq_single k]
    · rw [if_pos ((key k).mpr ⟨hQ, rfl⟩)]
    · intro c _ hc
      rw [if_neg fun h => hc (Fin.ext ((key c).mp h).2)]
    · intro h; exact absurd (Finset.mem_univ k) h
  · rw [if_neg hQ]
    exact Finset.sum_eq_zero fun c _ => if_neg fun h => hQ ((key c).mp h).1

end Scatter

/-! ## The two reads in the form a certificate uses -/

/-- The row of an `N`-row matrix that row number `idx[e, 0]` names once read signed and clamped into `[0, N - 1]`. -/
def clampedRow {N E w : Nat} (hN : 0 < N) (idx : IVec ⟨2, ![E, 1]⟩ w) (e : Fin E) : Fin N :=
  ⟨min (idx (ix2 e (0 : Fin 1))).toInt.toNat (N - 1), by omega⟩

/-- The rows `e` whose number `idx[e, 0]`, read signed and not clamped, is exactly `n`. -/
def rowsInto {N E w : Nat} (idx : IVec ⟨2, ![E, 1]⟩ w) (n : Fin N) : Finset (Fin E) :=
  Finset.univ.filter fun e : Fin E => (idx (ix2 e (0 : Fin 1))).toInt = (n.val : Int)

/-- A gather whose dimension numbers are a row gather's, at `(e, k)`: the operand at the clamped row, column `k`. -/
theorem gather_rows {α : Type} {N E C w : Nat} (hN : 0 < N)
    (wf : GatherDims.WF ⟨2, ![N, C]⟩ ⟨2, ![E, 1]⟩ ⟨2, ![E, C]⟩ [1] [0] [] [0] [] 1 ![1, C])
    (d : GatherDims ⟨2, ![N, C]⟩ ⟨2, ![E, 1]⟩ ⟨2, ![E, C]⟩) (hd : d = rowGatherDims N E C wf)
    (x : (⟨2, ![N, C]⟩ : Shape).Idx → α) (idx : IVec ⟨2, ![E, 1]⟩ w) (e : Fin E) (k : Fin C) :
    Host.gather d x idx (ix2 e k) = x (ix2 (clampedRow hN idx e) k) := by
  subst hd
  rw [rowGather_apply hN]
  refine congrArg x ?_
  funext a
  apply Fin.ext
  match a with
  | ⟨0, _⟩ =>
    show min (idx (rowPos (ix2 e k))).toInt.toNat (N - 1) = min (idx (ix2 e (0 : Fin 1))).toInt.toNat (N - 1)
    rw [rowPos_ix2]
  | ⟨1, _⟩ => rfl

/-- A float scatter-add whose dimension numbers are a row scatter's, at the exact instance and at `(n, k)`: the
    operand's element plus the sum of `upd[e, k]` over the rows into `n`. -/
theorem scatterAdd_rows {N E C w : Nat} {φ : FTy}
    (wf : ScatterDims.WF ⟨2, ![N, C]⟩ ⟨2, ![E, 1]⟩ ⟨2, ![E, C]⟩ [1] [0] [0] 1)
    (d : ScatterDims ⟨2, ![N, C]⟩ ⟨2, ![E, 1]⟩ ⟨2, ![E, C]⟩) (hd : d = rowScatterDims N E C wf)
    (x : (⟨2, ![N, C]⟩ : Shape).Idx → EReal) (idx : IVec ⟨2, ![E, 1]⟩ w) (upd : (⟨2, ![E, C]⟩ : Shape).Idx → EReal)
    (n : Fin N) (k : Fin C) :
    Host.scatterAdd (F := Ideal) (φ := φ) d x idx upd (ix2 n k) = x (ix2 n k) + ∑ e ∈ rowsInto idx n, upd (ix2 e k) := by
  subst hd
  exact rowScatterAdd_apply wf x idx upd n k

end Cert.LibRowOps
-- ==== Proof.LibERealSums.lean ====
/-
  Sums of extended reals against a factor.

  On the extended reals multiplication does not distribute over addition in general (`⊤ + ⊥` is `⊥`), but it does
  in the two cases a mean aggregation needs: a sum of NON-NEGATIVE terms times any factor, and any sum times a factor
  that is non-negative and not `⊤`. From these: aggregating non-negative rows over a set of edges, scaling by such a
  factor `d` and then contracting with a weight column gives the same number as contracting each row first,
  aggregating, and scaling last.
-/
import Mathlib.Data.EReal.Inv

open scoped BigOperators

namespace Cert.LibERealSums

/-- A sum of non-negative extended reals times any factor is the sum of the products. -/
theorem sum_mul_of_nonneg {ι : Type*} (s : Finset ι) (f : ι → EReal) (hf : ∀ i ∈ s, 0 ≤ f i) (c : EReal) :
    (∑ i ∈ s, f i) * c = ∑ i ∈ s, f i * c := by
  classical
  induction s using Finset.induction_on with
  | empty => simp
  | insert a s ha ih =>
    have hs : ∀ i ∈ s, 0 ≤ f i := fun i hi => hf i (Finset.mem_insert_of_mem hi)
    rw [Finset.sum_insert ha, Finset.sum_insert ha,
      EReal.right_distrib_of_nonneg (hf a (Finset.mem_insert_self a s)) (Finset.sum_nonneg hs), ih hs]

/-- Any sum of extended reals times a non-negative factor other than `⊤` is the sum of the products. -/
theorem sum_mul_of_nonneg_ne_top {ι : Type*} (s : Finset ι) (f : ι → EReal) (c : EReal) (hc : 0 ≤ c) (hc' : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top hc hc', ih]

/-- MEAN AGGREGATION COMMUTES WITH A PROJECTION. For non-negative rows `H e` indexed by the edges `e ∈ s`, a scale
    `d` that is non-negative and not `⊤`, and a weight column `w`: the aggregated and scaled row contracted with
    `w` is the aggregate of the contracted rows, scaled. No finiteness of `H` or of `w` is needed. -/
theorem aggregate_scale_project {E K : Type*} [Fintype K] (s : Finset E) (H : E → K → EReal) (hH : ∀ e k, 0 ≤ H e k)
    (d : EReal) (hd : 0 ≤ d) (hd' : d ≠ ⊤) (w : K → EReal) :
    ∑ k, ((∑ e ∈ s, H e k) * d) * w k = (∑ e ∈ s, ∑ k, H e k * w k) * d := by
  rw [sum_mul_of_nonneg_ne_top s _ d hd hd']
  have h1 : ∀ k, ((∑ e ∈ s, H e k) * d) * w k = ∑ e ∈ s, (H e k * d) * w k := fun k => by
    rw [sum_mul_of_nonneg s (fun e => H e k) (fun e _ => hH e k) d,
      sum_mul_of_nonneg s (fun e => H e k * d) (fun e _ => mul_nonneg (hH e k) hd) (w k)]
  simp only [h1]
  rw [Finset.sum_comm]
  refine Finset.sum_congr rfl fun e _ => ?_
  rw [sum_mul_of_nonneg_ne_top Finset.univ _ d hd hd']
  exact Finset.sum_congr rfl fun k _ => mul_right_comm _ _ _

end Cert.LibERealSums
-- ==== Proof.LibEReal.lean ====
/-
  General facts about Mathlib's extended reals, and about two of the ideal float
  operations on them, that the certificate of a normalised graph convolution needs.
  Nothing here mentions a program.
-/
import Mathlib
import Idealize.ShloMosaic.PureOps.Ideal

open scoped BigOperators
open Idealize.ShloMosaic

namespace Cert.LibEReal

/-- The coercion `ℝ → EReal` commutes with a finite sum. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- For a real `x > 0` the reciprocal square root is the real `(√x)⁻¹`. -/
theorem rsqrt_coe_of_pos {x : ℝ} (hx : 0 < x) :
    Ideal.rsqrt (x : EReal) = (((Real.sqrt x)⁻¹ : ℝ) : EReal) := by
  show (if x < 0 then (⊥ : EReal) else if x = 0 then ⊤ else (((Real.sqrt x)⁻¹ : ℝ) : EReal)) = _
  rw [if_neg (not_lt.mpr hx.le), if_neg hx.ne']

/-- For a real `x > 0`, raising to the power `-1/2` is the reciprocal square root. -/
theorem pow_neg_half_eq_rsqrt {x : ℝ} (hx : 0 < x) :
    Ideal.pow (x : EReal) ((-1 / 2 : ℝ) : EReal) = Ideal.rsqrt (x : EReal) := by
  rw [rsqrt_coe_of_pos hx]
  show ((Real.rpow x (-1 / 2) : ℝ) : EReal) = _
  congr 1
  show x ^ (-1 / 2 : ℝ) = (Real.sqrt x)⁻¹
  rw [show (-1 / 2 : ℝ) = -(1 / 2) by ring, Real.rpow_neg hx.le, Real.sqrt_eq_rpow]

/-- For a real `x > 0` the reciprocal square root is a real `> 0`. -/
theorem rsqrt_pos_real {x : ℝ} (hx : 0 < x) :
    ∃ r : ℝ, 0 < r ∧ Ideal.rsqrt (x : EReal) = (r : EReal) :=
  ⟨(Real.sqrt x)⁻¹, inv_pos.mpr (Real.sqrt_pos.mpr hx), rsqrt_coe_of_pos hx⟩

/-- For a real `x > 0` the power `x ^ (-1/2)` is a real `> 0`. -/
theorem pow_neg_half_pos_real {x : ℝ} (hx : 0 < x) :
    ∃ r : ℝ, 0 < r ∧ Ideal.pow (x : EReal) ((-1 / 2 : ℝ) : EReal) = (r : EReal) := by
  rw [pow_neg_half_eq_rsqrt hx]; exact rsqrt_pos_real hx

/-- The indicator of the diagonal, as an extended real, is the coercion of the real one. -/
theorem coe_ite_one_zero (p : Prop) [Decidable p] :
    (if p then (1 : EReal) else 0) = (((if p then (1 : ℝ) else 0) : ℝ) : EReal) := by
  split <;> simp

/-- The graph-convolution law on reals, read in the extended reals: scaling row `i` of
    `A·(d ⊙ x) + d ⊙ x` by `d i` is the row `i` of `(D (A + I) D) x`. Every entry is a real, so the
    extended-real sums and products are the coercions of the real ones, where the ring laws hold. -/
theorem gcn_law {n : ℕ} (d : Fin n → ℝ) (A : Fin n → Fin n → ℝ) (x : Fin n → ℝ) (i : Fin n) :
    (d i : EReal) * ((∑ k, (A i k : EReal) * ((d k : EReal) * (x k : EReal)))
        + (d i : EReal) * (x i : EReal))
      = ∑ j, (((d i : EReal) * ((A i j : EReal) + (if i = j then (1 : EReal) else 0)))
          * (d j : EReal)) * (x j : EReal) := by
  simp only [coe_ite_one_zero, ← EReal.coe_mul, ← EReal.coe_add, ← coe_finset_sum]
  congr 1
  have h : ∀ j, d i * (A i j + (if i = j then (1 : ℝ) else 0)) * d j * x j
      = d i * (A i j * (d j * x j)) + (if i = j then d i * (d j * x j) else 0) := by
    intro j; split <;> ring
  simp only [h, Finset.sum_add_distrib, Finset.sum_ite_eq, Finset.mem_univ, if_true,
    ← Finset.mul_sum]
  ring

/-- The row sums of `A + I` are the row sums of `A` plus one. -/
theorem sum_add_diag {n : ℕ} (A : Fin n → Fin n → ℝ) (i : Fin n) :
    (∑ j, ((A i j : EReal) + (if i = j then (1 : EReal) else 0)))
      = (∑ j, (A i j : EReal)) + 1 := by
  simp only [coe_ite_one_zero, ← EReal.coe_add, ← coe_finset_sum, ← EReal.coe_one,
    Finset.sum_add_distrib, Finset.sum_ite_eq, Finset.mem_univ, if_true]

end Cert.LibEReal
-- ==== Proof.LayerLaw.lean ====
/-
  The layer law of the normalised graph convolution: the kernel program's layer equals the reference's.

  Write `s e` for the source of edge `e` (a negative number has the node count added, and the row lookup then clamps
  it into range), `d` for the vector `dinv` (the reciprocal square root of the in-degree where that is positive, zero
  elsewhere), and "the edges into `n`" for the edges whose destination number, read signed and NOT wrapped, is exactly
  `n` (a segment sum drops every other edge). At entry `(n, k)`

  * the kernel program scales the rows first and the aggregate afterwards:
      `max ((0 + ∑ e into n, H[s e, k] · d[s e]) · d[n] + b k) 0`;
  * the reference weighs every edge by `d` at its source times `d` at its wrapped and clamped destination `w e`:
      `max ((0 + ∑ e into n, H[s e, k] · (d[s e] · d[w e])) + b k) 0`.

  The two agree because (i) for an edge into `n` the destination IS `n`, a number in range, so wrapping and clamping
  leave it: `w e = n`; (ii) `d[n]` is non-negative and not `⊤` whatever the degree is (the reciprocal square root of
  `⊤` is `0`, of a positive real a positive real, and a degree that is not positive selects the literal `0`), and
  a sum of extended reals times such a factor is the sum of the products; (iii) the product of extended reals is
  associative. Nothing is assumed finite, neither of `H` nor of the bias.

  The two programs compute the edge columns and `dinv` by the same operations on the same literals, so those values
  are equal outright.
-/
import proofs.«108338_j35966056137051_1_alg».proof.Proof.KDefs
import proofs.«108338_j35966056137051_1_alg».proof.Proof.RDefs
import proofs.«108338_j35966056137051_1_alg».proof.Proof.LibRowOps
import proofs.«108338_j35966056137051_1_alg».proof.Proof.LibERealSums
import proofs.«108338_j35966056137051_1_alg».proof.Proof.LibEReal
import Idealize.ShloMosaic.Lib.ValueIdx
import Idealize.ShloMosaic.Lib.Pipeline.Value
import Idealize.ShloMosaic.Lib.ValueLayout
import Idealize.ShloMosaic.Lib.Affine
import Idealize.ShloMosaic.PureOps.Ideal.Laws

noncomputable section

open scoped BigOperators

namespace Cert.Bridge

open Idealize.ShloMosaic Idealize.ShloMosaic.ValueIdx Cert.LibRowOps

/-! ## What the two programs compute alike -/

/-- Both programs wrap the edges' sources the same way. -/
theorem srcIdx_eq (ei : IVec ReferenceIdeal.S2x1250000 32) :
    KernelIdeal.KDefs.srcIdx ei = ReferenceIdeal.RDefs.srcIdx ei := rfl

/-- Both programs use the same column of destinations as the buckets of the segment sum. -/
theorem dstIdx_eq (ei : IVec ReferenceIdeal.S2x1250000 32) :
    KernelIdeal.KDefs.dstIdx ei = ReferenceIdeal.RDefs.dstIdx ei := rfl

/-- Both programs compute the same vector of scale factors. -/
theorem dinv_eq (ei : IVec ReferenceIdeal.S2x1250000 32) :
    KernelIdeal.KDefs.dinv ei = ReferenceIdeal.RDefs.dinv ei := rfl

/-! ## The scale factor: non-negative and never `⊤` -/

/-- `1 / sqrt x` where `x > 0`, else `0`, is non-negative and not `⊤`, whatever `x` is: at `⊤` the reciprocal
    square root is `0`, at a positive real a positive real, and everywhere else the literal `0` is taken. -/
theorem sel_rsqrt_bounds (x : EReal) :
    0 ≤ Scalar.select (Ideal.cmp .ogt x 0) (Ideal.rsqrt x) 0
      ∧ Scalar.select (Ideal.cmp .ogt x 0) (Ideal.rsqrt x) 0 ≠ ⊤ := by
  by_cases h : (0 : EReal) < x
  · have hc : Ideal.cmp .ogt x 0 = 1#1 := by
      show BitVec.ofBool (decide ((0 : EReal) < x)) = 1#1
      rw [decide_eq_true h]; rfl
    rw [hc, select_one]
    induction x using EReal.rec with
    | bot => exact absurd h not_lt_bot
    | coe r =>
      have hr : 0 < r := by exact_mod_cast h
      rw [Cert.LibEReal.rsqrt_coe_of_pos hr]
      exact ⟨by exact_mod_cast (inv_pos.mpr (Real.sqrt_pos.mpr hr)).le, EReal.coe_ne_top _⟩
    | top => rw [Ideal.rsqrt_top]; exact ⟨le_refl _, EReal.zero_ne_top⟩
  · have hc : Ideal.cmp .ogt x 0 = 0#1 := by
      show BitVec.ofBool (decide ((0 : EReal) < x)) = 0#1
      rw [decide_eq_false h]; rfl
    rw [hc, select_zero]
    exact ⟨le_refl _, EReal.zero_ne_top⟩

/-- A scalar broadcast to any shape reads, at every index, the scalar. -/
theorem bcast_scalar_apply {t : Shape} {α : Type} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- The host's reciprocal square root of a vector, at an index, is the extended reals' of the entry. -/
theorem hostRsqrt_apply {s : Shape} (D : FVec Ideal s .f32) (i : s.Idx) : Host.rsqrt D i = Ideal.rsqrt (D i) := rfl

/-- The comparison `a > b` of two vectors, at an index, is the extended reals' comparison of the entries. -/
theorem cmpf_ogt_apply {s : Shape} (a b : FVec Ideal s .f32) (i : s.Idx) :
    cmpf .ogt a b i = Ideal.cmp .ogt (a i) (b i) := rfl

/-- The reference's `dinv` at a node is non-negative and not `⊤`, whatever the node's degree. -/
theorem dinv_bounds (ei : IVec ReferenceIdeal.S2x1250000 32) (i : ReferenceIdeal.S100000.Idx) :
    0 ≤ ReferenceIdeal.RDefs.dinv ei i ∧ ReferenceIdeal.RDefs.dinv ei i ≠ ⊤ := by
  unfold ReferenceIdeal.RDefs.dinv
  generalize ReferenceIdeal.RDefs.deg ei = D
  have hz : constant (F := Ideal) ReferenceIdeal.S_ .f32 0x00000000#32 ix0 = (0 : EReal) := Ideal.ofBits_zero_f32
  rw [select_apply, cmpf_ogt_apply, hostRsqrt_apply, bcast_scalar_apply, bcast_scalar_apply, id_eq, hz]
  exact sel_rsqrt_bounds (D i)

/-! ## Layout operations of the two programs, read at an index -/

/-- A vector of edge numbers as an `[E, 1]` column reads, at `(e, 0)`, the vector at `e`. -/
theorem col_apply {α : Type} (v : ReferenceIdeal.S1350000.Idx → α) (e : Fin 1350000) :
    broadcastInDim ReferenceIdeal.S1350000x1 ![0] ReferenceIdeal.Facts₀.bcast_S1350000_S1350000x1_0 v (ix2 e (0 : Fin 1))
      = v (ix1 e) :=
  broadcastInDim_apply _ _ v _ (ix1 e) (fun a => match a with
    | ⟨0, _⟩ => by show e.val = if (1350000 : Nat) = 1 then 0 else e.val; rw [if_neg (by decide)])

/-- A vector of edge numbers spread over `64` columns reads, at `(e, k)`, the vector at `e`. -/
theorem spread_apply {α : Type} (v : ReferenceIdeal.S1350000.Idx → α) (e : Fin 1350000) (k : Fin 64) :
    broadcastInDim ReferenceIdeal.S1350000x64 ![0, 1] ReferenceIdeal.Facts₀.bcast_S1350000x1_S1350000x64_0_1
        (broadcastInDim ReferenceIdeal.S1350000x1 ![0] ReferenceIdeal.Facts₀.bcast_S1350000_S1350000x1_0 v) (ix2 e k)
      = v (ix1 e) :=
  (broadcastInDim_apply _ _ _ _ (ix2 e (0 : Fin 1)) (fun a => match a with
    | ⟨0, _⟩ => by show e.val = if (1350000 : Nat) = 1 then 0 else e.val; rw [if_neg (by decide)]
    | ⟨1, _⟩ => by show 0 = if (1 : Nat) = 1 then 0 else k.val; rw [if_pos rfl])).trans (col_apply v e)

/-- The bias row spread over all nodes reads, at `(n, k)`, the bias at `k`. -/
theorem bias_apply {α : Type} (b : ReferenceIdeal.S64.Idx → α) (n : Fin 100000) (k : Fin 64) :
    broadcastInDim ReferenceIdeal.S100000x64 ![0, 1] ReferenceIdeal.Facts₀.bcast_S1x64_S100000x64_0_1
        (broadcastInDim ReferenceIdeal.S1x64 ![1] ReferenceIdeal.Facts₀.bcast_S64_S1x64_1 b) (ix2 n k)
      = b (ix1 k) :=
  (broadcastInDim_apply _ _ _ _ (ix2 (0 : Fin 1) k) (fun a => match a with
    | ⟨0, _⟩ => by show 0 = if (1 : Nat) = 1 then 0 else n.val; rw [if_pos rfl]
    | ⟨1, _⟩ => by show k.val = if (64 : Nat) = 1 then 0 else k.val; rw [if_neg (by decide)])).trans
  (broadcastInDim_apply _ _ b _ (ix1 k) (fun a => match a with
    | ⟨0, _⟩ => by show k.val = if (64 : Nat) = 1 then 0 else k.val; rw [if_neg (by decide)]))

/-- An `[a]` array cast to a column `[a, 1]` reads, at `(p, u)`, the operand at `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-! ## The wrap of a node number that is already in range -/

/-- The wrapped column at `(e, 0)`: the number at `e`, with the node count added if it is negative. -/
theorem wrap_apply (v : IVec ReferenceIdeal.S1350000 32) (e : Fin 1350000) :
    ReferenceIdeal.RDefs.wrap v (ix2 e (0 : Fin 1))
      = Scalar.select (IntOp.cmpi .slt (v (ix1 e)) 0#32) (IntOp.addi (v (ix1 e)) 100000#32) (v (ix1 e)) := by
  unfold ReferenceIdeal.RDefs.wrap
  rw [col_apply, select_apply]
  show Scalar.select (IntOp.cmpi .slt (v (ix1 e)) (broadcastInDim _ _ _ (constantI _ 32 0#32) (ix1 e)))
    (IntOp.addi (v (ix1 e)) (broadcastInDim _ _ _ (constantI _ 32 100000#32) (ix1 e))) (v (ix1 e)) = _
  rw [bcast_scalar_apply, bcast_scalar_apply]
  rfl

/-- A number that, read signed, is a node `n` is not negative, so the wrap leaves it. -/
theorem wrap_of_node (v : IVec ReferenceIdeal.S1350000 32) (e : Fin 1350000) (n : Fin 100000)
    (h : (v (ix1 e)).toInt = (n.val : Int)) : ReferenceIdeal.RDefs.wrap v (ix2 e (0 : Fin 1)) = v (ix1 e) := by
  rw [wrap_apply]
  have hc : IntOp.cmpi .slt (v (ix1 e)) 0#32 = 0#1 := by
    apply eq_zero_of_ne_one
    rw [IntOp.cmpi_slt, h]
    have h0 : (0#32 : BitVec 32).toInt = 0 := by decide
    rw [h0]
    omega
  rw [hc, select_zero]

/-- For an edge into node `n` the wrapped and clamped destination is `n` itself. -/
theorem clampedRow_dstWrap (ei : IVec ReferenceIdeal.S2x1250000 32) (n : Fin 100000) (e : Fin 1350000)
    (he : e ∈ rowsInto (ReferenceIdeal.RDefs.dstIdx ei) n) :
    clampedRow (by omega : 0 < 100000) (ReferenceIdeal.RDefs.dstWrapIdx ei) e = n := by
  have h : (ReferenceIdeal.RDefs.dstRaw ei (ix1 e)).toInt = (n.val : Int) := by
    have h1 := (Finset.mem_filter.mp he).2
    rwa [show ReferenceIdeal.RDefs.dstIdx ei (ix2 e (0 : Fin 1)) = ReferenceIdeal.RDefs.dstRaw ei (ix1 e) from
      col_apply _ e] at h1
  apply Fin.ext
  show min (ReferenceIdeal.RDefs.dstWrapIdx ei (ix2 e (0 : Fin 1))).toInt.toNat (100000 - 1) = n.val
  rw [show ReferenceIdeal.RDefs.dstWrapIdx ei (ix2 e (0 : Fin 1)) = ReferenceIdeal.RDefs.dstRaw ei (ix1 e) from
    wrap_of_node _ e n h, h]
  have := n.isLt
  omega

/-! ## The gather of a vector at a column of row numbers -/

/-- The dimension numbers of a vector gather: operand `[N]`, start indices `[E, 1]`, result `[E]`. -/
abbrev vecGatherDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER AT `e`: the operand at `idx[e, 0]`, read signed and clamped into `[0, N - 1]`. -/
theorem vecGather_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampedRow hN idx e)) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The reference's gather of a per-node vector at a column of node numbers, at edge `e`. -/
theorem nodeGather_apply {α : Type} (x : ReferenceIdeal.S100000.Idx → α) (idx : IVec ReferenceIdeal.S1350000x1 32)
    (e : Fin 1350000) :
    Host.gather ReferenceIdeal.gather_S100000_S1350000x1_S1350000_n_0_n_n_0_1_1 x idx (ix1 e)
      = x (ix1 (clampedRow (by omega : 0 < 100000) idx e)) :=
  vecGather_apply (by omega) ReferenceIdeal.Facts₀.gather_S100000_S1350000x1_S1350000_n_0_n_n_0_1_1_wf x idx e

/-! ## The two sides at an entry -/

/-- The kernel program's aggregation at `(n, k)`: zero plus the sum, over the edges into `n`, of the operand's row
    at the edge's source, column `k`. -/
theorem aggregate_apply (A : FVec Ideal KernelIdeal.S100000x64 .f32) (ei : IVec ReferenceIdeal.S2x1250000 32)
    (n : Fin 100000) (k : Fin 64) :
    KernelIdeal.KDefs.aggregate A ei (ix2 n k)
      = 0 + ∑ e ∈ rowsInto (KernelIdeal.KDefs.dstIdx ei) n,
          A (ix2 (clampedRow (by omega : 0 < 100000) (KernelIdeal.KDefs.srcIdx ei) e) k) := by
  unfold KernelIdeal.KDefs.aggregate
  generalize KernelIdeal.KDefs.dstIdx ei = di
  generalize KernelIdeal.KDefs.srcIdx ei = si
  refine (scatterAdd_rows KernelIdeal.Facts₀.scatter_S100000x64_S1350000x1_S1350000x64_1_0_0_1_wf
    KernelIdeal.scatter_S100000x64_S1350000x1_S1350000x64_1_0_0_1 rfl _ di _ n k).trans ?_
  have hz : constant (F := Ideal) KernelIdeal.S_ .f32 0x00000000#32 ix0 = (0 : EReal) := Ideal.ofBits_zero_f32
  rw [bcast_scalar_apply, hz]
  refine congrArg (fun s : EReal => (0 : EReal) + s) (Finset.sum_congr rfl fun e _ => ?_)
  exact gather_rows (by omega) KernelIdeal.Facts₀.gather_S100000x64_S1350000x1_S1350000x64_1_0_n_n_0_1_164_wf
    KernelIdeal.gather_S100000x64_S1350000x1_S1350000x64_1_0_n_n_0_1_164 rfl A si e k

/-- The kernel program's column of scale factors at `(p, 0)` is its vector of scale factors at `p`. -/
theorem dinvCol_apply (ei : IVec ReferenceIdeal.S2x1250000 32) (p : Fin 100000) :
    KernelIdeal.KDefs.dinvCol ei (ix2 p (0 : Fin 1)) = KernelIdeal.KDefs.dinv ei (ix1 p) :=
  shapeCast_a_a1_apply _ _ p 0

/-- THE KERNEL SIDE AT `(n, k)`: the rows `H[s e] · dinv[s e]` summed over the edges `e` into `n`, the sum
    multiplied by `dinv[n]`, plus the bias, clamped below at zero. -/
theorem kernel_entry (H : FVec Ideal ReferenceIdeal.S100000x64 .f32) (b : FVec Ideal ReferenceIdeal.S64 .f32)
    (ei : IVec ReferenceIdeal.S2x1250000 32) (n : Fin 100000) (k : Fin 64) :
    Spec.scaleBiasRelu
        (KernelIdeal.KDefs.aggregate
          (Spec.ofEntries fun p q => H (ix2 p q) * KernelIdeal.KDefs.dinvCol ei (ix2 p (0 : Fin 1))) ei)
        (KernelIdeal.KDefs.dinvCol ei) (shapeCast _ b KernelIdeal.Facts₀.shapeCasts_S64_S1x64) (ix2 n k)
      = max ((0 + ∑ e ∈ rowsInto (KernelIdeal.KDefs.dstIdx ei) n,
                H (ix2 (clampedRow (by omega : 0 < 100000) (KernelIdeal.KDefs.srcIdx ei) e) k)
                  * KernelIdeal.KDefs.dinv ei (ix1 (clampedRow (by omega : 0 < 100000) (KernelIdeal.KDefs.srcIdx ei) e)))
              * KernelIdeal.KDefs.dinv ei (ix1 n) + b (ix1 k)) 0 := by
  unfold Spec.scaleBiasRelu
  rw [Spec.ofEntries_ix2, aggregate_apply, dinvCol_apply, shapeCast_a_1a_apply b _ 0 k]
  simp only [Spec.ofEntries_ix2, dinvCol_apply]

/-- THE REFERENCE SIDE AT `(n, k)`: the rows `H[s e] · (dinv[s e] · dinv[w e])` summed over the edges `e` into `n`,
    plus the bias, clamped below at zero; `w e` is the edge's destination wrapped and clamped. -/
theorem layerOf_entry (H : FVec Ideal ReferenceIdeal.S100000x64 .f32) (b : FVec Ideal ReferenceIdeal.S64 .f32)
    (ei : IVec ReferenceIdeal.S2x1250000 32) (n : Fin 100000) (k : Fin 64) :
    ReferenceIdeal.RDefs.layerOf H b ei (ix2 n k)
      = max ((0 + ∑ e ∈ rowsInto (ReferenceIdeal.RDefs.dstIdx ei) n,
                H (ix2 (clampedRow (by omega : 0 < 100000) (ReferenceIdeal.RDefs.srcIdx ei) e) k)
                  * (ReferenceIdeal.RDefs.dinv ei (ix1 (clampedRow (by omega : 0 < 100000) (ReferenceIdeal.RDefs.srcIdx ei) e))
                    * ReferenceIdeal.RDefs.dinv ei
                        (ix1 (clampedRow (by omega : 0 < 100000) (ReferenceIdeal.RDefs.dstWrapIdx ei) e))))
              + b (ix1 k)) 0 := by
  unfold ReferenceIdeal.RDefs.layerOf
  have hz : constant (F := Ideal) ReferenceIdeal.S_ .f32 0x00000000#32 ix0 = (0 : EReal) := Ideal.ofBits_zero_f32
  rw [maximumf_apply, addf_apply, bias_apply, bcast_scalar_apply, hz]
  refine congrArg (fun s : EReal => max (s + b (ix1 k)) 0) ?_
  generalize ReferenceIdeal.RDefs.dstIdx ei = di
  refine (scatterAdd_rows ReferenceIdeal.Facts₀.scatter_S100000x64_S1350000x1_S1350000x64_1_0_0_1_wf
    ReferenceIdeal.scatter_S100000x64_S1350000x1_S1350000x64_1_0_0_1 rfl _ di _ n k).trans ?_
  rw [bcast_scalar_apply, hz]
  refine congrArg (fun s : EReal => (0 : EReal) + s) (Finset.sum_congr rfl fun e _ => ?_)
  rw [mulf_apply, spread_apply,
    gather_rows (by omega) ReferenceIdeal.Facts₀.gather_S100000x64_S1350000x1_S1350000x64_1_0_n_n_0_1_164_wf
      ReferenceIdeal.gather_S100000x64_S1350000x1_S1350000x64_1_0_n_n_0_1_164 rfl H (ReferenceIdeal.RDefs.srcIdx ei) e k]
  unfold ReferenceIdeal.RDefs.norm
  rw [mulf_apply, nodeGather_apply, nodeGather_apply]

/-! ## The layer law -/

/-- THE LAYER LAW. Scaling the rows of `H` by `dinv` before the aggregation and the aggregated rows by `dinv` after
    it is weighing every edge by `dinv` at its source times `dinv` at its destination: for an edge into `n` the
    destination is `n`, so its wrap and clamp change nothing; `dinv[n]` is non-negative and not `⊤`, so it
    distributes over the sum of the edges into `n`; and the product of extended reals is associative. Nothing is
    assumed finite. -/
theorem layer_law (H : FVec Ideal ReferenceIdeal.S100000x64 .f32) (b : FVec Ideal ReferenceIdeal.S64 .f32)
    (ei : IVec ReferenceIdeal.S2x1250000 32) :
    Spec.scaleBiasRelu
        (KernelIdeal.KDefs.aggregate
          (Spec.ofEntries fun p q => H (ix2 p q) * KernelIdeal.KDefs.dinvCol ei (ix2 p (0 : Fin 1))) ei)
        (KernelIdeal.KDefs.dinvCol ei) (shapeCast _ b KernelIdeal.Facts₀.shapeCasts_S64_S1x64)
      = ReferenceIdeal.RDefs.layerOf H b ei := by
  funext i
  obtain ⟨n, k, rfl⟩ : ∃ (n : Fin 100000) (k : Fin 64), i = ix2 n k := ⟨i 0, i 1, eq_ix2 i⟩
  rw [kernel_entry, layerOf_entry]
  rw [dstIdx_eq, srcIdx_eq, dinv_eq]
  refine congrArg (fun s : EReal => max (s + b (ix1 k)) 0) ?_
  rw [zero_add, zero_add,
    Cert.LibERealSums.sum_mul_of_nonneg_ne_top _ _ _ (dinv_bounds ei (ix1 n)).1 (dinv_bounds ei (ix1 n)).2]
  refine Finset.sum_congr rfl fun e he => ?_
  rw [clampedRow_dstWrap ei n e he, mul_assoc]

end Cert.Bridge

end
-- ==== Proof.ValueEq.lean ====
/-
  The whole value: the kernel program's three layers, per-graph mean and head are the reference's.

  Each layer is the scaled product followed by the aggregation, the second scaling, the bias and the clamp; the
  scaled product is the host's matrix product times the row scale, and the layer law then turns the kernel's layer on
  that product into the reference's layer on the same product. Applied innermost first to the three layers, with the
  equal per-graph means and the head law, the two results are the same function of the thirteen arguments.
-/
import proofs.«108338_j35966056137051_1_alg».proof.Proof.HeadPool
import proofs.«108338_j35966056137051_1_alg».proof.Proof.LayerLaw

noncomputable section

namespace Cert.Bridge

open Idealize.ShloMosaic Idealize.ShloMosaic.ValueIdx

/-- The first layer (128 input features): the kernel's layer is the reference's layer on the host's product. -/
theorem layer128 (X : FVec Ideal ReferenceIdeal.S100000x128 .f32) (W : FVec Ideal ReferenceIdeal.S128x64 .f32)
    (b : FVec Ideal ReferenceIdeal.S64 .f32) (ei : IVec ReferenceIdeal.S2x1250000 32) :
    KernelIdeal.KDefs.layer X W b ei
      = ReferenceIdeal.RDefs.layerOf
          (Host.dotGeneral ReferenceIdeal.dot_S100000x128_S128x64_S100000x64_1_0_0_1_n_n none X W) b ei := by
  unfold KernelIdeal.KDefs.layer
  rw [product128]
  exact layer_law (Host.dotGeneral ReferenceIdeal.dot_S100000x128_S128x64_S100000x64_1_0_0_1_n_n none X W) b ei

/-- The second and third layers (64 input features). -/
theorem layer64 (X : FVec Ideal ReferenceIdeal.S100000x64 .f32) (W : FVec Ideal ReferenceIdeal.S64x64 .f32)
    (b : FVec Ideal ReferenceIdeal.S64 .f32) (ei : IVec ReferenceIdeal.S2x1250000 32) :
    KernelIdeal.KDefs.layer X W b ei
      = ReferenceIdeal.RDefs.layerOf
          (Host.dotGeneral ReferenceIdeal.dot_S100000x64_S64x64_S100000x64_1_0_0_1_n_n none X W) b ei := by
  unfold KernelIdeal.KDefs.layer
  rw [product64]
  exact layer_law (Host.dotGeneral ReferenceIdeal.dot_S100000x64_S64x64_S100000x64_1_0_0_1_n_n none X W) b ei

/-- THE WHOLE VALUE: three layers, the per-graph mean and the head agree in the two programs. -/
theorem value_eq (x : FVec Ideal ReferenceIdeal.S100000x128 .f32) (ei : IVec ReferenceIdeal.S2x1250000 32)
    (batch : IVec ReferenceIdeal.S100000 32) (W1 : FVec Ideal ReferenceIdeal.S128x64 .f32)
    (b1 : FVec Ideal ReferenceIdeal.S64 .f32) (W2 : FVec Ideal ReferenceIdeal.S64x64 .f32)
    (b2 : FVec Ideal ReferenceIdeal.S64 .f32) (W3 : FVec Ideal ReferenceIdeal.S64x64 .f32)
    (b3 : FVec Ideal ReferenceIdeal.S64 .f32) (Wl1 : FVec Ideal ReferenceIdeal.S64x32 .f32)
    (bl1 : FVec Ideal ReferenceIdeal.S32 .f32) (Wl2 : FVec Ideal ReferenceIdeal.S32x1 .f32)
    (bl2 : FVec Ideal ReferenceIdeal.S1 .f32) :
    KernelIdeal.KDefs.value x ei batch W1 b1 W2 b2 W3 b3 Wl1 bl1 Wl2 bl2
      = ReferenceIdeal.RDefs.value x ei batch W1 b1 W2 b2 W3 b3 Wl1 bl1 Wl2 bl2 := by
  unfold KernelIdeal.KDefs.value ReferenceIdeal.RDefs.value
  rw [layer128 x W1 b1 ei]
  rw [layer64 _ W2 b2 ei]
  rw [layer64 _ W3 b3 ei]
  rw [pooled_eq, head_law]

end Cert.Bridge

end
-- ==== Proof.lean ====
/-
  The certificate of a three-layer graph convolution network with a per-graph mean and a two-layer head, against its
  plain reference, over the extended reals.

  Both programs compute, from the edge list with one self loop per node, the in-degree and `dinv = 1 / sqrt deg` (zero
  where the degree is not positive). The kernel program multiplies row `p` of `X · W` by `dinv p` before the rows are
  gathered at the edges' sources and summed into their destinations, and multiplies row `n` of the sum by `dinv n`
  afterwards; the reference multiplies the gathered row of `X · W` by the edge's weight `dinv (source) · dinv (destination)`
  before the sum. An edge summed into node `n` has destination `n`, so its weight is `dinv (source) · dinv n`; the factor
  `dinv n` is a non-negative extended real other than `⊤` whatever the degree, and such a factor distributes over any
  finite sum of extended reals; products are associative. Hence each layer agrees, for arbitrary extended-real inputs;
  the per-graph mean is the same term in both programs, and the head is the same sums entry by entry. The precondition
  (finite inputs) is not used by the value claim.

  The frames of the two kernel programs are their generated frame certificates, the reference's is its run; the ideal
  pass rewrote nothing, so the kernel's idealization has nothing to preserve.
-/
import proofs.«108338_j35966056137051_1_alg».proof.Defs
import proofs.«108338_j35966056137051_1_alg».proof.Proof.Gen.Kernel
import proofs.«108338_j35966056137051_1_alg».proof.Proof.Gen.Kernel.Frame
import proofs.«108338_j35966056137051_1_alg».proof.Proof.Gen.KernelIdeal
import proofs.«108338_j35966056137051_1_alg».proof.Proof.Gen.KernelIdeal.Frame
import proofs.«108338_j35966056137051_1_alg».proof.Proof.Gen.ReferenceIdeal
import proofs.«108338_j35966056137051_1_alg».proof.Proof.Gen.Pre_finite_inputs
import proofs.«108338_j35966056137051_1_alg».proof.Proof.KRun
import proofs.«108338_j35966056137051_1_alg».proof.Proof.KChain
import proofs.«108338_j35966056137051_1_alg».proof.Proof.RefRun
import proofs.«108338_j35966056137051_1_alg».proof.Proof.RefValue
import proofs.«108338_j35966056137051_1_alg».proof.Proof.ValueEq
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- The idealized kernel program runs and leaves its arguments as launched. -/
theorem frame_kernelIdeal : Cert.frame_KernelIdeal := fun m ρ _ => Cert.KernelIdeal.Gen.frame m ρ

/-- The idealized reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Over the extended reals the two programs end with the same result: the kernel's result buffer is `KDefs.value` of
    its arguments, the reference's is `RDefs.value` of its own, the arguments agree, and the two values are one function. -/
theorem algebraic : Cert.algebraic_KernelIdeal_ReferenceIdeal := by
  intro m ρ m' ρ' _ hagree
  refine ⟨fun c => Cert.KernelIdeal.KDefs.value (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.KChain.w14_v69 m ρ c), (h c).2⟩)
      (Cert.KernelIdeal.KRun.run_main m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8, e9, e10, e11, e12⟩ := hagree c
    rw [Cert.ReferenceIdeal.RefValue.res_eq, e0, e1, e2, e3, e4, e5, e6, e7, e8, e9, e10, e11, e12]
    exact (Cert.Bridge.value_eq _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
